-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x1024x1024 : Shape := ⟨4, ![4, 1, 1024, 1024]⟩
abbrev S1x8192x2 : Shape := ⟨3, ![1, 8192, 2]⟩
abbrev S_ : Shape := ⟨0, ![]⟩

class Facts : Prop where
  bcast_S_S4x1x1024x1024 : S_.BroadcastsInDim S4x1x1024x1024 (![] : Fin 0 → Fin S4x1x1024x1024.rank)
  reducesTo_S4x1x1024x1024_S_d0_1_2_3 : S4x1x1024x1024.ReducesTo [0, 1, 2, 3] S_
  h_S_ : 0 < S_.numel
  bcast_S_S1x8192x2 : S_.BroadcastsInDim S1x8192x2 (![] : Fin 0 → Fin S1x8192x2.rank)
  reducesTo_S1x8192x2_S_d0_1_2 : S1x8192x2.ReducesTo [0, 1, 2] S_

variable [Facts]

def fn_part1 {F : FTy → Type} [FloatOps F] (main_v13 : IVec S_ 1) (main_v16 : IVec S1x8192x2 1) : IVec S_ 1 :=
  let main_c_5 : IVec S_ 1 := constantI S_ 1 1#1
  let main_v17 : IVec S_ 1 := (fun x v => Host.reduce IntOp.andi x v reducesTo_S1x8192x2_S_d0_1_2 h_S_) main_v16 main_c_5
  let main_v18 : IVec S_ 1 := andi main_v13 main_v17
  main_v18

def fn {F : FTy → Type} [FloatOps F] (main_arg0 : FVec F S4x1x1024x1024 .f32) (main_arg1 : FVec F S4x1x1024x1024 .f32) (main_arg2 : FVec F S1x8192x2 .f32) (main_arg3 : FVec F S1x8192x2 .f32) : IVec S_ 1 :=
  let main_v0 : FVec F S4x1x1024x1024 .f32 := Host.absf main_arg0
  let main_cst : FVec F S_ .f32 := constant S_ .f32 0x7F800000#32
  let main_v1 : FVec F S4x1x1024x1024 .f32 := broadcastInDim S4x1x1024x1024 ![] bcast_S_S4x1x1024x1024 main_cst
  let main_v2 : IVec S4x1x1024x1024 1 := cmpf .olt main_v0 main_v1
  let main_c : IVec S_ 1 := constantI S_ 1 1#1
  let main_v3 : IVec S_ 1 := (fun x v => Host.reduce IntOp.andi x v reducesTo_S4x1x1024x1024_S_d0_1_2_3 h_S_) main_v2 main_c
  let main_v4 : FVec F S4x1x1024x1024 .f32 := Host.absf main_arg1
  let main_cst_0 : FVec F S_ .f32 := constant S_ .f32 0x7F800000#32
  let main_v5 : FVec F S4x1x1024x1024 .f32 := broadcastInDim S4x1x1024x1024 ![] bcast_S_S4x1x1024x1024 main_cst_0
  let main_v6 : IVec S4x1x1024x1024 1 := cmpf .olt main_v4 main_v5
  let main_c_1 : IVec S_ 1 := constantI S_ 1 1#1
  let main_v7 : IVec S_ 1 := (fun x v => Host.reduce IntOp.andi x v reducesTo_S4x1x1024x1024_S_d0_1_2_3 h_S_) main_v6 main_c_1
  let main_v8 : IVec S_ 1 := andi main_v3 main_v7
  let main_v9 : FVec F S1x8192x2 .f32 := Host.absf main_arg2
  let main_cst_2 : FVec F S_ .f32 := constant S_ .f32 0x7F800000#32
  let main_v10 : FVec F S1x8192x2 .f32 := broadcastInDim S1x8192x2 ![] bcast_S_S1x8192x2 main_cst_2
  let main_v11 : IVec S1x8192x2 1 := cmpf .olt main_v9 main_v10
  let main_c_3 : IVec S_ 1 := constantI S_ 1 1#1
  let main_v12 : IVec S_ 1 := (fun x v => Host.reduce IntOp.andi x v reducesTo_S1x8192x2_S_d0_1_2 h_S_) main_v11 main_c_3
  let main_v13 : IVec S_ 1 := andi main_v8 main_v12
  let main_v14 : FVec F S1x8192x2 .f32 := Host.absf main_arg3
  let main_cst_4 : FVec F S_ .f32 := constant S_ .f32 0x7F800000#32
  let main_v15 : FVec F S1x8192x2 .f32 := broadcastInDim S1x8192x2 ![] bcast_S_S1x8192x2 main_cst_4
  let main_v16 : IVec S1x8192x2 1 := cmpf .olt main_v14 main_v15
  fn_part1 (F := F) main_v13 main_v16
-- ==== Kernel.lean ====
abbrev S4x1x1024x1024 : Shape := ⟨4, ![4, 1, 1024, 1024]⟩
abbrev S1x8192x2 : Shape := ⟨3, ![1, 8192, 2]⟩
abbrev S1x3 : Shape := ⟨2, ![1, 3]⟩
abbrev S1x1x1024x1024 : Shape := ⟨4, ![1, 1, 1024, 1024]⟩
abbrev S1x1 : Shape := ⟨2, ![1, 1]⟩
abbrev S3 : Shape := ⟨1, ![3]⟩
abbrev S1 : Shape := ⟨1, ![1]⟩
abbrev S_ : Shape := ⟨0, ![]⟩
abbrev S1x8192x1 : Shape := ⟨3, ![1, 8192, 1]⟩
abbrev S8192 : Shape := ⟨1, ![8192]⟩
abbrev S8192x1 : Shape := ⟨2, ![8192, 1]⟩
abbrev S1x8192 : Shape := ⟨2, ![1, 8192]⟩
abbrev S128x1 : Shape := ⟨2, ![128, 1]⟩
abbrev S128x8192 : Shape := ⟨2, ![128, 8192]⟩
abbrev S128 : Shape := ⟨1, ![128]⟩

abbrev nBuf : Space → Nat
  | .hbm => 62
  | .vmem => 22
  | .smem => 0
  | _ => 0

abbrev bufTy : (tb : Table) → Fin (tcTables nBuf tb) → BufTy
  | .hbm, ⟨0, _⟩ => ⟨S4x1x1024x1024, .f32⟩
  | .hbm, ⟨1, _⟩ => ⟨S4x1x1024x1024, .f32⟩
  | .hbm, ⟨2, _⟩ => ⟨S1x8192x2, .f32⟩
  | .hbm, ⟨3, _⟩ => ⟨S1x8192x2, .f32⟩
  | .hbm, ⟨4, _⟩ => ⟨S1x3, .f32⟩
  | .hbm, ⟨5, _⟩ => ⟨S3, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x8192x1, .f32⟩
  | .hbm, ⟨23, _⟩ => ⟨S8192, .f32⟩
  | .hbm, ⟨24, _⟩ => ⟨S8192x1, .f32⟩
  | .hbm, ⟨25, _⟩ => ⟨S1x8192x1, .f32⟩
  | .hbm, ⟨26, _⟩ => ⟨S8192, .f32⟩
  | .hbm, ⟨27, _⟩ => ⟨S8192x1, .f32⟩
  | .hbm, ⟨28, _⟩ => ⟨S1x8192x1, .f32⟩
  | .hbm, ⟨29, _⟩ => ⟨S8192, .f32⟩
  | .hbm, ⟨30, _⟩ => ⟨S1x8192, .f32⟩
  | .hbm, ⟨31, _⟩ => ⟨S1x8192x1, .f32⟩
  | .hbm, ⟨32, _⟩ => ⟨S8192, .f32⟩
  | .hbm, ⟨33, _⟩ => ⟨S1x8192, .f32⟩
  | .hbm, ⟨34, _⟩ => ⟨S1x8192x1, .f32⟩
  | .hbm, ⟨35, _⟩ => ⟨S8192, .f32⟩
  | .hbm, ⟨36, _⟩ => ⟨S8192x1, .f32⟩
  | .hbm, ⟨37, _⟩ => ⟨S1x8192x1, .f32⟩
  | .hbm, ⟨38, _⟩ => ⟨S8192, .f32⟩
  | .hbm, ⟨39, _⟩ => ⟨S8192x1, .f32⟩
  | .hbm, ⟨40, _⟩ => ⟨S1x8192x1, .f32⟩
  | .hbm, ⟨41, _⟩ => ⟨S8192, .f32⟩
  | .hbm, ⟨42, _⟩ => ⟨S1x8192, .f32⟩
  | .hbm, ⟨43, _⟩ => ⟨S1x8192x1, .f32⟩
  | .hbm, ⟨44, _⟩ => ⟨S8192, .f32⟩
  | .hbm, ⟨45, _⟩ => ⟨S1x8192, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x3, .f32⟩
  | .local _ .vmem, ⟨5, _⟩ => ⟨S1x3, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S1x8192, .f32⟩
  | .local _ .vmem, ⟨11, _⟩ => ⟨S1x8192, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S128x1, .f32⟩
  | .local _ .vmem, ⟨17, _⟩ => ⟨S128x1, .f32⟩
  | .local _ .vmem, ⟨18, _⟩ => ⟨S1x8192, .f32⟩
  | .local _ .vmem, ⟨19, _⟩ => ⟨S1x8192, .f32⟩
  | .local _ .vmem, ⟨20, _⟩ => ⟨S128x1, .f32⟩
  | .local _ .vmem, ⟨21, _⟩ => ⟨S128x1, .f32⟩
  | _, _ => ⟨S4x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v16 : BitVec 1 := Scalar.cmpi .eq arg0 c3_i32
  let v17 : BitVec 32 := Scalar.extui v16
  let c0_i32_14 : BitVec 32 := 0#32
  let v18 : BitVec 1 := Scalar.cmpi .ne v17 c0_i32_14
  v18

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x8192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S1x3_S1x3_0_0 : ∀ a, (![0, 0] : Fin 2 → Nat) a + S1x3.size a ≤ S1x3.size a
  h_S1x3 : 0 < S1x3.numel
  shapeCasts_S1x3_S1x3 : S1x3.ShapeCasts S1x3
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  reduces_S1x1x1024x1024_S1x1 : S1x1x1024x1024.Reduces [2, 3] S1x1
  concatenates_S1x1_S1x1_S1x1_S1x3_d1 : Shape.Concatenates [S1x1, S1x1, S1x1] S1x3 1
  shapeCasts_S1x3_S3 : S1x3.ShapeCasts S3
  slices_S3_S1_0 : S3.Slices ![0] S1
  shapeCasts_S1_S_ : S1.ShapeCasts S_
  slices_S3_S1_1 : S3.Slices ![1] S1
  slices_S3_S1_2 : S3.Slices ![2] S1
  slices_S1x8192x2_S1x8192x1_0_0_0 : S1x8192x2.Slices ![0, 0, 0] S1x8192x1
  shapeCasts_S1x8192x1_S8192 : S1x8192x1.ShapeCasts S8192
  shapeCasts_S8192_S8192x1 : S8192.ShapeCasts S8192x1
  slices_S1x8192x2_S1x8192x1_0_0_1 : S1x8192x2.Slices ![0, 0, 1] S1x8192x1
  shapeCasts_S8192_S1x8192 : S8192.ShapeCasts S1x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S4x1x1024x1024.size a
  hwx0_0 : ∀ i : grid0.Coords, EltTy.bits .f32 = 32 ∨ (Rect.block (s := S4x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S4x1x1024x1024.size a
  hwx0_1 : ∀ i : grid0.Coords, EltTy.bits .f32 = 32 ∨ (Rect.block (s := S4x1x1024x1024) S1x1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3.size a ≤ S1x3.size a
  hwx0_2 : ∀ i : grid0.Coords, EltTy.bits .f32 = 32 ∨ (Rect.block (s := S1x3) S1x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1.size a ≤ S8192x1.size a
  hwx1_0 : ∀ i : grid1.Coords, EltTy.bits .f32 = 32 ∨ (Rect.block (s := S8192x1) S128x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S8192x1.size a
  hwx1_1 : ∀ i : grid1.Coords, EltTy.bits .f32 = 32 ∨ (Rect.block (s := S8192x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S8192x1.size a
  hwx1_4 : ∀ i : grid1.Coords, EltTy.bits .f32 = 32 ∨ (Rect.block (s := S8192x1) S128x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x1.size a ≤ S8192x1.size a
  hwx2_0 : ∀ i : grid2.Coords, EltTy.bits .f32 = 32 ∨ (Rect.block (s := S8192x1) S128x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S8192x1.size a
  hwx2_1 : ∀ i : grid2.Coords, EltTy.bits .f32 = 32 ∨ (Rect.block (s := S8192x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8192.size a ≤ S1x8192.size a
  hwx2_2 : ∀ i : grid2.Coords, EltTy.bits .f32 = 32 ∨ (Rect.block (s := S1x8192) S1x8192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8192.size a ≤ S1x8192.size a
  hwx2_3 : ∀ i : grid2.Coords, EltTy.bits .f32 = 32 ∨ (Rect.block (s := S1x8192) S1x8192.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S8192x1.size a
  hwx2_4 : ∀ i : grid2.Coords, EltTy.bits .f32 = 32 ∨ (Rect.block (s := S8192x1) S128x1.size (cc2_transform_4 i) (hinb2_4 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v16) S128x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S128x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S128x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x8192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x8192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S128x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x1x1024x1024 : Shape := ⟨4, ![4, 1, 1024, 1024]⟩
abbrev S1x8192x2 : Shape := ⟨3, ![1, 8192, 2]⟩
abbrev S_ : Shape := ⟨0, ![]⟩
abbrev S1x8192x1x2 : Shape := ⟨4, ![1, 8192, 1, 2]⟩
abbrev S1x1x8192x2 : Shape := ⟨4, ![1, 1, 8192, 2]⟩
abbrev S1x8192x8192x2 : Shape := ⟨4, ![1, 8192, 8192, 2]⟩
abbrev S1x8192x8192 : Shape := ⟨3, ![1, 8192, 8192]⟩
abbrev S1x8192 : Shape := ⟨2, ![1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S4x1x1024x1024, .f32⟩
  | .hbm, ⟨1, _⟩ => ⟨S4x1x1024x1024, .f32⟩
  | .hbm, ⟨2, _⟩ => ⟨S1x8192x2, .f32⟩
  | .hbm, ⟨3, _⟩ => ⟨S1x8192x2, .f32⟩
  | .hbm, ⟨4, _⟩ => ⟨S4x1x1024x1024, .f32⟩
  | .hbm, ⟨5, _⟩ => ⟨S4x1x1024x1024, .f32⟩
  | .hbm, ⟨6, _⟩ => ⟨S_, .f32⟩
  | .hbm, ⟨7, _⟩ => ⟨S4x1x1024x1024, .f32⟩
  | .hbm, ⟨8, _⟩ => ⟨S4x1x1024x1024, .f32⟩
  | .hbm, ⟨9, _⟩ => ⟨S_, .f32⟩
  | .hbm, ⟨10, _⟩ => ⟨S4x1x1024x1024, .f32⟩
  | .hbm, ⟨11, _⟩ => ⟨S4x1x1024x1024, .f32⟩
  | .hbm, ⟨12, _⟩ => ⟨S4x1x1024x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x8192x1x2, .f32⟩
  | .hbm, ⟨30, _⟩ => ⟨S1x1x8192x2, .f32⟩
  | .hbm, ⟨31, _⟩ => ⟨S1x8192x8192x2, .f32⟩
  | .hbm, ⟨32, _⟩ => ⟨S1x8192x8192x2, .f32⟩
  | .hbm, ⟨33, _⟩ => ⟨S1x8192x8192x2, .f32⟩
  | .hbm, ⟨34, _⟩ => ⟨S1x8192x8192x2, .f32⟩
  | .hbm, ⟨35, _⟩ => ⟨S_, .f32⟩
  | .hbm, ⟨36, _⟩ => ⟨S1x8192x8192, .f32⟩
  | .hbm, ⟨37, _⟩ => ⟨S_, .f32⟩
  | .hbm, ⟨38, _⟩ => ⟨S1x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_cst_9 : Ref sig .tc := ⟨.hbm, 37, rfl⟩
abbrev main_v23 : Ref sig .tc := ⟨.hbm, 38, rfl⟩
abbrev main_cst_10 : Ref sig .tc := ⟨.hbm, 39, rfl⟩
abbrev main_v24 : Ref sig .tc := ⟨.hbm, 40, rfl⟩
abbrev main_cst_11 : Ref sig .tc := ⟨.hbm, 41, rfl⟩
abbrev main_v25 : Ref sig .tc := ⟨.hbm, 42, rfl⟩
abbrev main_cst_12 : Ref sig .tc := ⟨.hbm, 43, rfl⟩
abbrev main_v26 : Ref sig .tc := ⟨.hbm, 44, rfl⟩
abbrev main_cst_13 : Ref sig .tc := ⟨.hbm, 45, rfl⟩
abbrev main_v27 : Ref sig .tc := ⟨.hbm, 46, rfl⟩
abbrev main_cst_14 : Ref sig .tc := ⟨.hbm, 47, rfl⟩
abbrev main_v28 : Ref sig .tc := ⟨.hbm, 48, rfl⟩
abbrev main_v29 : Ref sig .tc := ⟨.hbm, 49, rfl⟩
abbrev main_cst_15 : Ref sig .tc := ⟨.hbm, 50, rfl⟩
abbrev main_v30 : Ref sig .tc := ⟨.hbm, 51, rfl⟩
abbrev main_cst_16 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  bcast_S_S4x1x1024x1024 : S_.BroadcastsInDim S4x1x1024x1024 (![] : Fin 0 → Fin S4x1x1024x1024.rank)
  reducesTo_S4x1x1024x1024_S_d0_1_2_3 : S4x1x1024x1024.ReducesTo [0, 1, 2, 3] S_
  h_S_ : 0 < S_.numel
  bcast_S1x8192x2_S1x8192x1x2_0_1_3 : S1x8192x2.BroadcastsInDim S1x8192x1x2 (![0, 1, 3] : Fin 3 → Fin S1x8192x1x2.rank)
  bcast_S1x8192x2_S1x1x8192x2_0_2_3 : S1x8192x2.BroadcastsInDim S1x1x8192x2 (![0, 2, 3] : Fin 3 → Fin S1x1x8192x2.rank)
  bcast_S1x8192x1x2_S1x8192x8192x2_0_1_2_3 : S1x8192x1x2.BroadcastsInDim S1x8192x8192x2 (![0, 1, 2, 3] : Fin 4 → Fin S1x8192x8192x2.rank)
  bcast_S1x1x8192x2_S1x8192x8192x2_0_1_2_3 : S1x1x8192x2.BroadcastsInDim S1x8192x8192x2 (![0, 1, 2, 3] : Fin 4 → Fin S1x8192x8192x2.rank)
  reducesTo_S1x8192x8192x2_S1x8192x8192_d3 : S1x8192x8192x2.ReducesTo [3] S1x8192x8192
  reducesTo_S1x8192x8192_S1x8192_d2 : S1x8192x8192.ReducesTo [2] S1x8192
  reducesTo_S1x8192_S_d0_1 : S1x8192.ReducesTo [0, 1] S_
  reducesTo_S1x8192x8192_S1x8192_d1 : S1x8192x8192.ReducesTo [1] S1x8192

variable [Facts₀]

class Facts : Prop extends Facts₀ where

variable [Facts]
-- ==== Proof.Dice.Shared.lean ====
/-
  The Dice region (the first kernel launch): what its three control cases share.

  The grid has four points, one per batch slice. The body zeroes a 1×3 accumulator at the first point, adds the
  slice's three sums to it at every point, and copies it to the output block at the last point. So there are three
  cases of the two conditionals: the first point (zero, then add), the middle points (add), the last point (add,
  then copy out). Here: the two conditions in closed form over the grid, where the output window is idle (every
  point but the last) and not written back, the names of the staging buffers and of the accumulator, and the region's
  resting invariant with the accumulator owned at some contents.
-/
import proofs.«133641_j60370060312890_2_alg».proof.Proof.Gen.KernelIdeal.Launch
import proofs.«133641_j60370060312890_2_alg».proof.Proof.Gen.KernelIdeal.Skeleton
import proofs.«133641_j60370060312890_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions -/

/-- "This is the first batch slice": the condition under which the accumulator is zeroed. -/
abbrev isFirst (i : grid0.Coords) : Prop :=
  (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val % 4 = 0 :=
  (by decide +kernel : ∀ t : Fin grid0.N, isFirst (grid0.coords t) ↔ t.val % 4 = 0)

/-- "This is the last batch slice": the condition under which the accumulator is copied to the output block. -/
abbrev isLast (i : grid0.Coords) : Prop := k0_cond2 i = 1#1
/-- It holds at point 3 only. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Away from the last point nothing is stored into the output block, -/
theorem idle0_2 : ∀ t : Fin cfg0.N, ¬isLast (grid0.coords t) → cfg0.idle 2 (grid0.coords t) = true := by decide +kernel
/-- and it is not written back there; -/
theorem noFlush0_2 : ∀ t : Fin cfg0.N, ¬isLast (grid0.coords t) → (cfg0.win 2).flush t = false := by decide +kernel
/-- at the last point it is stored. -/
theorem live0_2 : ∀ t : Fin cfg0.N, isLast (grid0.coords t) → cfg0.idle 2 (grid0.coords t) = false := by decide +kernel

/-! ## The buffers the body is called with -/

abbrev imgM0 (t : Fin cfg0.N) : Memref sig .tc .vmem S1x1x1024x1024 .f32 := win0_0.stage (cfg0.slots t 0)
abbrev imgW0 (t : Fin cfg0.N) : (imgM0 t).IsWhole := hstage0_0 ((cfg0.slots t 0).cast nbuf0_0)
abbrev imgM1 (t : Fin cfg0.N) : Memref sig .tc .vmem S1x1x1024x1024 .f32 := win0_1.stage (cfg0.slots t 1)
abbrev imgW1 (t : Fin cfg0.N) : (imgM1 t).IsWhole := hstage0_1 ((cfg0.slots t 1).cast nbuf0_1)
abbrev outM (t : Fin cfg0.N) : Memref sig .tc .vmem S1x3 .f32 := win0_2.stage (cfg0.slots t 2)
abbrev outW (t : Fin cfg0.N) : (outM t).IsWhole := hstage0_2 ((cfg0.slots t 2).cast nbuf0_2)
/-- The accumulator: a whole scoped buffer of the kernel's own, carried from point to point. -/
abbrev accM : Memref sig .tc .vmem S1x3 .f32 := Memref.whole cc0_scratch0
/-- The views through which the output block's and the accumulator's contents are stated. -/
abbrev outV : View sig .tc .vmem S1x3 .f32 := (Memref.whole cc0_stg2_0 : Memref sig .tc .vmem S1x3 .f32).view
abbrev accV : View sig .tc .vmem S1x3 .f32 := accM.view

/-- The other two launches' staging buffers, each whole at some contents: scoped buffers of the core that this region
    never touches, and that therefore ride along in its invariant. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f))

/-- The region's resting invariant: the accumulator owned at some contents, the other launches' staging buffers, the
    generator register at some state. -/
theorem restInv_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

end Cert.KernelIdeal.Hand

end
-- ==== Proof.Dice.Runs.lean ====
/-
  The Dice region: the body run whole, once per control case.

  On whole staging buffers — the two image blocks at their contents, the output block and the accumulator as the case
  finds them — the body runs to the end, leaves the image blocks as they were, and leaves the accumulator (and, at the
  last point, the output block) with a list of stored pieces written, last store first. The lists are found by running
  the body; what they contain is read back later, where the values are needed.
-/
import proofs.«133641_j60370060312890_2_alg».proof.Proof.Dice.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- THE FIRST POINT: the accumulator, found at anything, is zeroed and then takes the slice's sums; the output block
    is handed back untouched. -/
noncomputable def runFirst (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : isFirst i) (hl : ¬isLast i)
    (x0 x1 : Vec F S1x1x1024x1024 .f32) :
    { LS0 : List (View.Piece (Elt F) S1x3 .f32) //
      ∀ (xi2 : Vec F S1x3 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__dice_kernel i arg1 harg1 arg2 harg2 arg3 harg3 arg4 harg4) K } := by
  refine ⟨?_, fun xi2 E K => ?run⟩
  case run =>
    simp only [cc0__dice_kernel_eq_skeleton]; unfold cc0__dice_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT: the accumulator, at what the point before left, takes the slice's sums; the output block is handed
    back untouched. -/
noncomputable def runMid (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : ¬isLast i)
    (x0 x1 : Vec F S1x1x1024x1024 .f32) (xs0 : Vec F S1x3 .f32) :
    { LS0 : List (View.Piece (Elt F) S1x3 .f32) //
      ∀ (xi2 : Vec F S1x3 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__dice_kernel i arg1 harg1 arg2 harg2 arg3 harg3 arg4 harg4) K } := by
  refine ⟨?_, fun xi2 E K => ?run⟩
  case run =>
    simp only [cc0__dice_kernel_eq_skeleton]; unfold cc0__dice_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT: the accumulator takes the slice's sums and is then copied to the output block, found at anything. -/
noncomputable def runLast (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i)
    (x0 x1 : Vec F S1x1x1024x1024 .f32) (xs0 : Vec F S1x3 .f32) :
    Σ' (L2 : List (View.Piece (Elt F) S1x3 .f32)), { LS0 : List (View.Piece (Elt F) S1x3 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__dice_kernel i arg1 harg1 arg2 harg2 arg3 harg3 arg4 harg4) K } := by
  refine ⟨?_, ?_, fun E K => ?run⟩
  case run =>
    simp only [cc0__dice_kernel_eq_skeleton]; unfold cc0__dice_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.Dice.Region.lean ====
/-
  The Dice region: what the accumulator holds after each batch slice, and the body's obligation at every point.

  After point `n` the accumulator holds what that point's case stored into it, computed from the point's two image
  blocks and — past the first point — from what the point before left. The output block is stored at the last point
  only (a copy of the accumulator); elsewhere it is idle, handed back as found and not written back. The region's
  invariant carries the accumulator at exactly those contents from point to point, beside the core's other scoped
  buffers and the generator register, which the body never touches.
-/
import proofs.«133641_j60370060312890_2_alg».proof.Proof.Dice.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An image window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first point's stores cover the accumulator. -/
theorem coverFirst (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : isFirst i) (hl : ¬isLast i) (x0 x1 : Vec F S1x1x1024x1024 .f32) (y : S1x3.Idx) :
    ∃ pc ∈ (runFirst c i arg1 harg1 arg2 harg2 arg3 harg3 arg4 harg4 hf hl x0 x1).1, y ∈ pc.1.set :=
  View.cover_of_tiledL (runFirst c i arg1 harg1 arg2 harg2 arg3 harg3 arg4 harg4 hf hl x0 x1).1 S1x3.size (by sl_kernel_rfl) y
/-- What the first point leaves in the accumulator. -/
def accFirst (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : isFirst i) (hl : ¬isLast i) (x0 x1 : Vec F S1x1x1024x1024 .f32) : Vec F S1x3 .f32 :=
  accV.read (Elt F) (accV.writes (Elt F) accV.junk (runFirst c i arg1 harg1 arg2 harg2 arg3 harg3 arg4 harg4 hf hl x0 x1).1)

theorem coverMid (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : ¬isLast i) (x0 x1 : Vec F S1x1x1024x1024 .f32) (xs0 : Vec F S1x3 .f32) (y : S1x3.Idx) :
    ∃ pc ∈ (runMid c i arg1 harg1 arg2 harg2 arg3 harg3 arg4 harg4 hf hl x0 x1 xs0).1, y ∈ pc.1.set :=
  View.cover_of_tiledL (runMid c i arg1 harg1 arg2 harg2 arg3 harg3 arg4 harg4 hf hl x0 x1 xs0).1 S1x3.size (by sl_kernel_rfl) y
/-- What a middle point leaves in the accumulator. -/
def accMid (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : ¬isLast i) (x0 x1 : Vec F S1x1x1024x1024 .f32) (xs0 : Vec F S1x3 .f32) : Vec F S1x3 .f32 :=
  accV.read (Elt F) (accV.writes (Elt F) accV.junk (runMid c i arg1 harg1 arg2 harg2 arg3 harg3 arg4 harg4 hf hl x0 x1 xs0).1)

theorem coverLastAcc (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i) (x0 x1 : Vec F S1x1x1024x1024 .f32) (xs0 : Vec F S1x3 .f32) (y : S1x3.Idx) :
    ∃ pc ∈ (runLast c i arg1 harg1 arg2 harg2 arg3 harg3 arg4 harg4 hf hl x0 x1 xs0).2.1, y ∈ pc.1.set :=
  View.cover_of_tiledL (runLast c i arg1 harg1 arg2 harg2 arg3 harg3 arg4 harg4 hf hl x0 x1 xs0).2.1 S1x3.size (by sl_kernel_rfl) y
/-- What the last point leaves in the accumulator, -/
def accLast (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i) (x0 x1 : Vec F S1x1x1024x1024 .f32) (xs0 : Vec F S1x3 .f32) : Vec F S1x3 .f32 :=
  accV.read (Elt F) (accV.writes (Elt F) accV.junk (runLast c i arg1 harg1 arg2 harg2 arg3 harg3 arg4 harg4 hf hl x0 x1 xs0).2.1)
theorem coverLastOut (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i) (x0 x1 : Vec F S1x1x1024x1024 .f32) (xs0 : Vec F S1x3 .f32) (y : S1x3.Idx) :
    ∃ pc ∈ (runLast c i arg1 harg1 arg2 harg2 arg3 harg3 arg4 harg4 hf hl x0 x1 xs0).1, y ∈ pc.1.set :=
  View.cover_of_tiledL (runLast c i arg1 harg1 arg2 harg2 arg3 harg3 arg4 harg4 hf hl x0 x1 xs0).1 S1x3.size (by sl_kernel_rfl) y
/-- and in the output block. -/
def outLast (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i) (x0 x1 : Vec F S1x1x1024x1024 .f32) (xs0 : Vec F S1x3 .f32) : Vec F S1x3 .f32 :=
  outV.read (Elt F) (outV.writes (Elt F) outV.junk (runLast c i arg1 harg1 arg2 harg2 arg3 harg3 arg4 harg4 hf hl x0 x1 xs0).1)

/-! ## The accumulation, point by point -/

theorem lt_four {n : ℕ} (hn : n < cfg0.N) : n < 4 := lt_of_lt_of_eq hn (show cfg0.N = 4 from N_0)

/-- After the body at position `n`: the output block's contents (meaningful at the last point only; elsewhere the
    window is idle and this component is never consulted) and the accumulator's. -/
def heldAt (c : Dev nD) : (n : ℕ) → n < cfg0.N → Vec F S1x3 .f32 × Vec F S1x3 .f32
  | 0, hn =>
    (accFirst c (grid0.coords ⟨0, hn⟩) (imgM0 ⟨0, hn⟩) (imgW0 ⟨0, hn⟩) (imgM1 ⟨0, hn⟩) (imgW1 ⟨0, hn⟩) (outM ⟨0, hn⟩) (outW ⟨0, hn⟩) accM (Memref.isWhole_whole _) ((isFirst_iff ⟨0, hn⟩).mpr (Nat.zero_mod _)) (fun h => absurd ((isLast_iff ⟨0, hn⟩).mp h) (show ¬ (0 % 4 = 3) by decide)) (iblk0 V c 0 ⟨0, hn⟩) (iblk0 V c 1 ⟨0, hn⟩),
     accFirst c (grid0.coords ⟨0, hn⟩) (imgM0 ⟨0, hn⟩) (imgW0 ⟨0, hn⟩) (imgM1 ⟨0, hn⟩) (imgW1 ⟨0, hn⟩) (outM ⟨0, hn⟩) (outW ⟨0, hn⟩) accM (Memref.isWhole_whole _) ((isFirst_iff ⟨0, hn⟩).mpr (Nat.zero_mod _)) (fun h => absurd ((isLast_iff ⟨0, hn⟩).mp h) (show ¬ (0 % 4 = 3) by decide)) (iblk0 V c 0 ⟨0, hn⟩) (iblk0 V c 1 ⟨0, hn⟩))
  | n + 1, hn =>
    if h3 : (n + 1) % 4 = 3 then
      (outLast c (grid0.coords ⟨n + 1, hn⟩) (imgM0 ⟨n + 1, hn⟩) (imgW0 ⟨n + 1, hn⟩) (imgM1 ⟨n + 1, hn⟩) (imgW1 ⟨n + 1, hn⟩) (outM ⟨n + 1, hn⟩) (outW ⟨n + 1, hn⟩) accM (Memref.isWhole_whole _) (fun h => by have := (isFirst_iff ⟨n + 1, hn⟩).mp h; have := lt_four hn; dsimp only at *; omega) ((isLast_iff ⟨n + 1, hn⟩).mpr h3) (iblk0 V c 0 ⟨n + 1, hn⟩) (iblk0 V c 1 ⟨n + 1, hn⟩) (heldAt c n (Nat.lt_of_succ_lt hn)).2,
       accLast c (grid0.coords ⟨n + 1, hn⟩) (imgM0 ⟨n + 1, hn⟩) (imgW0 ⟨n + 1, hn⟩) (imgM1 ⟨n + 1, hn⟩) (imgW1 ⟨n + 1, hn⟩) (outM ⟨n + 1, hn⟩) (outW ⟨n + 1, hn⟩) accM (Memref.isWhole_whole _) (fun h => by have := (isFirst_iff ⟨n + 1, hn⟩).mp h; have := lt_four hn; dsimp only at *; omega) ((isLast_iff ⟨n + 1, hn⟩).mpr h3) (iblk0 V c 0 ⟨n + 1, hn⟩) (iblk0 V c 1 ⟨n + 1, hn⟩) (heldAt c n (Nat.lt_of_succ_lt hn)).2)
    else
      (accMid c (grid0.coords ⟨n + 1, hn⟩) (imgM0 ⟨n + 1, hn⟩) (imgW0 ⟨n + 1, hn⟩) (imgM1 ⟨n + 1, hn⟩) (imgW1 ⟨n + 1, hn⟩) (outM ⟨n + 1, hn⟩) (outW ⟨n + 1, hn⟩) accM (Memref.isWhole_whole _) (fun h => by have := (isFirst_iff ⟨n + 1, hn⟩).mp h; have := lt_four hn; dsimp only at *; omega) (fun h => h3 ((isLast_iff ⟨n + 1, hn⟩).mp h)) (iblk0 V c 0 ⟨n + 1, hn⟩) (iblk0 V c 1 ⟨n + 1, hn⟩) (heldAt c n (Nat.lt_of_succ_lt hn)).2,
       accMid c (grid0.coords ⟨n + 1, hn⟩) (imgM0 ⟨n + 1, hn⟩) (imgW0 ⟨n + 1, hn⟩) (imgM1 ⟨n + 1, hn⟩) (imgW1 ⟨n + 1, hn⟩) (outM ⟨n + 1, hn⟩) (outW ⟨n + 1, hn⟩) accM (Memref.isWhole_whole _) (fun h => by have := (isFirst_iff ⟨n + 1, hn⟩).mp h; have := lt_four hn; dsimp only at *; omega) (fun h => h3 ((isLast_iff ⟨n + 1, hn⟩).mp h)) (iblk0 V c 0 ⟨n + 1, hn⟩) (iblk0 V c 1 ⟨n + 1, hn⟩) (heldAt c n (Nat.lt_of_succ_lt hn)).2)

/-- At the first point: that case's contents. -/
theorem heldAt_first (c : Dev nD) (t : Fin cfg0.N) (h0 : t.val = 0) (hf : isFirst (grid0.coords t)) (hl : ¬isLast (grid0.coords t)) :
    (heldAt V c t.val t.isLt).2 = accFirst c (grid0.coords t) (imgM0 t) (imgW0 t) (imgM1 t) (imgW1 t) (outM t) (outW t) accM (Memref.isWhole_whole _) hf hl (iblk0 V c 0 t) (iblk0 V c 1 t) := by
  obtain ⟨n, hn⟩ := t
  cases n with
  | zero => rfl
  | succ n => exact absurd h0 (Nat.succ_ne_zero n)

/-- At a middle point: that case's contents, over what the point before left. -/
theorem heldAt_mid (c : Dev nD) (t : Fin cfg0.N) (h0 : t.val ≠ 0) (h3 : ¬t.val % 4 = 3) (hf : ¬isFirst (grid0.coords t)) (hl : ¬isLast (grid0.coords t)) :
    (heldAt V c t.val t.isLt).2 = accMid c (grid0.coords t) (imgM0 t) (imgW0 t) (imgM1 t) (imgW1 t) (outM t) (outW t) accM (Memref.isWhole_whole _) hf hl (iblk0 V c 0 t) (iblk0 V c 1 t) (heldAt V c (t.val - 1) (Nat.lt_of_le_of_lt (Nat.sub_le _ _) t.isLt)).2 := by
  obtain ⟨n, hn⟩ := t
  cases n with
  | zero => exact absurd rfl h0
  | succ n => exact congrArg Prod.snd (dif_neg h3)

/-- At the last point: that case's contents, over what the point before left. -/
theorem heldAt_last (c : Dev nD) (t : Fin cfg0.N) (h0 : t.val ≠ 0) (h3 : t.val % 4 = 3) (hf : ¬isFirst (grid0.coords t)) (hl : isLast (grid0.coords t)) :
    heldAt V c t.val t.isLt = (outLast c (grid0.coords t) (imgM0 t) (imgW0 t) (imgM1 t) (imgW1 t) (outM t) (outW t) accM (Memref.isWhole_whole _) hf hl (iblk0 V c 0 t) (iblk0 V c 1 t) (heldAt V c (t.val - 1) (Nat.lt_of_le_of_lt (Nat.sub_le _ _) t.isLt)).2,
      accLast c (grid0.coords t) (imgM0 t) (imgW0 t) (imgM1 t) (imgW1 t) (outM t) (outW t) accM (Memref.isWhole_whole _) hf hl (iblk0 V c 0 t) (iblk0 V c 1 t) (heldAt V c (t.val - 1) (Nat.lt_of_le_of_lt (Nat.sub_le _ _) t.isLt)).2) := by
  obtain ⟨n, hn⟩ := t
  cases n with
  | zero => exact absurd rfl h0
  | succ n => exact dif_pos h3

/-! ## The invariant -/

/-- Before position `n`: at the start the region's resting invariant (the accumulator at anything); afterwards the
    accumulator at what the point before left, the other scoped buffers, the generator register. -/
def carried (c : Dev nD) : (n : ℕ) → n ≤ cfg0.N → sProp 𝕄
  | 0, _ => Pipeline.ΦA spec0 c
  | n + 1, hn => iprop(iprop(owns (c : Thread nD τ) accM fullShare ((heldAt V c n hn).2) ∗ others (F := F) c) ∗ (∃ r, prngReg c r))

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop(iprop(owns (c : Thread nD τ) accM fullShare ((heldAt V c n hn).2) ∗ others (F := F) c) ∗ (∃ r, prngReg c r)) := rfl
theorem carried_pos (c : Dev nD) (n : ℕ) (h : n ≤ cfg0.N) (hz : n ≠ 0) :
    carried V c n h = iprop(iprop(owns (c : Thread nD τ) accM fullShare ((heldAt V c (n - 1) (by omega)).2) ∗ others (F := F) c) ∗ (∃ r, prngReg c r)) := by
  cases n with
  | zero => exact absurd rfl hz
  | succ n => rfl

/-! ## The proof data -/

/-- The region's proof data on core `c`: the arrays as the region finds them; after the body at point `t` each image
    window's buffer at its block and the output's at `heldAt`'s first component; the invariant `carried`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (heldAt V c t.val t.isLt).1
  Φ t := carried V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem carried_castSucc (c : Dev nD) (t : Fin cfg0.N) :
    (dat0 V c).Φ t.castSucc = carried V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (heldAt V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation at a point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (imgM0 t) fullShare ((dat0 V c).before 0 t d))
    ∗ (∃ d, owns (c : Thread nD τ) (imgM1 t) fullShare ((dat0 V c).before 1 t d))
    ∗ (∃ d, owns (c : Thread nD τ) (outM t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The image windows' buffers hold their blocks; the point's position says which case it is
    in; the invariant hands the body the accumulator at what the point before left (at anything at the first point)
    and takes it back at this point's contents; away from the last point the output block goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = carried V c (t.val + 1) t.isLt from rfl, carried_succ]
  have hN : t.val < 4 := lt_four t.isLt
  rw [show (dat0 V c).leavesExact 0 t = owns (c : Thread nD τ) (imgM0 t) fullShare ((dat0 V c).after 0 t) from by
    unfold Dat.leavesExact; rw [live0_0 t], after0_0]
  rw [show (dat0 V c).leavesExact 1 t = owns (c : Thread nD τ) (imgM1 t) fullShare ((dat0 V c).after 1 t) from by
    unfold Dat.leavesExact; rw [live0_1 t], after0_1]
  by_cases h0 : t.val = 0
  · have hf : isFirst (grid0.coords t) := (isFirst_iff t).mpr (by omega)
    have hl : ¬isLast (grid0.coords t) := fun h => by have := (isLast_iff t).mp h; omega
    rw [Dat.leavesExact_idle (dat0 V c) 2 t (idle0_2 t hl) (noFlush0_2 t hl)]
    rw [heldAt_first V c t h0 hf hl]
    unfold accFirst; (try dsimp only)
    rw [carried_castSucc V c t, carried_zero V c _ _ h0, restInv_eq]
    iintro ⟨⟨⟨HS0, Hoth⟩, Hg⟩, Ho, ⟨%d0, H0⟩, ⟨%d1, H1⟩, ⟨%d2, H2⟩⟩
    iapply ((runFirst c (grid0.coords t) _ _ _ _ _ _ _ _ hf hl (iblk0 V c 0 t) (iblk0 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (coverFirst c _ _ _ _ _ _ _ _ _ _ _ _ _)
        iexact Hoth
      iexact Hg
    isplitl [Ho]; · iexact Ho
    isplitl [H0]; · iexact H0
    isplitl [H1]; · iexact H1
    iexists _; iexact H2
  · by_cases h3 : t.val % 4 = 3
    · have hf : ¬isFirst (grid0.coords t) := fun h => by have := (isFirst_iff t).mp h; omega
      have hl : isLast (grid0.coords t) := (isLast_iff t).mpr h3
      rw [show (dat0 V c).leavesExact 2 t = owns (c : Thread nD τ) (outM t) fullShare ((dat0 V c).after 2 t) from by
        unfold Dat.leavesExact; rw [live0_2 t hl], after0_2]
      rw [heldAt_last V c t h0 h3 hf hl]
      unfold outLast accLast; (try dsimp only)
      rw [carried_castSucc V c t, carried_pos V c _ _ h0]
      iintro ⟨⟨⟨HS0, Hoth⟩, Hg⟩, Ho, ⟨%d0, H0⟩, ⟨%d1, H1⟩, ⟨%d2, H2⟩⟩
      iapply ((runLast c (grid0.coords t) _ _ _ _ _ _ _ _ hf hl (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverLastAcc c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · have hf : ¬isFirst (grid0.coords t) := fun h => by have := (isFirst_iff t).mp h; omega
      have hl : ¬isLast (grid0.coords t) := fun h => h3 ((isLast_iff t).mp h)
      rw [Dat.leavesExact_idle (dat0 V c) 2 t (idle0_2 t hl) (noFlush0_2 t hl)]
      rw [heldAt_mid V c t h0 h3 hf hl]
      unfold accMid; (try dsimp only)
      rw [carried_castSucc V c t, carried_pos V c _ _ h0]
      iintro ⟨⟨⟨HS0, Hoth⟩, Hg⟩, Ho, ⟨%d0, H0⟩, ⟨%d1, H1⟩, ⟨%d2, H2⟩⟩
      iapply ((runMid c (grid0.coords t) _ _ _ _ _ _ _ _ hf hl (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverMid c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem rest_in (c : Dev nD) : Pipeline.ΦA spec0 c ⊢ (dat0 V c).Φ 0 := by
  rw [show (dat0 V c).Φ 0 = carried V c 0 (Nat.zero_le _) from rfl, carried_zero V c 0 _ rfl]
  try exact Idealize.SL.BI.Entails.refl _

/-- After any point the invariant gives the resting one back: the accumulator's named contents are forgotten. -/
theorem rest_out (c : Dev nD) (t : Fin (cfg0.N + 1)) (ht : t.val ≠ 0) : (dat0 V c).Φ t ⊢ Pipeline.ΦA spec0 c := by
  rw [show (dat0 V c).Φ t = carried V c t.val (Nat.le_of_lt_succ t.isLt) from rfl, carried_pos V c _ _ ht, restInv_eq]
  iintro ⟨⟨HS0, Hoth⟩, Hg⟩
  isplitl [HS0 Hoth]
  · isplitl [HS0]
    · iexists _; iexact HS0
    iexact Hoth
  iexact Hg

theorem rest_out_last (c : Dev nD) : (dat0 V c).Φ (Fin.last cfg0.N) ⊢ Pipeline.ΦA spec0 c :=
  rest_out V c _ (by rw [Fin.val_last]; have : cfg0.N = 4 := N_0; omega)

end Cert.KernelIdeal.Hand

end
-- ==== Proof.ChamferRegions.lean ====
import proofs.«133641_j60370060312890_2_alg».proof.Proof.Gen.KernelIdeal.Launch
import proofs.«133641_j60370060312890_2_alg».proof.Proof.Gen.KernelIdeal.Skeleton
import proofs.«133641_j60370060312890_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two nearest-point regions, as separation-logic triples

Each of the two nearest-point kernels runs over 64 tiles of 128 query points. At a tile the body reads
the tile's query coordinates (two 128x1 blocks), reads all 8192 key coordinates (two 1x8192 rows, the
same at every tile), and overwrites the tile's 128x1 output block with, per query point, the least
squared distance to a key point. Nothing is carried from tile to tile.

So what the body leaves in the output block is a closed function of the four input blocks at the tile:
the payload of its one store, which covers the block. This file states that, for either kernel and at
any float instance: the blocks a tile reads, the block it leaves, the body's triple, the proof data of
the pipeline around it, and the body obligation the pipeline asks for. The mathematics of the payload
(that it is the minimum of squared distances) is not here; it is read off the payload's name elsewhere.
-/

-- membership in a rectangle of long extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when a region is entered: every statement below is at this parameter
variable (V : (c : Dev nD) → (b : Ref sig .tc) → Buf (Elt F) ((c : Thread nD τ).loc b))

/-! ## The body's accesses: each is the whole of its buffer -/

/-- The whole 128x1 block (a tile's query coordinates, and its output). -/
abbrev rTile : Rect S128x1 := Rect.unit (s := S128x1) ![0, 0] S128x1.size inb_S128x1_S128x1_0_0
/-- The whole 1x8192 row (all key coordinates). -/
abbrev rKeys : Rect S1x8192 := Rect.unit (s := S1x8192) ![0, 0] S1x8192.size inb_S1x8192_S1x8192_0_0

/-- One store through the whole-block rectangle covers the block. -/
theorem cover_tile (p0 : Vec F S128x1 .f32) (y : S128x1.Idx) :
    ∃ pc ∈ ([⟨rTile, p0⟩] : List (View.Piece (Elt F) S128x1 .f32)), y ∈ pc.1.set :=
  View.cover_of_tiled [⟨rTile, p0⟩] S128x1.size (by rfl) y

/-! # Region 1: queries are the predicted points, keys the target points -/

/-! ## The windows' blocks -/

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every tile, fetched there or not, for any proof
    data whose array is `V`'s and whose body leaves the block in place: where the window was not fetched its
    block index has not moved since the tile before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every tile, fetched there or not, for any proof
    data whose array is `V`'s and whose body leaves the block in place: where the window was not fetched its
    block index has not moved since the tile before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every tile, fetched there or not, for any proof
    data whose array is `V`'s and whose body leaves the block in place: where the window was not fetched its
    block index has not moved since the tile before (the key rows: index constant, fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every tile, fetched there or not, for any proof
    data whose array is `V`'s and whose body leaves the block in place: where the window was not fetched its
    block index has not moved since the tile before (the key rows: index constant, fetched once). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The output block after the body, from the four input blocks: its one store, of the payload over what the
    four loads read. -/
def out1_4 (x0 x1 : Vec F S128x1 .f32) (x2 x3 : Vec F S1x8192 .f32) : Vec F S128x1 .f32 :=
  View.canon [⟨rTile, k1_pay1 (View.ld x0 rTile) (View.ld x1 rTile) (View.ld x2 rKeys) (View.ld x3 rKeys)⟩]

/-! ## The body's triple -/

set_option maxHeartbeats 1000000 in
/-- The body on whole staging buffers, the four inputs' at read contents `x0 … x3` and the output's at anything,
    runs to the continuation holding the inputs' as they were and the output's at `out1_4` of them. (The body
    also reads the output block before overwriting it; what it reads there is not used.) -/
theorem sound_kernel1 (c : Dev nD) (E : Set ℕ) (i : grid1.Coords)
    (arg1 : Memref sig .tc .vmem S128x1 .f32) (harg1 : arg1.IsWhole) (arg2 : Memref sig .tc .vmem S128x1 .f32) (harg2 : arg2.IsWhole)
    (arg3 : Memref sig .tc .vmem S1x8192 .f32) (harg3 : arg3.IsWhole) (arg4 : Memref sig .tc .vmem S1x8192 .f32) (harg4 : arg4.IsWhole)
    (arg5 : Memref sig .tc .vmem S128x1 .f32) (harg5 : arg5.IsWhole)
    (x0 x1 : Vec F S128x1 .f32) (x2 x3 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__chamfer_min_kernel i arg1 harg1 arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_tile _)

/-! ## The pipeline's proof data -/

/-- The proof data of the pipeline on core `c`: the arrays as the region finds them; after the body at tile `t`
    each input's buffer at its block and the output's at `out1_4` of the four input blocks; the invariant is the
    rest of the core's scoped memory and its random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every tile, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic tile -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any tile: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

/-! # Region 2: queries are the target points, keys the predicted points -/

/-! ## The windows' blocks -/

/-- Window `w`'s block at tile `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every tile, fetched there or not, for any proof
    data whose array is `V`'s and whose body leaves the block in place: where the window was not fetched its
    block index has not moved since the tile before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every tile, fetched there or not, for any proof
    data whose array is `V`'s and whose body leaves the block in place: where the window was not fetched its
    block index has not moved since the tile before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every tile, fetched there or not, for any proof
    data whose array is `V`'s and whose body leaves the block in place: where the window was not fetched its
    block index has not moved since the tile before (the key rows: index constant, fetched once). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every tile, fetched there or not, for any proof
    data whose array is `V`'s and whose body leaves the block in place: where the window was not fetched its
    block index has not moved since the tile before (the key rows: index constant, fetched once). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The output block after the body, from the four input blocks: its one store, of the payload over what the
    four loads read. -/
def out2_4 (x0 x1 : Vec F S128x1 .f32) (x2 x3 : Vec F S1x8192 .f32) : Vec F S128x1 .f32 :=
  View.canon [⟨rTile, k2_pay1 (View.ld x0 rTile) (View.ld x1 rTile) (View.ld x2 rKeys) (View.ld x3 rKeys)⟩]

/-! ## The body's triple -/

set_option maxHeartbeats 1000000 in
/-- The body on whole staging buffers, the four inputs' at read contents `x0 … x3` and the output's at anything,
    runs to the continuation holding the inputs' as they were and the output's at `out2_4` of them. (The body
    also reads the output block before overwriting it; what it reads there is not used.) -/
theorem sound_kernel2 (c : Dev nD) (E : Set ℕ) (i : grid2.Coords)
    (arg1 : Memref sig .tc .vmem S128x1 .f32) (harg1 : arg1.IsWhole) (arg2 : Memref sig .tc .vmem S128x1 .f32) (harg2 : arg2.IsWhole)
    (arg3 : Memref sig .tc .vmem S1x8192 .f32) (harg3 : arg3.IsWhole) (arg4 : Memref sig .tc .vmem S1x8192 .f32) (harg4 : arg4.IsWhole)
    (arg5 : Memref sig .tc .vmem S128x1 .f32) (harg5 : arg5.IsWhole)
    (x0 x1 : Vec F S128x1 .f32) (x2 x3 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__chamfer_min_kernel i arg1 harg1 arg2 harg2 arg3 harg3 arg4 harg4 arg5 harg5) K := by
  simp only [cc2__chamfer_min_kernel_eq_skeleton]; unfold cc2__chamfer_min_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_tile _)

/-! ## The pipeline's proof data -/

/-- The proof data of the pipeline on core `c`: the arrays as the region finds them; after the body at tile `t`
    each input's buffer at its block and the output's at `out2_4` of the four input blocks; the invariant is the
    rest of the core's scoped memory and its random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every tile, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic tile -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any tile: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every tile. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.MainRun.lean ====
import proofs.«133641_j60370060312890_2_alg».proof.Proof.Dice.Region
import proofs.«133641_j60370060312890_2_alg».proof.Proof.ChamferRegions
import proofs.«133641_j60370060312890_2_alg».proof.Proof.Gen.KernelIdeal.Regions

/-!
# The whole program as a run of five segments

The program is, in order: the Dice region; a stretch of host operations (the Dice ratio, and the
coordinate columns of the two point sets); the nearest-point region with the predicted points as
queries; the same region with the target points as queries; a last stretch of host operations (the two
means, their sum, the halves, the total).

Between two segments a core holds every one of its unscoped buffers whole, at contents we name by a fold
from the launch memory: `W0` at launch; after a region, the contents before it with the region's arrays
replaced by what its write-backs leave; after a host stretch, what the stretch computes from the contents
before it. Beside the buffers ride the core's random-number register, at some state, and the record that
the core owes no other core anything.

The theorem at the end: every fair execution from memory `m` with all counters at zero terminates
without fault, and every final memory holds each unscoped buffer at the last fold `W5`. The four
argument buffers are written by no segment, so `W5` has them as launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the core's own references: what the Dice region is entered with. -/
abbrev Vat0 : (c : Dev nD) → (b : Ref sig .tc) → Buf (Elt F) ((c : Thread nD τ).loc b) := fun c b => W0 m ρ c b

/-- After the Dice region: its arrays at what the pipeline leaves (the two images as entered, the output at its
    write-back), every other buffer as entered. -/
def W1 (c : Dev nD) : Valuation τ sig (Elt F) :=
  Pipeline.withArrays spec0 c (W0 m ρ c) fun w => (dat0 (Vat0 m ρ) c).arrAt w cfg0.N
theorem W1_arr (c : Dev nD) (w : Fin cfg0.W) :
    W1 m ρ c (Proc.devRef .tc (Pipeline.arrRef spec0 w)) = (dat0 (Vat0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vat1 : (c : Dev nD) → (b : Ref sig .tc) → Buf (Elt F) ((c : Thread nD τ).loc b) := fun c b => W1 m ρ c b
theorem hF0 (c : Dev nD) (w : Fin cfg0.W) : (dat0 (Vat0 m ρ) c).arrAt w cfg0.N = Vat1 m ρ c (Pipeline.arrRef spec0 w) :=
  (W1_arr m ρ c w).symm
theorem hrest0 (c : Dev nD) : ∀ b, b ∉ Finset.univ.image (Pipeline.arrRef spec0) → Vat1 m ρ c b = Vat0 m ρ c b :=
  fun b hb => W1_of_ne m ρ c b fun w e => hb (Finset.mem_image.mpr ⟨w, Finset.mem_univ _, e⟩)

/-- After the first host stretch: what the first nearest-point region is entered with. -/
abbrev W2 : Dev nD → Valuation τ sig (Elt F) := fun c => StableHlo.after hostOps1 (W1 m ρ c)
abbrev Vat2 : (c : Dev nD) → (b : Ref sig .tc) → Buf (Elt F) ((c : Thread nD τ).loc b) := fun c b => W2 m ρ c b

/-- After the first nearest-point region: its arrays at what the pipeline leaves, the rest as entered. -/
def W3 (c : Dev nD) : Valuation τ sig (Elt F) :=
  Pipeline.withArrays spec1 c (W2 m ρ c) fun w => (dat1 (Vat2 m ρ) c).arrAt w cfg1.N
theorem W3_arr (c : Dev nD) (w : Fin cfg1.W) :
    W3 m ρ c (Proc.devRef .tc (Pipeline.arrRef spec1 w)) = (dat1 (Vat2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same at the core's own references: what the second nearest-point region is entered with. -/
abbrev Vat3 : (c : Dev nD) → (b : Ref sig .tc) → Buf (Elt F) ((c : Thread nD τ).loc b) := fun c b => W3 m ρ c b
theorem hF1 (c : Dev nD) (w : Fin cfg1.W) : (dat1 (Vat2 m ρ) c).arrAt w cfg1.N = Vat3 m ρ c (Pipeline.arrRef spec1 w) :=
  (W3_arr m ρ c w).symm
theorem hrest1 (c : Dev nD) : ∀ b, b ∉ Finset.univ.image (Pipeline.arrRef spec1) → Vat3 m ρ c b = Vat2 m ρ c b :=
  fun b hb => W3_of_ne m ρ c b fun w e => hb (Finset.mem_image.mpr ⟨w, Finset.mem_univ _, e⟩)

/-- After the second nearest-point region. -/
def W4 (c : Dev nD) : Valuation τ sig (Elt F) :=
  Pipeline.withArrays spec2 c (W3 m ρ c) fun w => (dat2 (Vat3 m ρ) c).arrAt w cfg2.N
theorem W4_arr (c : Dev nD) (w : Fin cfg2.W) :
    W4 m ρ c (Proc.devRef .tc (Pipeline.arrRef spec2 w)) = (dat2 (Vat3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev Vat4 : (c : Dev nD) → (b : Ref sig .tc) → Buf (Elt F) ((c : Thread nD τ).loc b) := fun c b => W4 m ρ c b
theorem hF2 (c : Dev nD) (w : Fin cfg2.W) : (dat2 (Vat3 m ρ) c).arrAt w cfg2.N = Vat4 m ρ c (Pipeline.arrRef spec2 w) :=
  (W4_arr m ρ c w).symm
theorem hrest2 (c : Dev nD) : ∀ b, b ∉ Finset.univ.image (Pipeline.arrRef spec2) → Vat4 m ρ c b = Vat3 m ρ c b :=
  fun b hb => W4_of_ne m ρ c b fun w e => hb (Finset.mem_image.mpr ⟨w, Finset.mem_univ _, e⟩)

/-- After the last host stretch: the contents at the return. -/
abbrev W5 : Dev nD → Valuation τ sig (Elt F) := fun c => StableHlo.after hostOps3 (W4 m ρ c)

/-! ## The arguments end as launched

No host operation writes an argument buffer; the Dice region reads the two images through input windows, which it
leaves as entered; no other region has an argument among its arrays. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (Vat0 m ρ) c).arrAt_in 0 rfl _).trans (A_eq0 (Vat0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (Vat0 m ρ) c).arrAt_in 1 rfl _).trans (A_eq0 (Vat0 m ρ) c 1))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vat0 m ρ) c
  | ⟨1, _⟩ => fun c => dat1 (Vat2 m ρ) c
  | ⟨2, _⟩ => fun c => dat2 (Vat3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state, and its
    record of owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along: it ends with
    those buffers at what the stretch computes from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing record: every unscoped buffer at `W5`, the register at some state. -/
abbrev Tₙ (c : Dev nD) : sProp 𝕄 := iprop(StableHlo.held (c : Thread nD τ) (Pipeline.ucRefs τ sig) (W5 m ρ c) ∗ ∃ r, prngReg c r)

/-! ## The regions as segments -/

-- applying a library lemma stated over a pinned configuration needs unification to unfold plain definitions in a
-- metavariable's type
set_option backward.isDefEq.respectTransparency.types false in
/-- The Dice region: entered from every unscoped buffer at `W0`, left at `W1`. Its arrays are split out of
    the unscoped buffers at entry and put back, at the exit contents, when it ends; the random-number register goes
    into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vat0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vat0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vat0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the resting invariant first, then into the invariant before the first point
    rw [show (pdats m ρ 0 c).Φ 0 = (dat0 (Vat0 m ρ) c).Φ 0 from rfl]
    iintro ⟨Hp, -, Hr⟩
    iapply (rest_in (Vat0 m ρ) c)
    unfold Pipeline.ΦA
    isplitl [Hr]; · iexact Hr
    iexact Hp
  hout c := by
    -- after the last point the invariant gives the resting one back
    rw [Pipeline.ownSems0_none, show (pdats m ρ 0 c).Φ (Fin.last _) = (dat0 (Vat0 m ρ) c).Φ (Fin.last cfg0.N) from rfl]
    have hback := rest_out_last (Vat0 m ρ) c
    iintro H
    ihave H' := hback $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vat0 m ρ c) (Vat1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over a pinned configuration needs unification to unfold plain definitions in a
-- metavariable's type
set_option backward.isDefEq.respectTransparency.types false in
/-- The first nearest-point region: entered from every unscoped buffer at `W2`, left at `W3`. Its arrays are split out of
    the unscoped buffers at entry and put back, at the exit contents, when it ends; the random-number register goes
    into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vat2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vat2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vat2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vat2 m ρ c) (Vat3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over a pinned configuration needs unification to unfold plain definitions in a
-- metavariable's type
set_option backward.isDefEq.respectTransparency.types false in
/-- The second nearest-point region: entered from every unscoped buffer at `W3`, left at `W4`. Its arrays are split out of
    the unscoped buffers at entry and put back, at the exit contents, when it ends; the random-number register goes
    into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vat3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (Vat3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vat3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vat3 m ρ c) (Vat4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The five segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .host (hseg hostOps3 hostOps3_sub hostOps3_fresh (W4 m ρ)) ]
/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory `m` with every counter at zero, every fair execution of the program terminates, nothing
    faulting, and every final memory holds each unscoped buffer of each core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => show iprop(StableHlo.held (c : Thread nD τ) (Pipeline.ucRefs τ sig) (W5 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- So every final memory has the four argument buffers as launched. -/
theorem run_args_kept (c : Dev nD) :
    W5 m ρ c (Proc.devRef .tc main_arg0) = m ((c : Thread nD τ).loc main_arg0)
    ∧ W5 m ρ c (Proc.devRef .tc main_arg1) = m ((c : Thread nD τ).loc main_arg1)
    ∧ W5 m ρ c (Proc.devRef .tc main_arg2) = m ((c : Thread nD τ).loc main_arg2)
    ∧ W5 m ρ c (Proc.devRef .tc main_arg3) = m ((c : Thread nD τ).loc main_arg3) :=
  ⟨W5_main_arg0 m ρ c, W5_main_arg1 m ρ c, W5_main_arg2 m ρ c, W5_main_arg3 m ρ c⟩

end Cert.KernelIdeal.Hand

end
-- ==== Proof.Word.Dice.Shared.lean ====
/-
  The Dice region (the first kernel launch): what its three control cases share.

  The grid has four points, one per batch slice. The body zeroes a 1×3 accumulator at the first point, adds the
  slice's three sums to it at every point, and copies it to the output block at the last point. So there are three
  cases of the two conditionals: the first point (zero, then add), the middle points (add), the last point (add,
  then copy out). Here: the two conditions in closed form over the grid, where the output window is idle (every
  point but the last) and not written back, the names of the staging buffers and of the accumulator, and the region's
  resting invariant with the accumulator owned at some contents.
-/
import proofs.«133641_j60370060312890_2_alg».proof.Proof.Gen.Kernel.Launch
import proofs.«133641_j60370060312890_2_alg».proof.Proof.Gen.Kernel.Skeleton
import proofs.«133641_j60370060312890_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions -/

/-- "This is the first batch slice": the condition under which the accumulator is zeroed. -/
abbrev isFirst (i : grid0.Coords) : Prop :=
  (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val % 4 = 0 :=
  (by decide +kernel : ∀ t : Fin grid0.N, isFirst (grid0.coords t) ↔ t.val % 4 = 0)

/-- "This is the last batch slice": the condition under which the accumulator is copied to the output block. -/
abbrev isLast (i : grid0.Coords) : Prop := k0_cond2 i = 1#1
/-- It holds at point 3 only. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Away from the last point nothing is stored into the output block, -/
theorem idle0_2 : ∀ t : Fin cfg0.N, ¬isLast (grid0.coords t) → cfg0.idle 2 (grid0.coords t) = true := by decide +kernel
/-- and it is not written back there; -/
theorem noFlush0_2 : ∀ t : Fin cfg0.N, ¬isLast (grid0.coords t) → (cfg0.win 2).flush t = false := by decide +kernel
/-- at the last point it is stored. -/
theorem live0_2 : ∀ t : Fin cfg0.N, isLast (grid0.coords t) → cfg0.idle 2 (grid0.coords t) = false := by decide +kernel

/-! ## The buffers the body is called with -/

abbrev imgM0 (t : Fin cfg0.N) : Memref sig .tc .vmem S1x1x1024x1024 .f32 := win0_0.stage (cfg0.slots t 0)
abbrev imgW0 (t : Fin cfg0.N) : (imgM0 t).IsWhole := hstage0_0 ((cfg0.slots t 0).cast nbuf0_0)
abbrev imgM1 (t : Fin cfg0.N) : Memref sig .tc .vmem S1x1x1024x1024 .f32 := win0_1.stage (cfg0.slots t 1)
abbrev imgW1 (t : Fin cfg0.N) : (imgM1 t).IsWhole := hstage0_1 ((cfg0.slots t 1).cast nbuf0_1)
abbrev outM (t : Fin cfg0.N) : Memref sig .tc .vmem S1x3 .f32 := win0_2.stage (cfg0.slots t 2)
abbrev outW (t : Fin cfg0.N) : (outM t).IsWhole := hstage0_2 ((cfg0.slots t 2).cast nbuf0_2)
/-- The accumulator: a whole scoped buffer of the kernel's own, carried from point to point. -/
abbrev accM : Memref sig .tc .vmem S1x3 .f32 := Memref.whole cc0_scratch0
/-- The views through which the output block's and the accumulator's contents are stated. -/
abbrev outV : View sig .tc .vmem S1x3 .f32 := (Memref.whole cc0_stg2_0 : Memref sig .tc .vmem S1x3 .f32).view
abbrev accV : View sig .tc .vmem S1x3 .f32 := accM.view

/-- The other two launches' staging buffers, each whole at some contents: scoped buffers of the core that this region
    never touches, and that therefore ride along in its invariant. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f))

/-- The region's resting invariant: the accumulator owned at some contents, the other launches' staging buffers, the
    generator register at some state. -/
theorem restInv_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

end Cert.Kernel.Hand

end
-- ==== Proof.Word.Dice.Runs.lean ====
/-
  The Dice region: the body run whole, once per control case.

  On whole staging buffers — the two image blocks at their contents, the output block and the accumulator as the case
  finds them — the body runs to the end, leaves the image blocks as they were, and leaves the accumulator (and, at the
  last point, the output block) with a list of stored pieces written, last store first. The lists are found by running
  the body; what they contain is read back later, where the values are needed.
-/
import proofs.«133641_j60370060312890_2_alg».proof.Proof.Word.Dice.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE FIRST POINT: the accumulator, found at anything, is zeroed and then takes the slice's sums; the output block
    is handed back untouched. -/
noncomputable def runFirst (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : isFirst i) (hl : ¬isLast i)
    (x0 x1 : Vec F S1x1x1024x1024 .f32) :
    { LS0 : List (View.Piece (Elt F) S1x3 .f32) //
      ∀ (xi2 : Vec F S1x3 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__dice_kernel i arg1 harg1 arg2 harg2 arg3 harg3 arg4 harg4) K } := by
  refine ⟨?_, fun xi2 E K => ?run⟩
  case run =>
    simp only [cc0__dice_kernel_eq_skeleton]; unfold cc0__dice_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT: the accumulator, at what the point before left, takes the slice's sums; the output block is handed
    back untouched. -/
noncomputable def runMid (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : ¬isLast i)
    (x0 x1 : Vec F S1x1x1024x1024 .f32) (xs0 : Vec F S1x3 .f32) :
    { LS0 : List (View.Piece (Elt F) S1x3 .f32) //
      ∀ (xi2 : Vec F S1x3 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__dice_kernel i arg1 harg1 arg2 harg2 arg3 harg3 arg4 harg4) K } := by
  refine ⟨?_, fun xi2 E K => ?run⟩
  case run =>
    simp only [cc0__dice_kernel_eq_skeleton]; unfold cc0__dice_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT: the accumulator takes the slice's sums and is then copied to the output block, found at anything. -/
noncomputable def runLast (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i)
    (x0 x1 : Vec F S1x1x1024x1024 .f32) (xs0 : Vec F S1x3 .f32) :
    Σ' (L2 : List (View.Piece (Elt F) S1x3 .f32)), { LS0 : List (View.Piece (Elt F) S1x3 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__dice_kernel i arg1 harg1 arg2 harg2 arg3 harg3 arg4 harg4) K } := by
  refine ⟨?_, ?_, fun E K => ?run⟩
  case run =>
    simp only [cc0__dice_kernel_eq_skeleton]; unfold cc0__dice_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.Word.Dice.Region.lean ====
/-
  The Dice region: what the accumulator holds after each batch slice, and the body's obligation at every point.

  After point `n` the accumulator holds what that point's case stored into it, computed from the point's two image
  blocks and — past the first point — from what the point before left. The output block is stored at the last point
  only (a copy of the accumulator); elsewhere it is idle, handed back as found and not written back. The region's
  invariant carries the accumulator at exactly those contents from point to point, beside the core's other scoped
  buffers and the generator register, which the body never touches.
-/
import proofs.«133641_j60370060312890_2_alg».proof.Proof.Word.Dice.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An image window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first point's stores cover the accumulator. -/
theorem coverFirst (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : isFirst i) (hl : ¬isLast i) (x0 x1 : Vec F S1x1x1024x1024 .f32) (y : S1x3.Idx) :
    ∃ pc ∈ (runFirst c i arg1 harg1 arg2 harg2 arg3 harg3 arg4 harg4 hf hl x0 x1).1, y ∈ pc.1.set :=
  View.cover_of_tiledL (runFirst c i arg1 harg1 arg2 harg2 arg3 harg3 arg4 harg4 hf hl x0 x1).1 S1x3.size (by sl_kernel_rfl) y
/-- What the first point leaves in the accumulator. -/
def accFirst (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : isFirst i) (hl : ¬isLast i) (x0 x1 : Vec F S1x1x1024x1024 .f32) : Vec F S1x3 .f32 :=
  accV.read (Elt F) (accV.writes (Elt F) accV.junk (runFirst c i arg1 harg1 arg2 harg2 arg3 harg3 arg4 harg4 hf hl x0 x1).1)

theorem coverMid (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : ¬isLast i) (x0 x1 : Vec F S1x1x1024x1024 .f32) (xs0 : Vec F S1x3 .f32) (y : S1x3.Idx) :
    ∃ pc ∈ (runMid c i arg1 harg1 arg2 harg2 arg3 harg3 arg4 harg4 hf hl x0 x1 xs0).1, y ∈ pc.1.set :=
  View.cover_of_tiledL (runMid c i arg1 harg1 arg2 harg2 arg3 harg3 arg4 harg4 hf hl x0 x1 xs0).1 S1x3.size (by sl_kernel_rfl) y
/-- What a middle point leaves in the accumulator. -/
def accMid (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : ¬isLast i) (x0 x1 : Vec F S1x1x1024x1024 .f32) (xs0 : Vec F S1x3 .f32) : Vec F S1x3 .f32 :=
  accV.read (Elt F) (accV.writes (Elt F) accV.junk (runMid c i arg1 harg1 arg2 harg2 arg3 harg3 arg4 harg4 hf hl x0 x1 xs0).1)

theorem coverLastAcc (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i) (x0 x1 : Vec F S1x1x1024x1024 .f32) (xs0 : Vec F S1x3 .f32) (y : S1x3.Idx) :
    ∃ pc ∈ (runLast c i arg1 harg1 arg2 harg2 arg3 harg3 arg4 harg4 hf hl x0 x1 xs0).2.1, y ∈ pc.1.set :=
  View.cover_of_tiledL (runLast c i arg1 harg1 arg2 harg2 arg3 harg3 arg4 harg4 hf hl x0 x1 xs0).2.1 S1x3.size (by sl_kernel_rfl) y
/-- What the last point leaves in the accumulator, -/
def accLast (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i) (x0 x1 : Vec F S1x1x1024x1024 .f32) (xs0 : Vec F S1x3 .f32) : Vec F S1x3 .f32 :=
  accV.read (Elt F) (accV.writes (Elt F) accV.junk (runLast c i arg1 harg1 arg2 harg2 arg3 harg3 arg4 harg4 hf hl x0 x1 xs0).2.1)
theorem coverLastOut (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i) (x0 x1 : Vec F S1x1x1024x1024 .f32) (xs0 : Vec F S1x3 .f32) (y : S1x3.Idx) :
    ∃ pc ∈ (runLast c i arg1 harg1 arg2 harg2 arg3 harg3 arg4 harg4 hf hl x0 x1 xs0).1, y ∈ pc.1.set :=
  View.cover_of_tiledL (runLast c i arg1 harg1 arg2 harg2 arg3 harg3 arg4 harg4 hf hl x0 x1 xs0).1 S1x3.size (by sl_kernel_rfl) y
/-- and in the output block. -/
def outLast (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i) (x0 x1 : Vec F S1x1x1024x1024 .f32) (xs0 : Vec F S1x3 .f32) : Vec F S1x3 .f32 :=
  outV.read (Elt F) (outV.writes (Elt F) outV.junk (runLast c i arg1 harg1 arg2 harg2 arg3 harg3 arg4 harg4 hf hl x0 x1 xs0).1)

/-! ## The accumulation, point by point -/

theorem lt_four {n : ℕ} (hn : n < cfg0.N) : n < 4 := lt_of_lt_of_eq hn (show cfg0.N = 4 from N_0)

/-- After the body at position `n`: the output block's contents (meaningful at the last point only; elsewhere the
    window is idle and this component is never consulted) and the accumulator's. -/
def heldAt (c : Dev nD) : (n : ℕ) → n < cfg0.N → Vec F S1x3 .f32 × Vec F S1x3 .f32
  | 0, hn =>
    (accFirst c (grid0.coords ⟨0, hn⟩) (imgM0 ⟨0, hn⟩) (imgW0 ⟨0, hn⟩) (imgM1 ⟨0, hn⟩) (imgW1 ⟨0, hn⟩) (outM ⟨0, hn⟩) (outW ⟨0, hn⟩) accM (Memref.isWhole_whole _) ((isFirst_iff ⟨0, hn⟩).mpr (Nat.zero_mod _)) (fun h => absurd ((isLast_iff ⟨0, hn⟩).mp h) (show ¬ (0 % 4 = 3) by decide)) (iblk0 V c 0 ⟨0, hn⟩) (iblk0 V c 1 ⟨0, hn⟩),
     accFirst c (grid0.coords ⟨0, hn⟩) (imgM0 ⟨0, hn⟩) (imgW0 ⟨0, hn⟩) (imgM1 ⟨0, hn⟩) (imgW1 ⟨0, hn⟩) (outM ⟨0, hn⟩) (outW ⟨0, hn⟩) accM (Memref.isWhole_whole _) ((isFirst_iff ⟨0, hn⟩).mpr (Nat.zero_mod _)) (fun h => absurd ((isLast_iff ⟨0, hn⟩).mp h) (show ¬ (0 % 4 = 3) by decide)) (iblk0 V c 0 ⟨0, hn⟩) (iblk0 V c 1 ⟨0, hn⟩))
  | n + 1, hn =>
    if h3 : (n + 1) % 4 = 3 then
      (outLast c (grid0.coords ⟨n + 1, hn⟩) (imgM0 ⟨n + 1, hn⟩) (imgW0 ⟨n + 1, hn⟩) (imgM1 ⟨n + 1, hn⟩) (imgW1 ⟨n + 1, hn⟩) (outM ⟨n + 1, hn⟩) (outW ⟨n + 1, hn⟩) accM (Memref.isWhole_whole _) (fun h => by have := (isFirst_iff ⟨n + 1, hn⟩).mp h; have := lt_four hn; dsimp only at *; omega) ((isLast_iff ⟨n + 1, hn⟩).mpr h3) (iblk0 V c 0 ⟨n + 1, hn⟩) (iblk0 V c 1 ⟨n + 1, hn⟩) (heldAt c n (Nat.lt_of_succ_lt hn)).2,
       accLast c (grid0.coords ⟨n + 1, hn⟩) (imgM0 ⟨n + 1, hn⟩) (imgW0 ⟨n + 1, hn⟩) (imgM1 ⟨n + 1, hn⟩) (imgW1 ⟨n + 1, hn⟩) (outM ⟨n + 1, hn⟩) (outW ⟨n + 1, hn⟩) accM (Memref.isWhole_whole _) (fun h => by have := (isFirst_iff ⟨n + 1, hn⟩).mp h; have := lt_four hn; dsimp only at *; omega) ((isLast_iff ⟨n + 1, hn⟩).mpr h3) (iblk0 V c 0 ⟨n + 1, hn⟩) (iblk0 V c 1 ⟨n + 1, hn⟩) (heldAt c n (Nat.lt_of_succ_lt hn)).2)
    else
      (accMid c (grid0.coords ⟨n + 1, hn⟩) (imgM0 ⟨n + 1, hn⟩) (imgW0 ⟨n + 1, hn⟩) (imgM1 ⟨n + 1, hn⟩) (imgW1 ⟨n + 1, hn⟩) (outM ⟨n + 1, hn⟩) (outW ⟨n + 1, hn⟩) accM (Memref.isWhole_whole _) (fun h => by have := (isFirst_iff ⟨n + 1, hn⟩).mp h; have := lt_four hn; dsimp only at *; omega) (fun h => h3 ((isLast_iff ⟨n + 1, hn⟩).mp h)) (iblk0 V c 0 ⟨n + 1, hn⟩) (iblk0 V c 1 ⟨n + 1, hn⟩) (heldAt c n (Nat.lt_of_succ_lt hn)).2,
       accMid c (grid0.coords ⟨n + 1, hn⟩) (imgM0 ⟨n + 1, hn⟩) (imgW0 ⟨n + 1, hn⟩) (imgM1 ⟨n + 1, hn⟩) (imgW1 ⟨n + 1, hn⟩) (outM ⟨n + 1, hn⟩) (outW ⟨n + 1, hn⟩) accM (Memref.isWhole_whole _) (fun h => by have := (isFirst_iff ⟨n + 1, hn⟩).mp h; have := lt_four hn; dsimp only at *; omega) (fun h => h3 ((isLast_iff ⟨n + 1, hn⟩).mp h)) (iblk0 V c 0 ⟨n + 1, hn⟩) (iblk0 V c 1 ⟨n + 1, hn⟩) (heldAt c n (Nat.lt_of_succ_lt hn)).2)

/-- At the first point: that case's contents. -/
theorem heldAt_first (c : Dev nD) (t : Fin cfg0.N) (h0 : t.val = 0) (hf : isFirst (grid0.coords t)) (hl : ¬isLast (grid0.coords t)) :
    (heldAt V c t.val t.isLt).2 = accFirst c (grid0.coords t) (imgM0 t) (imgW0 t) (imgM1 t) (imgW1 t) (outM t) (outW t) accM (Memref.isWhole_whole _) hf hl (iblk0 V c 0 t) (iblk0 V c 1 t) := by
  obtain ⟨n, hn⟩ := t
  cases n with
  | zero => rfl
  | succ n => exact absurd h0 (Nat.succ_ne_zero n)

/-- At a middle point: that case's contents, over what the point before left. -/
theorem heldAt_mid (c : Dev nD) (t : Fin cfg0.N) (h0 : t.val ≠ 0) (h3 : ¬t.val % 4 = 3) (hf : ¬isFirst (grid0.coords t)) (hl : ¬isLast (grid0.coords t)) :
    (heldAt V c t.val t.isLt).2 = accMid c (grid0.coords t) (imgM0 t) (imgW0 t) (imgM1 t) (imgW1 t) (outM t) (outW t) accM (Memref.isWhole_whole _) hf hl (iblk0 V c 0 t) (iblk0 V c 1 t) (heldAt V c (t.val - 1) (Nat.lt_of_le_of_lt (Nat.sub_le _ _) t.isLt)).2 := by
  obtain ⟨n, hn⟩ := t
  cases n with
  | zero => exact absurd rfl h0
  | succ n => exact congrArg Prod.snd (dif_neg h3)

/-- At the last point: that case's contents, over what the point before left. -/
theorem heldAt_last (c : Dev nD) (t : Fin cfg0.N) (h0 : t.val ≠ 0) (h3 : t.val % 4 = 3) (hf : ¬isFirst (grid0.coords t)) (hl : isLast (grid0.coords t)) :
    heldAt V c t.val t.isLt = (outLast c (grid0.coords t) (imgM0 t) (imgW0 t) (imgM1 t) (imgW1 t) (outM t) (outW t) accM (Memref.isWhole_whole _) hf hl (iblk0 V c 0 t) (iblk0 V c 1 t) (heldAt V c (t.val - 1) (Nat.lt_of_le_of_lt (Nat.sub_le _ _) t.isLt)).2,
      accLast c (grid0.coords t) (imgM0 t) (imgW0 t) (imgM1 t) (imgW1 t) (outM t) (outW t) accM (Memref.isWhole_whole _) hf hl (iblk0 V c 0 t) (iblk0 V c 1 t) (heldAt V c (t.val - 1) (Nat.lt_of_le_of_lt (Nat.sub_le _ _) t.isLt)).2) := by
  obtain ⟨n, hn⟩ := t
  cases n with
  | zero => exact absurd rfl h0
  | succ n => exact dif_pos h3

/-! ## The invariant -/

/-- Before position `n`: at the start the region's resting invariant (the accumulator at anything); afterwards the
    accumulator at what the point before left, the other scoped buffers, the generator register. -/
def carried (c : Dev nD) : (n : ℕ) → n ≤ cfg0.N → sProp 𝕄
  | 0, _ => Pipeline.ΦA spec0 c
  | n + 1, hn => iprop(iprop(owns (c : Thread nD τ) accM fullShare ((heldAt V c n hn).2) ∗ others (F := F) c) ∗ (∃ r, prngReg c r))

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop(iprop(owns (c : Thread nD τ) accM fullShare ((heldAt V c n hn).2) ∗ others (F := F) c) ∗ (∃ r, prngReg c r)) := rfl
theorem carried_pos (c : Dev nD) (n : ℕ) (h : n ≤ cfg0.N) (hz : n ≠ 0) :
    carried V c n h = iprop(iprop(owns (c : Thread nD τ) accM fullShare ((heldAt V c (n - 1) (by omega)).2) ∗ others (F := F) c) ∗ (∃ r, prngReg c r)) := by
  cases n with
  | zero => exact absurd rfl hz
  | succ n => rfl

/-! ## The proof data -/

/-- The region's proof data on core `c`: the arrays as the region finds them; after the body at point `t` each image
    window's buffer at its block and the output's at `heldAt`'s first component; the invariant `carried`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (heldAt V c t.val t.isLt).1
  Φ t := carried V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem carried_castSucc (c : Dev nD) (t : Fin cfg0.N) :
    (dat0 V c).Φ t.castSucc = carried V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (heldAt V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation at a point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (imgM0 t) fullShare ((dat0 V c).before 0 t d))
    ∗ (∃ d, owns (c : Thread nD τ) (imgM1 t) fullShare ((dat0 V c).before 1 t d))
    ∗ (∃ d, owns (c : Thread nD τ) (outM t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The image windows' buffers hold their blocks; the point's position says which case it is
    in; the invariant hands the body the accumulator at what the point before left (at anything at the first point)
    and takes it back at this point's contents; away from the last point the output block goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = carried V c (t.val + 1) t.isLt from rfl, carried_succ]
  have hN : t.val < 4 := lt_four t.isLt
  rw [show (dat0 V c).leavesExact 0 t = owns (c : Thread nD τ) (imgM0 t) fullShare ((dat0 V c).after 0 t) from by
    unfold Dat.leavesExact; rw [live0_0 t], after0_0]
  rw [show (dat0 V c).leavesExact 1 t = owns (c : Thread nD τ) (imgM1 t) fullShare ((dat0 V c).after 1 t) from by
    unfold Dat.leavesExact; rw [live0_1 t], after0_1]
  by_cases h0 : t.val = 0
  · have hf : isFirst (grid0.coords t) := (isFirst_iff t).mpr (by omega)
    have hl : ¬isLast (grid0.coords t) := fun h => by have := (isLast_iff t).mp h; omega
    rw [Dat.leavesExact_idle (dat0 V c) 2 t (idle0_2 t hl) (noFlush0_2 t hl)]
    rw [heldAt_first V c t h0 hf hl]
    unfold accFirst; (try dsimp only)
    rw [carried_castSucc V c t, carried_zero V c _ _ h0, restInv_eq]
    iintro ⟨⟨⟨HS0, Hoth⟩, Hg⟩, Ho, ⟨%d0, H0⟩, ⟨%d1, H1⟩, ⟨%d2, H2⟩⟩
    iapply ((runFirst c (grid0.coords t) _ _ _ _ _ _ _ _ hf hl (iblk0 V c 0 t) (iblk0 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (coverFirst c _ _ _ _ _ _ _ _ _ _ _ _ _)
        iexact Hoth
      iexact Hg
    isplitl [Ho]; · iexact Ho
    isplitl [H0]; · iexact H0
    isplitl [H1]; · iexact H1
    iexists _; iexact H2
  · by_cases h3 : t.val % 4 = 3
    · have hf : ¬isFirst (grid0.coords t) := fun h => by have := (isFirst_iff t).mp h; omega
      have hl : isLast (grid0.coords t) := (isLast_iff t).mpr h3
      rw [show (dat0 V c).leavesExact 2 t = owns (c : Thread nD τ) (outM t) fullShare ((dat0 V c).after 2 t) from by
        unfold Dat.leavesExact; rw [live0_2 t hl], after0_2]
      rw [heldAt_last V c t h0 h3 hf hl]
      unfold outLast accLast; (try dsimp only)
      rw [carried_castSucc V c t, carried_pos V c _ _ h0]
      iintro ⟨⟨⟨HS0, Hoth⟩, Hg⟩, Ho, ⟨%d0, H0⟩, ⟨%d1, H1⟩, ⟨%d2, H2⟩⟩
      iapply ((runLast c (grid0.coords t) _ _ _ _ _ _ _ _ hf hl (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverLastAcc c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · have hf : ¬isFirst (grid0.coords t) := fun h => by have := (isFirst_iff t).mp h; omega
      have hl : ¬isLast (grid0.coords t) := fun h => h3 ((isLast_iff t).mp h)
      rw [Dat.leavesExact_idle (dat0 V c) 2 t (idle0_2 t hl) (noFlush0_2 t hl)]
      rw [heldAt_mid V c t h0 h3 hf hl]
      unfold accMid; (try dsimp only)
      rw [carried_castSucc V c t, carried_pos V c _ _ h0]
      iintro ⟨⟨⟨HS0, Hoth⟩, Hg⟩, Ho, ⟨%d0, H0⟩, ⟨%d1, H1⟩, ⟨%d2, H2⟩⟩
      iapply ((runMid c (grid0.coords t) _ _ _ _ _ _ _ _ hf hl (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverMid c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem rest_in (c : Dev nD) : Pipeline.ΦA spec0 c ⊢ (dat0 V c).Φ 0 := by
  rw [show (dat0 V c).Φ 0 = carried V c 0 (Nat.zero_le _) from rfl, carried_zero V c 0 _ rfl]
  try exact Idealize.SL.BI.Entails.refl _

/-- After any point the invariant gives the resting one back: the accumulator's named contents are forgotten. -/
theorem rest_out (c : Dev nD) (t : Fin (cfg0.N + 1)) (ht : t.val ≠ 0) : (dat0 V c).Φ t ⊢ Pipeline.ΦA spec0 c := by
  rw [show (dat0 V c).Φ t = carried V c t.val (Nat.le_of_lt_succ t.isLt) from rfl, carried_pos V c _ _ ht, restInv_eq]
  iintro ⟨⟨HS0, Hoth⟩, Hg⟩
  isplitl [HS0 Hoth]
  · isplitl [HS0]
    · iexists _; iexact HS0
    iexact Hoth
  iexact Hg

theorem rest_out_last (c : Dev nD) : (dat0 V c).Φ (Fin.last cfg0.N) ⊢ Pipeline.ΦA spec0 c :=
  rest_out V c _ (by rw [Fin.val_last]; have : cfg0.N = 4 := N_0; omega)

end Cert.Kernel.Hand

end
-- ==== Proof.Word.ChamferRegions.lean ====
import proofs.«133641_j60370060312890_2_alg».proof.Proof.Gen.Kernel.Launch
import proofs.«133641_j60370060312890_2_alg».proof.Proof.Gen.Kernel.Skeleton
import proofs.«133641_j60370060312890_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two nearest-point regions, as separation-logic triples

Each of the two nearest-point kernels runs over 64 tiles of 128 query points. At a tile the body reads
the tile's query coordinates (two 128x1 blocks), reads all 8192 key coordinates (two 1x8192 rows, the
same at every tile), and overwrites the tile's 128x1 output block with, per query point, the least
squared distance to a key point. Nothing is carried from tile to tile.

So what the body leaves in the output block is a closed function of the four input blocks at the tile:
the payload of its one store, which covers the block. This file states that, for either kernel and at
any float instance: the blocks a tile reads, the block it leaves, the body's triple, the proof data of
the pipeline around it, and the body obligation the pipeline asks for. The mathematics of the payload
(that it is the minimum of squared distances) is not here; it is read off the payload's name elsewhere.
-/

-- membership in a rectangle of long extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when a region is entered: every statement below is at this parameter
variable (V : (c : Dev nD) → (b : Ref sig .tc) → Buf (Elt F) ((c : Thread nD τ).loc b))

/-! ## The body's accesses: each is the whole of its buffer -/

/-- The whole 128x1 block (a tile's query coordinates, and its output). -/
abbrev rTile : Rect S128x1 := Rect.unit (s := S128x1) ![0, 0] S128x1.size inb_S128x1_S128x1_0_0
/-- The whole 1x8192 row (all key coordinates). -/
abbrev rKeys : Rect S1x8192 := Rect.unit (s := S1x8192) ![0, 0] S1x8192.size inb_S1x8192_S1x8192_0_0

/-- One store through the whole-block rectangle covers the block. -/
theorem cover_tile (p0 : Vec F S128x1 .f32) (y : S128x1.Idx) :
    ∃ pc ∈ ([⟨rTile, p0⟩] : List (View.Piece (Elt F) S128x1 .f32)), y ∈ pc.1.set :=
  View.cover_of_tiled [⟨rTile, p0⟩] S128x1.size (by rfl) y

/-! # Region 1: queries are the predicted points, keys the target points -/

/-! ## The windows' blocks -/

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every tile, fetched there or not, for any proof
    data whose array is `V`'s and whose body leaves the block in place: where the window was not fetched its
    block index has not moved since the tile before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every tile, fetched there or not, for any proof
    data whose array is `V`'s and whose body leaves the block in place: where the window was not fetched its
    block index has not moved since the tile before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every tile, fetched there or not, for any proof
    data whose array is `V`'s and whose body leaves the block in place: where the window was not fetched its
    block index has not moved since the tile before (the key rows: index constant, fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every tile, fetched there or not, for any proof
    data whose array is `V`'s and whose body leaves the block in place: where the window was not fetched its
    block index has not moved since the tile before (the key rows: index constant, fetched once). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The output block after the body, from the four input blocks: its one store, of the payload over what the
    four loads read. -/
def out1_4 (x0 x1 : Vec F S128x1 .f32) (x2 x3 : Vec F S1x8192 .f32) : Vec F S128x1 .f32 :=
  View.canon [⟨rTile, k1_pay1 (View.ld x0 rTile) (View.ld x1 rTile) (View.ld x2 rKeys) (View.ld x3 rKeys)⟩]

/-! ## The body's triple -/

set_option maxHeartbeats 1000000 in
/-- The body on whole staging buffers, the four inputs' at read contents `x0 … x3` and the output's at anything,
    runs to the continuation holding the inputs' as they were and the output's at `out1_4` of them. (The body
    also reads the output block before overwriting it; what it reads there is not used.) -/
theorem sound_kernel1 (c : Dev nD) (E : Set ℕ) (i : grid1.Coords)
    (arg1 : Memref sig .tc .vmem S128x1 .f32) (harg1 : arg1.IsWhole) (arg2 : Memref sig .tc .vmem S128x1 .f32) (harg2 : arg2.IsWhole)
    (arg3 : Memref sig .tc .vmem S1x8192 .f32) (harg3 : arg3.IsWhole) (arg4 : Memref sig .tc .vmem S1x8192 .f32) (harg4 : arg4.IsWhole)
    (arg5 : Memref sig .tc .vmem S128x1 .f32) (harg5 : arg5.IsWhole)
    (x0 x1 : Vec F S128x1 .f32) (x2 x3 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__chamfer_min_kernel i arg1 harg1 arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_tile _)

/-! ## The pipeline's proof data -/

/-- The proof data of the pipeline on core `c`: the arrays as the region finds them; after the body at tile `t`
    each input's buffer at its block and the output's at `out1_4` of the four input blocks; the invariant is the
    rest of the core's scoped memory and its random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every tile, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic tile -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any tile: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

/-! # Region 2: queries are the target points, keys the predicted points -/

/-! ## The windows' blocks -/

/-- Window `w`'s block at tile `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every tile, fetched there or not, for any proof
    data whose array is `V`'s and whose body leaves the block in place: where the window was not fetched its
    block index has not moved since the tile before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every tile, fetched there or not, for any proof
    data whose array is `V`'s and whose body leaves the block in place: where the window was not fetched its
    block index has not moved since the tile before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every tile, fetched there or not, for any proof
    data whose array is `V`'s and whose body leaves the block in place: where the window was not fetched its
    block index has not moved since the tile before (the key rows: index constant, fetched once). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every tile, fetched there or not, for any proof
    data whose array is `V`'s and whose body leaves the block in place: where the window was not fetched its
    block index has not moved since the tile before (the key rows: index constant, fetched once). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The output block after the body, from the four input blocks: its one store, of the payload over what the
    four loads read. -/
def out2_4 (x0 x1 : Vec F S128x1 .f32) (x2 x3 : Vec F S1x8192 .f32) : Vec F S128x1 .f32 :=
  View.canon [⟨rTile, k2_pay1 (View.ld x0 rTile) (View.ld x1 rTile) (View.ld x2 rKeys) (View.ld x3 rKeys)⟩]

/-! ## The body's triple -/

set_option maxHeartbeats 1000000 in
/-- The body on whole staging buffers, the four inputs' at read contents `x0 … x3` and the output's at anything,
    runs to the continuation holding the inputs' as they were and the output's at `out2_4` of them. (The body
    also reads the output block before overwriting it; what it reads there is not used.) -/
theorem sound_kernel2 (c : Dev nD) (E : Set ℕ) (i : grid2.Coords)
    (arg1 : Memref sig .tc .vmem S128x1 .f32) (harg1 : arg1.IsWhole) (arg2 : Memref sig .tc .vmem S128x1 .f32) (harg2 : arg2.IsWhole)
    (arg3 : Memref sig .tc .vmem S1x8192 .f32) (harg3 : arg3.IsWhole) (arg4 : Memref sig .tc .vmem S1x8192 .f32) (harg4 : arg4.IsWhole)
    (arg5 : Memref sig .tc .vmem S128x1 .f32) (harg5 : arg5.IsWhole)
    (x0 x1 : Vec F S128x1 .f32) (x2 x3 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__chamfer_min_kernel i arg1 harg1 arg2 harg2 arg3 harg3 arg4 harg4 arg5 harg5) K := by
  simp only [cc2__chamfer_min_kernel_eq_skeleton]; unfold cc2__chamfer_min_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_tile _)

/-! ## The pipeline's proof data -/

/-- The proof data of the pipeline on core `c`: the arrays as the region finds them; after the body at tile `t`
    each input's buffer at its block and the output's at `out2_4` of the four input blocks; the invariant is the
    rest of the core's scoped memory and its random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every tile, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic tile -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any tile: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every tile. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Word.MainRun.lean ====
import proofs.«133641_j60370060312890_2_alg».proof.Proof.Word.Dice.Region
import proofs.«133641_j60370060312890_2_alg».proof.Proof.Word.ChamferRegions
import proofs.«133641_j60370060312890_2_alg».proof.Proof.Gen.Kernel.Regions

/-!
# The whole program as a run of five segments

The program is, in order: the Dice region; a stretch of host operations (the Dice ratio, and the
coordinate columns of the two point sets); the nearest-point region with the predicted points as
queries; the same region with the target points as queries; a last stretch of host operations (the two
means, their sum, the halves, the total).

Between two segments a core holds every one of its unscoped buffers whole, at contents we name by a fold
from the launch memory: `W0` at launch; after a region, the contents before it with the region's arrays
replaced by what its write-backs leave; after a host stretch, what the stretch computes from the contents
before it. Beside the buffers ride the core's random-number register, at some state, and the record that
the core owes no other core anything.

The theorem at the end: every fair execution from memory `m` with all counters at zero terminates
without fault, and every final memory holds each unscoped buffer at the last fold `W5`. The four
argument buffers are written by no segment, so `W5` has them as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the core's own references: what the Dice region is entered with. -/
abbrev Vat0 : (c : Dev nD) → (b : Ref sig .tc) → Buf (Elt F) ((c : Thread nD τ).loc b) := fun c b => W0 m ρ c b

/-- After the Dice region: its arrays at what the pipeline leaves (the two images as entered, the output at its
    write-back), every other buffer as entered. -/
def W1 (c : Dev nD) : Valuation τ sig (Elt F) :=
  Pipeline.withArrays spec0 c (W0 m ρ c) fun w => (dat0 (Vat0 m ρ) c).arrAt w cfg0.N
theorem W1_arr (c : Dev nD) (w : Fin cfg0.W) :
    W1 m ρ c (Proc.devRef .tc (Pipeline.arrRef spec0 w)) = (dat0 (Vat0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vat1 : (c : Dev nD) → (b : Ref sig .tc) → Buf (Elt F) ((c : Thread nD τ).loc b) := fun c b => W1 m ρ c b
theorem hF0 (c : Dev nD) (w : Fin cfg0.W) : (dat0 (Vat0 m ρ) c).arrAt w cfg0.N = Vat1 m ρ c (Pipeline.arrRef spec0 w) :=
  (W1_arr m ρ c w).symm
theorem hrest0 (c : Dev nD) : ∀ b, b ∉ Finset.univ.image (Pipeline.arrRef spec0) → Vat1 m ρ c b = Vat0 m ρ c b :=
  fun b hb => W1_of_ne m ρ c b fun w e => hb (Finset.mem_image.mpr ⟨w, Finset.mem_univ _, e⟩)

/-- After the first host stretch: what the first nearest-point region is entered with. -/
abbrev W2 : Dev nD → Valuation τ sig (Elt F) := fun c => StableHlo.after hostOps1 (W1 m ρ c)
abbrev Vat2 : (c : Dev nD) → (b : Ref sig .tc) → Buf (Elt F) ((c : Thread nD τ).loc b) := fun c b => W2 m ρ c b

/-- After the first nearest-point region: its arrays at what the pipeline leaves, the rest as entered. -/
def W3 (c : Dev nD) : Valuation τ sig (Elt F) :=
  Pipeline.withArrays spec1 c (W2 m ρ c) fun w => (dat1 (Vat2 m ρ) c).arrAt w cfg1.N
theorem W3_arr (c : Dev nD) (w : Fin cfg1.W) :
    W3 m ρ c (Proc.devRef .tc (Pipeline.arrRef spec1 w)) = (dat1 (Vat2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same at the core's own references: what the second nearest-point region is entered with. -/
abbrev Vat3 : (c : Dev nD) → (b : Ref sig .tc) → Buf (Elt F) ((c : Thread nD τ).loc b) := fun c b => W3 m ρ c b
theorem hF1 (c : Dev nD) (w : Fin cfg1.W) : (dat1 (Vat2 m ρ) c).arrAt w cfg1.N = Vat3 m ρ c (Pipeline.arrRef spec1 w) :=
  (W3_arr m ρ c w).symm
theorem hrest1 (c : Dev nD) : ∀ b, b ∉ Finset.univ.image (Pipeline.arrRef spec1) → Vat3 m ρ c b = Vat2 m ρ c b :=
  fun b hb => W3_of_ne m ρ c b fun w e => hb (Finset.mem_image.mpr ⟨w, Finset.mem_univ _, e⟩)

/-- After the second nearest-point region. -/
def W4 (c : Dev nD) : Valuation τ sig (Elt F) :=
  Pipeline.withArrays spec2 c (W3 m ρ c) fun w => (dat2 (Vat3 m ρ) c).arrAt w cfg2.N
theorem W4_arr (c : Dev nD) (w : Fin cfg2.W) :
    W4 m ρ c (Proc.devRef .tc (Pipeline.arrRef spec2 w)) = (dat2 (Vat3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev Vat4 : (c : Dev nD) → (b : Ref sig .tc) → Buf (Elt F) ((c : Thread nD τ).loc b) := fun c b => W4 m ρ c b
theorem hF2 (c : Dev nD) (w : Fin cfg2.W) : (dat2 (Vat3 m ρ) c).arrAt w cfg2.N = Vat4 m ρ c (Pipeline.arrRef spec2 w) :=
  (W4_arr m ρ c w).symm
theorem hrest2 (c : Dev nD) : ∀ b, b ∉ Finset.univ.image (Pipeline.arrRef spec2) → Vat4 m ρ c b = Vat3 m ρ c b :=
  fun b hb => W4_of_ne m ρ c b fun w e => hb (Finset.mem_image.mpr ⟨w, Finset.mem_univ _, e⟩)

/-- After the last host stretch: the contents at the return. -/
abbrev W5 : Dev nD → Valuation τ sig (Elt F) := fun c => StableHlo.after hostOps3 (W4 m ρ c)

/-! ## The arguments end as launched

No host operation writes an argument buffer; the Dice region reads the two images through input windows, which it
leaves as entered; no other region has an argument among its arrays. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (Vat0 m ρ) c).arrAt_in 0 rfl _).trans (A_eq0 (Vat0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (Vat0 m ρ) c).arrAt_in 1 rfl _).trans (A_eq0 (Vat0 m ρ) c 1))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vat0 m ρ) c
  | ⟨1, _⟩ => fun c => dat1 (Vat2 m ρ) c
  | ⟨2, _⟩ => fun c => dat2 (Vat3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state, and its
    record of owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along: it ends with
    those buffers at what the stretch computes from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing record: every unscoped buffer at `W5`, the register at some state. -/
abbrev Tₙ (c : Dev nD) : sProp 𝕄 := iprop(StableHlo.held (c : Thread nD τ) (Pipeline.ucRefs τ sig) (W5 m ρ c) ∗ ∃ r, prngReg c r)

/-! ## The regions as segments -/

-- applying a library lemma stated over a pinned configuration needs unification to unfold plain definitions in a
-- metavariable's type
set_option backward.isDefEq.respectTransparency.types false in
/-- The Dice region: entered from every unscoped buffer at `W0`, left at `W1`. Its arrays are split out of
    the unscoped buffers at entry and put back, at the exit contents, when it ends; the random-number register goes
    into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vat0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vat0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vat0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the resting invariant first, then into the invariant before the first point
    rw [show (pdats m ρ 0 c).Φ 0 = (dat0 (Vat0 m ρ) c).Φ 0 from rfl]
    iintro ⟨Hp, -, Hr⟩
    iapply (rest_in (Vat0 m ρ) c)
    unfold Pipeline.ΦA
    isplitl [Hr]; · iexact Hr
    iexact Hp
  hout c := by
    -- after the last point the invariant gives the resting one back
    rw [Pipeline.ownSems0_none, show (pdats m ρ 0 c).Φ (Fin.last _) = (dat0 (Vat0 m ρ) c).Φ (Fin.last cfg0.N) from rfl]
    have hback := rest_out_last (Vat0 m ρ) c
    iintro H
    ihave H' := hback $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vat0 m ρ c) (Vat1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over a pinned configuration needs unification to unfold plain definitions in a
-- metavariable's type
set_option backward.isDefEq.respectTransparency.types false in
/-- The first nearest-point region: entered from every unscoped buffer at `W2`, left at `W3`. Its arrays are split out of
    the unscoped buffers at entry and put back, at the exit contents, when it ends; the random-number register goes
    into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vat2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vat2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vat2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vat2 m ρ c) (Vat3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over a pinned configuration needs unification to unfold plain definitions in a
-- metavariable's type
set_option backward.isDefEq.respectTransparency.types false in
/-- The second nearest-point region: entered from every unscoped buffer at `W3`, left at `W4`. Its arrays are split out of
    the unscoped buffers at entry and put back, at the exit contents, when it ends; the random-number register goes
    into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vat3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (Vat3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vat3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vat3 m ρ c) (Vat4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The five segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .host (hseg hostOps3 hostOps3_sub hostOps3_fresh (W4 m ρ)) ]
/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory `m` with every counter at zero, every fair execution of the program terminates, nothing
    faulting, and every final memory holds each unscoped buffer of each core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => show iprop(StableHlo.held (c : Thread nD τ) (Pipeline.ucRefs τ sig) (W5 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- So every final memory has the four argument buffers as launched. -/
theorem run_args_kept (c : Dev nD) :
    W5 m ρ c (Proc.devRef .tc main_arg0) = m ((c : Thread nD τ).loc main_arg0)
    ∧ W5 m ρ c (Proc.devRef .tc main_arg1) = m ((c : Thread nD τ).loc main_arg1)
    ∧ W5 m ρ c (Proc.devRef .tc main_arg2) = m ((c : Thread nD τ).loc main_arg2)
    ∧ W5 m ρ c (Proc.devRef .tc main_arg3) = m ((c : Thread nD τ).loc main_arg3) :=
  ⟨W5_main_arg0 m ρ c, W5_main_arg1 m ρ c, W5_main_arg2 m ρ c, W5_main_arg3 m ρ c⟩

end Cert.Kernel.Hand

end
-- ==== Proof.Spec.lean ====
/-
  The value both programs compute, as one function of the four argument arrays.

  A Dice loss of a logistic mask against a soft target: with the mask `σ(p)` (the logistic function of the logits),
  `1 − (2·Σ σ(p)·t + ε) / ((Σ σ(p) + Σ t) + ε)`, the three sums running over every entry of the two images.
  A two-sided Chamfer distance of two planar point sets `A`, `B` of 8192 points each: the mean over `A` of the squared
  distance to the nearest point of `B`, plus the mean over `B` of the squared distance to the nearest point of `A`.
  The loss is one half of each. Every operation is the extended reals' (`Ideal.div`, `Ideal.logistic`); the float
  literals are kept as their words, the same on both sides.
-/
import Idealize.ShloMosaic.PureOps.Ideal
import Idealize.ShloMosaic.Lib.ValueIdx

noncomputable section

open scoped BigOperators

namespace Cert.Loss

open Idealize.ShloMosaic Idealize.ShloMosaic.ValueIdx

/-- The shape of the logits and of the soft target. -/
abbrev Img : Shape := ⟨4, ![4, 1, 1024, 1024]⟩
/-- The shape of a point set: one batch, 8192 points, two coordinates. -/
abbrev Pts : Shape := ⟨3, ![1, 8192, 2]⟩

/-- `Σ σ(p)·t` over every entry. -/
def overlap (P T : Img.Idx → EReal) : EReal := ∑ i : Img.Idx, Ideal.logistic (P i) * T i
/-- `Σ σ(p)` over every entry. -/
def maskMass (P : Img.Idx → EReal) : EReal := ∑ i : Img.Idx, Ideal.logistic (P i)
/-- `Σ t` over every entry. -/
def targetMass (T : Img.Idx → EReal) : EReal := ∑ i : Img.Idx, T i

/-- The squared distance from point `j` of `A` to point `k` of `B`. -/
def sqDist (A B : Pts.Idx → EReal) (j k : Fin 8192) : EReal :=
  (A (ix3 0 j 0) - B (ix3 0 k 0)) * (A (ix3 0 j 0) - B (ix3 0 k 0))
    + (A (ix3 0 j 1) - B (ix3 0 k 1)) * (A (ix3 0 j 1) - B (ix3 0 k 1))

/-- The squared distance from point `j` of `A` to the nearest point of `B`. -/
def nearestInB (A B : Pts.Idx → EReal) (j : Fin 8192) : EReal := Finset.univ.inf fun k : Fin 8192 => sqDist A B j k
/-- The squared distance from point `k` of `B` to the nearest point of `A`. -/
def nearestInA (A B : Pts.Idx → EReal) (k : Fin 8192) : EReal := Finset.univ.inf fun j : Fin 8192 => sqDist A B j k

/-- The Dice term `1 − (2·overlap + ε) / ((maskMass + targetMass) + ε)`. -/
def dice (P T : Img.Idx → EReal) : EReal :=
  Ideal.ofBits .f32 0x3F800000#32
    - Ideal.div (Ideal.ofBits .f32 0x40000000#32 * overlap P T + Ideal.ofBits .f32 0x358637BD#32)
        ((maskMass P + targetMass T) + Ideal.ofBits .f32 0x358637BD#32)

/-- The Chamfer term: the two means of nearest squared distances. -/
def chamfer (A B : Pts.Idx → EReal) : EReal :=
  Ideal.div (∑ j : Fin 8192, nearestInB A B j) (Ideal.ofBits .f32 0x46000000#32)
    + Ideal.div (∑ k : Fin 8192, nearestInA A B k) (Ideal.ofBits .f32 0x46000000#32)

/-- The loss: one half of the Dice term plus one half of the Chamfer term. -/
def loss (P T : Img.Idx → EReal) (A B : Pts.Idx → EReal) : EReal :=
  Ideal.ofBits .f32 0x3F000000#32 * dice P T + Ideal.ofBits .f32 0x3F000000#32 * chamfer A B

end Cert.Loss

end
-- ==== Proof.RefLoss.lean ====
/-
  The reference program's result is the specified loss.

  Read one operation at a time at the extended reals: the logits pass through `1 / (1 + e^(-x))`, which is the logistic
  function; the three sums over every image entry are the overlap, the mask's mass and the target's mass, each starting
  from the word of zero; the Dice term follows by the scalar operations. For the point sets, the difference of the two
  broadcast arrays at (j, k, c) is coordinate `c` of point `j` of the first set minus that of point `k` of the
  second; squaring and summing over the two coordinates gives the squared distance. A minimum-reduce from `+∞` over one
  axis is a fold of `min` from the top element over that axis's 8192 positions, which is the infimum over them; the sum
  over the one-row result is the sum over its 8192 positions. The two means and the two halves are scalar operations.
  No finiteness of the arguments is used.
-/
import proofs.«133641_j60370060312890_2_alg».proof.Proof.Gen.ReferenceIdeal.Read
import proofs.«133641_j60370060312890_2_alg».proof.Proof.Spec
import Idealize.ShloMosaic.Lib.ValueIdx
import Idealize.ShloMosaic.PureOps.Ideal.Laws
import Idealize.ShloMosaic.PureOps.Reduce

noncomputable section

open scoped BigOperators

namespace Cert.RefLoss

open Cert.ReferenceIdeal Cert.ReferenceIdeal.Gen Cert.ReferenceIdeal.Read Idealize.ShloMosaic Idealize.ShloMosaic.ValueIdx Cert.Loss

/-- The values of an image argument and of a point-set argument: one extended real per index. -/
abbrev ImgV := (⟨S4x1x1024x1024, .f32⟩ : BufTy).Contents (Elt Ideal)
abbrev PtsV := (⟨S1x8192x2, .f32⟩ : BufTy).Contents (Elt Ideal)

/-- The word `0x3F800000` is the number one. -/
theorem one_f32 : Ideal.ofBits .f32 0x3F800000#32 = 1 := by
  simp [Ideal.ofBits, Ideal.ieee, -EReal.coe_mul]; norm_num

/-- The word `0x7F800000` is `+∞`, the top of the extended reals. -/
theorem top_f32 : Ideal.ofBits .f32 0x7F800000#32 = ⊤ := by simp [Ideal.ofBits, Ideal.ieee]

/-! ## The Dice term -/

/-- `1 / (1 + e^(-x))`, entry by entry, is the logistic function of the logits. -/
theorem sig_apply (a0 : ImgV) (i : S4x1x1024x1024.Idx) : val_main_v5 (F := Ideal) a0 i = Ideal.logistic (a0 i) := by
  rw [val_main_v5_apply, val_main_v4_apply, val_main_cst_0_apply, val_main_v3_apply, val_main_v2_apply, val_main_cst_apply,
    val_main_v1_apply, val_main_v0_apply]
  simp only [Ideal.hostDivf_def, Ideal.addf_def, Ideal.hostUnary_exp_def, Ideal.hostNegf_def, Ideal.negf_def, Ideal.ofBits_def, one_f32]
  rfl

theorem v6_apply (a0 a1 : ImgV) (i : S4x1x1024x1024.Idx) :
    val_main_v6 (F := Ideal) a0 a1 i = Ideal.logistic (a0 i) * a1 i := by
  rw [val_main_v6_apply, sig_apply, Ideal.mulf_def]

/-- The sum of mask times target over every entry. -/
theorem v7_apply (a0 a1 : ImgV) (i : S_.Idx) : val_main_v7 (F := Ideal) a0 a1 i = overlap a0 a1 := by
  rw [val_main_v7_apply, val_main_cst_1_apply, Ideal.ofBits_def, Ideal.ofBits_zero_f32, zero_add]
  exact Finset.sum_congr rfl fun j _ => v6_apply a0 a1 j

/-- The sum of the mask over every entry. -/
theorem v8_apply (a0 : ImgV) (i : S_.Idx) : val_main_v8 (F := Ideal) a0 i = maskMass a0 := by
  rw [val_main_v8_apply, val_main_cst_2_apply, Ideal.ofBits_def, Ideal.ofBits_zero_f32, zero_add]
  exact Finset.sum_congr rfl fun j _ => sig_apply a0 j

/-- The sum of the target over every entry. -/
theorem v9_apply (a1 : ImgV) (i : S_.Idx) : val_main_v9 (F := Ideal) a1 i = targetMass a1 := by
  rw [val_main_v9_apply, val_main_cst_3_apply, Ideal.ofBits_def, Ideal.ofBits_zero_f32, zero_add]
  rfl

theorem v15_apply (a0 a1 : ImgV) (i : S_.Idx) : val_main_v15 (F := Ideal) a0 a1 i = dice a0 a1 := by
  rw [val_main_v15_apply, val_main_cst_7_apply, val_main_v14_apply, val_main_v12_apply, val_main_v11_apply,
    val_main_cst_4_apply, v7_apply, val_main_cst_5_apply, val_main_v13_apply, val_main_v10_apply, v8_apply, v9_apply,
    val_main_cst_6_apply]
  simp only [Ideal.subf_def, Ideal.hostDivf_def, Ideal.addf_def, Ideal.mulf_def, Ideal.ofBits_def]
  rfl

/-! ## The Chamfer term -/

/-- The difference of coordinate `c` of point `j` of the first set and point `k` of the second. -/
theorem v20_apply (a2 a3 : PtsV) (i : S1x8192x8192x2.Idx) :
    val_main_v20 (F := Ideal) a2 a3 i
      = a2 (ix3 (0 : Fin 1) (⟨(i 1).val, (i 1).isLt⟩ : Fin 8192) (⟨(i 3).val, (i 3).isLt⟩ : Fin 2))
        - a3 (ix3 (0 : Fin 1) (⟨(i 2).val, (i 2).isLt⟩ : Fin 8192) (⟨(i 3).val, (i 3).isLt⟩ : Fin 2)) := by
  rw [val_main_v20_apply, val_main_v18_apply, val_main_v16_apply, val_main_v19_apply, val_main_v17_apply, Ideal.subf_def]
  have e2 : idx_main_v16 (idx_main_v18 i)
      = ix3 (0 : Fin 1) (⟨(i 1).val, (i 1).isLt⟩ : Fin 8192) (⟨(i 3).val, (i 3).isLt⟩ : Fin 2) := by
    funext a; match a with | ⟨0, _⟩ => rfl | ⟨1, _⟩ => rfl | ⟨2, _⟩ => rfl
  have e3 : idx_main_v17 (idx_main_v19 i)
      = ix3 (0 : Fin 1) (⟨(i 2).val, (i 2).isLt⟩ : Fin 8192) (⟨(i 3).val, (i 3).isLt⟩ : Fin 2) := by
    funext a; match a with | ⟨0, _⟩ => rfl | ⟨1, _⟩ => rfl | ⟨2, _⟩ => rfl
  rw [e2, e3]

/-- The two squared coordinate differences, summed: the squared distance of point `j` to point `k`. -/
theorem v22_apply (a2 a3 : PtsV) (i : S1x8192x8192.Idx) :
    val_main_v22 (F := Ideal) a2 a3 i
      = sqDist a2 a3 (⟨(i 1).val, (i 1).isLt⟩ : Fin 8192) (⟨(i 2).val, (i 2).isLt⟩ : Fin 8192) := by
  rw [val_main_v22_apply, val_main_cst_8_apply, Ideal.ofBits_def, Ideal.ofBits_zero_f32, zero_add, Fin.sum_univ_two,
    val_main_v21_apply, val_main_v21_apply, v20_apply, v20_apply]
  simp only [Ideal.mulf_def]
  rfl

/-- The shape facts that name the index inserted on the reduced axis. -/
theorem red_d2 : S1x8192x8192.Reduces [2] S1x8192 := by decide
theorem red_d1 : S1x8192x8192.Reduces [1] S1x8192 := by decide

/-- A fold of `min` from `+∞` over every index is the infimum over every index. -/
theorem fold_min_top {ι : Type*} [Fintype ι] (f : ι → EReal) :
    (Finset.univ : Finset ι).fold min (⊤ : EReal) f = Finset.univ.inf f := rfl

/-- The minimum over the second set's points: the squared distance of point `j` to the nearest point of the second set. -/
theorem v23_apply (a2 a3 : PtsV) (j : S1x8192.Idx) :
    val_main_v23 (F := Ideal) a2 a3 j = nearestInB a2 a3 (⟨(j 1).val, (j 1).isLt⟩ : Fin 8192) := by
  unfold val_main_v23
  rw [Host.reduce_eq_fold_single FloatOps.minimumf _ _ reducesTo_S1x8192x8192_S1x8192_d2 red_d2 h_S_, val_main_cst_9_apply,
    Ideal.ofBits_def, top_f32]
  have hf : (val_main_v22 (F := Ideal) a2 a3 ∘ red_d2.lift j)
      = fun k : Fin 8192 => sqDist a2 a3 (⟨(j 1).val, (j 1).isLt⟩ : Fin 8192) k := by
    funext k
    show val_main_v22 (F := Ideal) a2 a3 (red_d2.lift j k) = _
    rw [v22_apply]
    exact congrArg₂ (sqDist a2 a3) (Fin.ext rfl) (Fin.ext rfl)
  exact (congrArg (fun f => Finset.fold min (⊤ : EReal) f (Finset.univ : Finset (Fin 8192))) hf).trans (fold_min_top _)

/-- The minimum over the first set's points: the squared distance of point `k` of the second set to the nearest point of the first. -/
theorem v26_apply (a2 a3 : PtsV) (j : S1x8192.Idx) :
    val_main_v26 (F := Ideal) a2 a3 j = nearestInA a2 a3 (⟨(j 1).val, (j 1).isLt⟩ : Fin 8192) := by
  unfold val_main_v26
  rw [Host.reduce_eq_fold_single FloatOps.minimumf _ _ reducesTo_S1x8192x8192_S1x8192_d1 red_d1 h_S_, val_main_cst_12_apply,
    Ideal.ofBits_def, top_f32]
  have hf : (val_main_v22 (F := Ideal) a2 a3 ∘ red_d1.lift j)
      = fun k : Fin 8192 => sqDist a2 a3 k (⟨(j 1).val, (j 1).isLt⟩ : Fin 8192) := by
    funext k
    show val_main_v22 (F := Ideal) a2 a3 (red_d1.lift j k) = _
    rw [v22_apply]
    exact congrArg₂ (sqDist a2 a3) (Fin.ext rfl) (Fin.ext rfl)
  exact (congrArg (fun f => Finset.fold min (⊤ : EReal) f (Finset.univ : Finset (Fin 8192))) hf).trans (fold_min_top _)

/-- A sum over the one-row index set is the sum over the row's 8192 positions. -/
theorem sum_row (f : S1x8192.Idx → EReal) : ∑ j : S1x8192.Idx, f j = ∑ b : Fin 8192, f (ix2 (0 : Fin 1) b) := by
  rw [sum_idx2, Fin.sum_univ_one]

theorem v24_apply (a2 a3 : PtsV) (i : S_.Idx) :
    val_main_v24 (F := Ideal) a2 a3 i = ∑ j : Fin 8192, nearestInB a2 a3 j := by
  rw [val_main_v24_apply, val_main_cst_10_apply, Ideal.ofBits_def, Ideal.ofBits_zero_f32, zero_add, sum_row]
  exact Finset.sum_congr rfl fun b _ => v23_apply a2 a3 (ix2 (0 : Fin 1) b)

theorem v27_apply (a2 a3 : PtsV) (i : S_.Idx) :
    val_main_v27 (F := Ideal) a2 a3 i = ∑ k : Fin 8192, nearestInA a2 a3 k := by
  rw [val_main_v27_apply, val_main_cst_13_apply, Ideal.ofBits_def, Ideal.ofBits_zero_f32, zero_add, sum_row]
  exact Finset.sum_congr rfl fun b _ => v26_apply a2 a3 (ix2 (0 : Fin 1) b)

theorem v29_apply (a2 a3 : PtsV) (i : S_.Idx) : val_main_v29 (F := Ideal) a2 a3 i = chamfer a2 a3 := by
  rw [val_main_v29_apply, val_main_v25_apply, v24_apply, val_main_cst_11_apply, val_main_v28_apply, v27_apply,
    val_main_cst_14_apply]
  simp only [Ideal.hostDivf_def, Ideal.addf_def, Ideal.ofBits_def]
  rfl

/-! ## The loss -/

/-- The reference's result, stage by stage, is the specified loss at its one index. -/
theorem ref_loss_val (a0 a1 : ImgV) (a2 a3 : PtsV) :
    val_main_v32 (F := Ideal) a0 a1 a2 a3 = fun _ => loss a0 a1 a2 a3 := by
  funext i
  rw [val_main_v32_apply, val_main_v30_apply, val_main_cst_15_apply, v15_apply, val_main_v31_apply, val_main_cst_16_apply,
    v29_apply]
  simp only [Ideal.addf_def, Ideal.mulf_def, Ideal.ofBits_def]
  rfl

/-- The term the reference's run leaves in its result, as a function of the four arguments, is the specified loss. -/
theorem ref_loss (a0 a1 : (⟨S4x1x1024x1024, .f32⟩ : BufTy).Contents (Elt Ideal)) (a2 a3 : (⟨S1x8192x2, .f32⟩ : BufTy).Contents (Elt Ideal)) :
    (addf (mulf (constant S_ .f32 0x3F000000#32) (subf (constant S_ .f32 0x3F800000#32) (Host.divf (addf (mulf (constant S_ .f32 0x40000000#32) (Host.reduceAdd (mulf (Host.divf (broadcastInDim S4x1x1024x1024 ![] bcast_S_S4x1x1024x1024 (constant S_ .f32 0x3F800000#32)) (addf (broadcastInDim S4x1x1024x1024 ![] bcast_S_S4x1x1024x1024 (constant S_ .f32 0x3F800000#32)) (Host.exp (Host.negf a0)))) a1) (constant S_ .f32 0x00000000#32) reducesTo_S4x1x1024x1024_S_d0_1_2_3 h_S_)) (constant S_ .f32 0x358637BD#32)) (addf (addf (Host.reduceAdd (Host.divf (broadcastInDim S4x1x1024x1024 ![] bcast_S_S4x1x1024x1024 (constant S_ .f32 0x3F800000#32)) (addf (broadcastInDim S4x1x1024x1024 ![] bcast_S_S4x1x1024x1024 (constant S_ .f32 0x3F800000#32)) (Host.exp (Host.negf a0)))) (constant S_ .f32 0x00000000#32) reducesTo_S4x1x1024x1024_S_d0_1_2_3 h_S_) (Host.reduceAdd a1 (constant S_ .f32 0x00000000#32) reducesTo_S4x1x1024x1024_S_d0_1_2_3 h_S_)) (constant S_ .f32 0x358637BD#32))))) (mulf (constant S_ .f32 0x3F000000#32) (addf (Host.divf (Host.reduceAdd (Host.reduce FloatOps.minimumf (Host.reduceAdd (mulf (subf (broadcastInDim S1x8192x8192x2 ![0, 1, 2, 3] bcast_S1x8192x1x2_S1x8192x8192x2_0_1_2_3 (broadcastInDim S1x8192x1x2 ![0, 1, 3] bcast_S1x8192x2_S1x8192x1x2_0_1_3 a2)) (broadcastInDim S1x8192x8192x2 ![0, 1, 2, 3] bcast_S1x1x8192x2_S1x8192x8192x2_0_1_2_3 (broadcastInDim S1x1x8192x2 ![0, 2, 3] bcast_S1x8192x2_S1x1x8192x2_0_2_3 a3))) (subf (broadcastInDim S1x8192x8192x2 ![0, 1, 2, 3] bcast_S1x8192x1x2_S1x8192x8192x2_0_1_2_3 (broadcastInDim S1x8192x1x2 ![0, 1, 3] bcast_S1x8192x2_S1x8192x1x2_0_1_3 a2)) (broadcastInDim S1x8192x8192x2 ![0, 1, 2, 3] bcast_S1x1x8192x2_S1x8192x8192x2_0_1_2_3 (broadcastInDim S1x1x8192x2 ![0, 2, 3] bcast_S1x8192x2_S1x1x8192x2_0_2_3 a3)))) (constant S_ .f32 0x00000000#32) reducesTo_S1x8192x8192x2_S1x8192x8192_d3 h_S_) (constant S_ .f32 0x7F800000#32) reducesTo_S1x8192x8192_S1x8192_d2 h_S_) (constant S_ .f32 0x00000000#32) reducesTo_S1x8192_S_d0_1 h_S_) (constant S_ .f32 0x46000000#32)) (Host.divf (Host.reduceAdd (Host.reduce FloatOps.minimumf (Host.reduceAdd (mulf (subf (broadcastInDim S1x8192x8192x2 ![0, 1, 2, 3] bcast_S1x8192x1x2_S1x8192x8192x2_0_1_2_3 (broadcastInDim S1x8192x1x2 ![0, 1, 3] bcast_S1x8192x2_S1x8192x1x2_0_1_3 a2)) (broadcastInDim S1x8192x8192x2 ![0, 1, 2, 3] bcast_S1x1x8192x2_S1x8192x8192x2_0_1_2_3 (broadcastInDim S1x1x8192x2 ![0, 2, 3] bcast_S1x8192x2_S1x1x8192x2_0_2_3 a3))) (subf (broadcastInDim S1x8192x8192x2 ![0, 1, 2, 3] bcast_S1x8192x1x2_S1x8192x8192x2_0_1_2_3 (broadcastInDim S1x8192x1x2 ![0, 1, 3] bcast_S1x8192x2_S1x8192x1x2_0_1_3 a2)) (broadcastInDim S1x8192x8192x2 ![0, 1, 2, 3] bcast_S1x1x8192x2_S1x8192x8192x2_0_1_2_3 (broadcastInDim S1x1x8192x2 ![0, 2, 3] bcast_S1x8192x2_S1x1x8192x2_0_2_3 a3)))) (constant S_ .f32 0x00000000#32) reducesTo_S1x8192x8192x2_S1x8192x8192_d3 h_S_) (constant S_ .f32 0x7F800000#32) reducesTo_S1x8192x8192_S1x8192_d1 h_S_) (constant S_ .f32 0x00000000#32) reducesTo_S1x8192_S_d0_1 h_S_) (constant S_ .f32 0x46000000#32)))) : FVec Ideal S_ .f32)
      = fun _ => Cert.Loss.loss a0 a1 a2 a3 :=
  (val_main_v32_eq (F := Ideal) a0 a1 a2 a3).trans (ref_loss_val a0 a1 a2 a3)

end Cert.RefLoss

end
-- ==== Proof.Dice.Value.lean ====
/-
  The Dice region: the accumulator's contents read back as values.

  Each case's stores, found by running the body, are read back here. At a middle or the last point the one covering
  store of the accumulator holds the slice's three sums added to what the point before left; at the first point the
  body first stores zeros, reads them back, and adds the slice's sums to them; at the last point the output block
  takes a copy of the accumulator just stored. So after point `n` the accumulator holds the running total of the
  slices `0 … n`, and the output block, stored at the last point, holds the total of all four.
-/
import proofs.«133641_j60370060312890_2_alg».proof.Proof.Dice.Region
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem off2 : (![0, 0] : Fin 2 → Nat) = fun _ => 0 := funext fun a => by fin_cases a <;> rfl
theorem off4 : (![0, 0, 0, 0] : Fin 4 → Nat) = fun _ => 0 := funext fun a => by fin_cases a <;> rfl

/-- A middle point leaves the slice's sums added to what it found. -/
theorem accMid_eq (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : ¬isLast i) (x0 x1 : Vec F S1x1x1024x1024 .f32) (xs0 : Vec F S1x3 .f32) :
    accMid c i arg1 harg1 arg2 harg2 arg3 harg3 arg4 harg4 hf hl x0 x1 xs0 = k0_pay2 x0 x1 xs0 := by
  unfold accMid
  rw [View.read_writes_eq_canon _ _ _ (coverMid c i arg1 harg1 arg2 harg2 arg3 harg3 arg4 harg4 hf hl x0 x1 xs0)]
  unfold runMid
  dsimp only
  rw [View.canon_unit_zero off2]
  simp only [View.readAt_eq_ld, harg1.read_unread, harg2.read_unread, harg3.read_unread, harg4.read_unread,
    View.ld_unit_zero (S := S1x1x1024x1024) off4, View.ld_unit_zero (S := S1x3) off2]

/-- The last point leaves the same in the accumulator, -/
theorem accLast_eq (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i) (x0 x1 : Vec F S1x1x1024x1024 .f32) (xs0 : Vec F S1x3 .f32) :
    accLast c i arg1 harg1 arg2 harg2 arg3 harg3 arg4 harg4 hf hl x0 x1 xs0 = k0_pay2 x0 x1 xs0 := by
  unfold accLast
  rw [View.read_writes_eq_canon _ _ _ (coverLastAcc c i arg1 harg1 arg2 harg2 arg3 harg3 arg4 harg4 hf hl x0 x1 xs0)]
  unfold runLast
  dsimp only
  sl_unfold_words
  rw [View.canon_unit_zero off2]
  simp only [View.readAt_eq_ld, harg1.read_unread, harg2.read_unread, harg4.read_unread,
    View.ld_unit_zero (S := S1x1x1024x1024) off4, View.ld_unit_zero (S := S1x3) off2]

/-- and a copy of it in the output block. -/
theorem outLast_eq (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : ¬isFirst i) (hl : isLast i) (x0 x1 : Vec F S1x1x1024x1024 .f32) (xs0 : Vec F S1x3 .f32) :
    outLast c i arg1 harg1 arg2 harg2 arg3 harg3 arg4 harg4 hf hl x0 x1 xs0 = k0_pay2 x0 x1 xs0 := by
  unfold outLast
  rw [View.read_writes_eq_canon _ _ _ (coverLastOut c i arg1 harg1 arg2 harg2 arg3 harg3 arg4 harg4 hf hl x0 x1 xs0)]
  unfold runLast
  dsimp only
  sl_unfold_words
  rw [View.canon_unit_zero off2]
  simp only [View.readAt_eq_ld, harg1.read_unread, harg2.read_unread, harg4.read_unread,
    View.ld_unit_zero (S := S1x1x1024x1024) off4, View.ld_unit_zero (S := S1x3) off2]
  exact View.readCov_unit_zero (S := S1x3) _ off2 _ _

/-- The first point leaves the slice's sums added to the zeros it has just stored. -/
theorem accFirst_eq (c : Dev nD) (i : grid0.Coords) (arg1 : Memref sig .tc .vmem S1x1x1024x1024 .f32) (harg1 : arg1.IsWhole) (arg2 : Memref sig .tc .vmem S1x1x1024x1024 .f32) (harg2 : arg2.IsWhole) (arg3 : Memref sig .tc .vmem S1x3 .f32) (harg3 : arg3.IsWhole) (arg4 : Memref sig .tc .vmem S1x3 .f32) (harg4 : arg4.IsWhole) (hf : isFirst i) (hl : ¬isLast i) (x0 x1 : Vec F S1x1x1024x1024 .f32) :
    accFirst c i arg1 harg1 arg2 harg2 arg3 harg3 arg4 harg4 hf hl x0 x1 = k0_pay2 x0 x1 (k0_pay1 (F := F)) := by
  unfold accFirst
  rw [View.read_writes_eq_canon _ _ _ (coverFirst c i arg1 harg1 arg2 harg2 arg3 harg3 arg4 harg4 hf hl x0 x1)]
  unfold runFirst
  dsimp only
  sl_unfold_words
  rw [View.canon_cons_unit_zero (S := S1x3) off2, View.readCov_unit_zero (S := S1x3) _ off2]
  simp only [View.readAt_eq_ld, harg1.read_unread, harg2.read_unread, harg3.read_unread,
    View.ld_unit_zero (S := S1x1x1024x1024) off4, View.ld_unit_zero (S := S1x3) off2]

variable (V : (c : Dev nD) → (b : Ref sig .tc) → Buf (Elt F) ((c : Thread nD τ).loc b))

/-! ## The running total -/

/-- The total after point `n`: the zeros, with the sums of the slices `0 … n` added one slice at a time. -/
def total (c : Dev nD) : (n : ℕ) → n < cfg0.N → Vec F S1x3 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (total c n (Nat.lt_of_succ_lt h))

theorem notFirst_succ {n : ℕ} (h : n + 1 < cfg0.N) : ¬isFirst (grid0.coords (⟨n + 1, h⟩ : Fin cfg0.N)) := fun hh => by
  have := (isFirst_iff ⟨n + 1, h⟩).mp hh; have := lt_four h; dsimp only at *; omega

/-- After every point the accumulator holds the running total — by induction on the point. -/
theorem held_acc (c : Dev nD) : ∀ (n : ℕ) (h : n < cfg0.N), (heldAt V c n h).2 = total V c n h
  | 0, h =>
    (heldAt_first V c ⟨0, h⟩ rfl ((isFirst_iff ⟨0, h⟩).mpr (Nat.zero_mod _))
      (fun hh => absurd ((isLast_iff ⟨0, h⟩).mp hh) (show ¬ (0 % 4 = 3) by decide))).trans (accFirst_eq ..)
  | n + 1, h => by
    by_cases h3 : (n + 1) % 4 = 3
    · have e := heldAt_last V c ⟨n + 1, h⟩ (Nat.succ_ne_zero n) h3 (notFirst_succ h) ((isLast_iff ⟨n + 1, h⟩).mpr h3)
      rw [show (heldAt V c (n + 1) h).2 = _ from congrArg Prod.snd e, accLast_eq]
      show k0_pay2 _ _ (heldAt V c n _).2 = k0_pay2 _ _ (total V c n _)
      rw [held_acc c n]
    · have e := heldAt_mid V c ⟨n + 1, h⟩ (Nat.succ_ne_zero n) h3 (notFirst_succ h) (fun hh => h3 ((isLast_iff ⟨n + 1, h⟩).mp hh))
      rw [show (heldAt V c (n + 1) h).2 = _ from e, accMid_eq]
      show k0_pay2 _ _ (heldAt V c n _).2 = k0_pay2 _ _ (total V c n _)
      rw [held_acc c n]

theorem three_lt : 3 < cfg0.N := by rw [show cfg0.N = 4 from N_0]; decide

/-- The statistics: the total after the last point, as contents of the result array (its one block is the array). -/
abbrev stats (c : Dev nD) : Buf (Elt F) ((c : Thread nD τ).loc main_v0) := total V c 3 three_lt

/-- At the last point the output block takes the total of all four slices. -/
theorem held_out_last (c : Dev nD) : (heldAt V c 3 three_lt).1 = total V c 3 three_lt := by
  have e := heldAt_last V c ⟨3, three_lt⟩ (by decide) (by decide) (notFirst_succ three_lt) ((isLast_iff ⟨3, three_lt⟩).mpr (by decide))
  rw [show (heldAt V c 3 three_lt).1 = _ from congrArg Prod.fst e, outLast_eq]
  show k0_pay2 _ _ (heldAt V c 2 _).2 = k0_pay2 _ _ (total V c 2 _)
  rw [held_acc V c 2]

/-- The one write-back, at point 3, writes the statistics: block (0, 0) of the 1×3 array read through zero offsets is
    the array. -/
theorem flushed_stats (c : Dev nD) (t : Fin cfg0.N) (hf : (cfg0.win 2).flush t = true) :
    (dat0 V c).flushed 2 t = ((cfg0.win 2).blk t).view.read (Elt F) (stats V c) := by
  have hN : cfg0.N = 4 := N_0
  have h3 : t.val = 3 := by have := (flush0_2 t).mp hf; have := t.isLt; omega
  obtain rfl : t = ⟨3, three_lt⟩ := Fin.ext h3
  show (cfg0.win 2).cut (grid0.coords ⟨3, three_lt⟩) ((dat0 V c).after 2 ⟨3, three_lt⟩) = _
  rw [after0_2]
  show (cfg0.win 2).cut (grid0.coords ⟨3, three_lt⟩) (heldAt V c 3 three_lt).1 = _
  rw [held_out_last]
  have hz' : (fun a => win0_2.index ⟨3, three_lt⟩ a * main_v0.ty.shape.size a) = fun _ => 0 := funext fun a => by fin_cases a <;> decide
  exact (Memref.read_access_unit_zero (Elt F) main_v0 hz' (fun a => by rw [congrFun hz' a]; simp) (stats V c)).symm

/-- So the result array ends holding the statistics: point 3's block covers it. -/
theorem final_stats (c : Dev nD) : (dat0 V c).arrAt 2 cfg0.N = stats V c :=
  (dat0 V c).arrAt_eq_of_cover 2 (stats V c) (flushed_stats V c) fun i =>
    ⟨⟨3, three_lt⟩, (flush0_2 ⟨3, three_lt⟩).mpr rfl, by
      show i ∈ ((View.whole main_v0).slice (win0_2.rect ⟨3, three_lt⟩)).set
      rw [View.set_slice_whole, Rect.mem_set_unit]
      intro a
      have h0 : (i 0 : Nat) < 1 := (i 0).isLt
      have h1 : (i 1 : Nat) < 3 := (i 1).isLt
      match a with
      | ⟨0, _⟩ => show win0_2.index ⟨3, three_lt⟩ 0 * win0_2.size 0 ≤ (i 0 : Nat) ∧ (i 0 : Nat) < win0_2.index ⟨3, three_lt⟩ 0 * win0_2.size 0 + win0_2.xsize (grid0.coords ⟨3, three_lt⟩) 0
                  rw [show win0_2.index ⟨3, three_lt⟩ 0 * win0_2.size 0 = 0 from by decide +kernel, show win0_2.xsize (grid0.coords ⟨3, three_lt⟩) 0 = 1 from by decide +kernel]; omega
      | ⟨1, _⟩ => show win0_2.index ⟨3, three_lt⟩ 1 * win0_2.size 1 ≤ (i 1 : Nat) ∧ (i 1 : Nat) < win0_2.index ⟨3, three_lt⟩ 1 * win0_2.size 1 + win0_2.xsize (grid0.coords ⟨3, three_lt⟩) 1
                  rw [show win0_2.index ⟨3, three_lt⟩ 1 * win0_2.size 1 = 0 from by decide +kernel, show win0_2.xsize (grid0.coords ⟨3, three_lt⟩) 1 = 3 from by decide +kernel]; omega⟩

end Cert.KernelIdeal.Hand

end
-- ==== Proof.KernelArith.lean ====
/-
  The arithmetic of the three kernels' stored values, read at one index, at the ideal values (floats are extended
  reals, every operation exact), and the algebra that relates the kernels' arrangement of the sums and minima to the
  specification's.

  * The Dice kernel's accumulator update adds, to the three running sums, the total over one image slice of
    \`σ(p)·t\`, of \`σ(p)\` and of \`t\`; its initial value is zero.
  * The Chamfer kernel's tile value at query \`p\` is the minimum, over all key points \`k\`, of the squared
    planar distance between query \`p\` and key \`k\`.
  * A sum over a batch of four slices is the sum of the four slice totals; a squared difference does not see the order
    of its operands; four accumulations from zero are the four-term sum.
-/
import proofs.«133641_j60370060312890_2_alg».proof.Proof.Gen.KernelIdeal.Skeleton
import proofs.«133641_j60370060312890_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelArith

open Idealize.ShloMosaic Idealize.ShloMosaic.ValueIdx Cert.KernelIdeal Cert.KernelIdeal.Gen

/-! ## Words -/

/-- The word \`0x7F800000\` is \`+∞\`, the top of the extended reals. -/
theorem ofBits_posInf_f32 : Ideal.ofBits .f32 0x7F800000#32 = (⊤ : EReal) := by
  simp [Ideal.ofBits, Ideal.ieee]

/-! ## A minimum over one axis -/

/-- A \`minimumf\` reduction over one axis, at the ideal values: the fold of \`min\` from the accumulator's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The row \`p\` of a \`128 × 8192\` array with column \`k\` inserted is the index \`(p, k)\`. -/
theorem lift_row (h : S128x8192.Reduces [1] S128) (p : Fin 128) (k : Fin 8192) :
    h.lift (ix1 p) k = ix2 p k := by
  funext c
  match c with
  | ⟨0, _⟩ => exact Fin.ext rfl
  | ⟨1, _⟩ => exact Fin.ext rfl

/-- The squared planar distance between query \`p\` and key \`k\`, as the Chamfer kernel computes it. -/
def sq (qx qy : Vec Ideal S128x1 .f32) (kx ky : Vec Ideal S1x8192 .f32) (p : Fin 128) (k : Fin 8192) : EReal :=
  (qx (ix2 p 0) - kx (ix2 0 k)) * (qx (ix2 p 0) - kx (ix2 0 k))
    + (qy (ix2 p 0) - ky (ix2 0 k)) * (qy (ix2 p 0) - ky (ix2 0 k))

/-- A \`[128, 1]\` column broadcast to \`[128, 8192]\` reads, at \`(p, k)\`, the column's entry \`p\`. -/
theorem broadcastTo_col_apply {α : Type} (v : S128x1.Idx → α) (h : S128x1.Broadcasts S128x8192) (p : Fin 128) (k : Fin 8192) :
    broadcastTo S128x8192 v h (ix2 p k) = v (ix2 p 0) := by
  refine broadcastTo_apply v h (ix2 p k) (ix2 p 0) fun ax => ?_
  match ax with
  | ⟨0, _⟩ => rfl
  | ⟨1, _⟩ => rfl

/-- The minimum over the columns of a \`128 × 8192\` array, from \`+∞\`, at row \`p\`: the infimum of the row. -/
theorem rowMin_apply (src : FVec Ideal S128x8192 .f32) (h : S128x8192.Reduces [1] S128) (hφ : FKind.Formats .f32)
    (hacc : (0x7F800000#32 : BitVec 32) = FKind.minimumf.neutral .f32 hφ) (p : Fin 128) :
    multiReduction .minimumf [1] S128 src 0x7F800000#32 h hφ hacc (ix1 p)
      = Finset.univ.inf fun k : Fin 8192 => src (ix2 p k) := by
  refine (multiReduction_minimumf_single src _ h hφ hacc (ix1 p)).trans ?_
  show (Finset.univ : Finset (Fin 8192)).fold min (Ideal.ofBits .f32 0x7F800000#32) _ = _
  rw [ofBits_posInf_f32]
  exact Finset.fold_congr fun k _ => congrArg src (lift_row h p k)

/-- The Chamfer kernel's stored value at query \`p\`: the least squared distance to a key. -/
theorem k1_pay1_apply (qx qy : Vec Ideal S128x1 .f32) (kx ky : Vec Ideal S1x8192 .f32) (p : Fin 128) :
    k1_pay1 (F := Ideal) qx qy kx ky (ix2 p 0) = Finset.univ.inf fun k : Fin 8192 => sq qx qy kx ky p k := by
  unfold k1_pay1
  refine (shapeCast_apply _ shapeCasts_S128_S128x1 (ix2 p 0) (ix1 p) ?_).trans ?_
  · rw [Shape.rowMajor_val_one, Shape.rowMajor_val_two]
    show p.val = p.val * 1 + 0
    omega
  refine (rowMin_apply _ reduces_S128x8192_S128 _ _ p).trans ?_
  refine Finset.inf_congr rfl fun k _ => ?_
  simp only [shapeCast_self, addf_apply, mulf_apply, subf_apply, broadcastTo_col_apply, broadcastTo_1b_ab_apply]
  rfl

/-- The second Chamfer call's stored value: the same function of its operands. -/
theorem k2_pay1_apply (qx qy : Vec Ideal S128x1 .f32) (kx ky : Vec Ideal S1x8192 .f32) (p : Fin 128) :
    k2_pay1 (F := Ideal) qx qy kx ky (ix2 p 0) = Finset.univ.inf fun k : Fin 8192 => sq qx qy kx ky p k :=
  k1_pay1_apply qx qy kx ky p

/-! ## Three unit pieces side by side -/

section Concat
variable {α : Type}

/-- Three \`1 × 1\` pieces laid side by side along the columns read, at column 0, the first piece. -/
theorem concat3_apply_0 (x0 x1 x2 : S1x1.Idx → α)
    (h : Shape.Concatenates ([(⟨S1x1, x0⟩ : (s : Shape) × (s.Idx → α)), ⟨S1x1, x1⟩, ⟨S1x1, x2⟩].map (·.1)) S1x3 1) :
    concatenate S1x3 1 [⟨S1x1, x0⟩, ⟨S1x1, x1⟩, ⟨S1x1, x2⟩] h (ix2 0 0) = x0 (ix2 0 0) :=
  concatenate_apply_piece 1 _ h (ix2 0 0) 0 (by simp) S1x1 x0 rfl rfl 0 rfl (ix2 0 0)
    (fun b hb => match b with | ⟨0, _⟩ => rfl | ⟨1, _⟩ => absurd rfl hb) rfl

/-- … at column 1, the second piece. -/
theorem concat3_apply_1 (x0 x1 x2 : S1x1.Idx → α)
    (h : Shape.Concatenates ([(⟨S1x1, x0⟩ : (s : Shape) × (s.Idx → α)), ⟨S1x1, x1⟩, ⟨S1x1, x2⟩].map (·.1)) S1x3 1) :
    concatenate S1x3 1 [⟨S1x1, x0⟩, ⟨S1x1, x1⟩, ⟨S1x1, x2⟩] h (ix2 0 1) = x1 (ix2 0 0) :=
  concatenate_apply_piece 1 _ h (ix2 0 1) 1 (by simp) S1x1 x1 rfl rfl 1 rfl (ix2 0 0)
    (fun b hb => match b with | ⟨0, _⟩ => rfl | ⟨1, _⟩ => absurd rfl hb) rfl

/-- … at column 2, the third piece. -/
theorem concat3_apply_2 (x0 x1 x2 : S1x1.Idx → α)
    (h : Shape.Concatenates ([(⟨S1x1, x0⟩ : (s : Shape) × (s.Idx → α)), ⟨S1x1, x1⟩, ⟨S1x1, x2⟩].map (·.1)) S1x3 1) :
    concatenate S1x3 1 [⟨S1x1, x0⟩, ⟨S1x1, x1⟩, ⟨S1x1, x2⟩] h (ix2 0 2) = x2 (ix2 0 0) :=
  concatenate_apply_piece 1 _ h (ix2 0 2) 2 (by simp) S1x1 x2 rfl rfl 2 rfl (ix2 0 0)
    (fun b hb => match b with | ⟨0, _⟩ => rfl | ⟨1, _⟩ => absurd rfl hb) rfl

end Concat

/-! ## The Dice kernel's accumulator update -/

/-- The sum of a whole image slice into a \`1 × 1\` result, from the zero word: the total over the slice. -/
theorem sliceTotal_apply (src : FVec Ideal S1x1x1024x1024 .f32) (h : S1x1x1024x1024.Reduces [2, 3] S1x1)
    (hφ : FKind.Formats .f32) (hacc : (0x00000000#32 : BitVec 32) = FKind.add.neutral .f32 hφ) :
    multiReduction .add [2, 3] S1x1 src 0x00000000#32 h hφ hacc (ix2 0 0) = ∑ y : S1x1x1024x1024.Idx, src y :=
  Ideal.multiReduction_add_total src _ h (by decide) hφ hacc (ix2 0 0)

/-- Column 0 of the updated accumulator: the running overlap plus the slice's total of \`σ(p)·t\`. -/
theorem k0_pay2_apply_0 (x t : Vec Ideal S1x1x1024x1024 .f32) (acc : Vec Ideal S1x3 .f32) :
    k0_pay2 (F := Ideal) x t acc (ix2 0 0)
      = acc (ix2 0 0) + ∑ y : S1x1x1024x1024.Idx, Ideal.logistic (x y) * t y := by
  unfold k0_pay2
  simp only [shapeCast_self, addf_apply]
  refine congrArg (acc (ix2 0 0) + ·) ?_
  refine (concat3_apply_0 _ _ _ _).trans ?_
  exact sliceTotal_apply _ _ _ _

/-- Column 1: the running mask mass plus the slice's total of \`σ(p)\`. -/
theorem k0_pay2_apply_1 (x t : Vec Ideal S1x1x1024x1024 .f32) (acc : Vec Ideal S1x3 .f32) :
    k0_pay2 (F := Ideal) x t acc (ix2 0 1)
      = acc (ix2 0 1) + ∑ y : S1x1x1024x1024.Idx, Ideal.logistic (x y) := by
  unfold k0_pay2
  simp only [shapeCast_self, addf_apply]
  refine congrArg (acc (ix2 0 1) + ·) ?_
  refine (concat3_apply_1 _ _ _ _).trans ?_
  exact sliceTotal_apply _ _ _ _

/-- Column 2: the running target mass plus the slice's total of \`t\`. -/
theorem k0_pay2_apply_2 (x t : Vec Ideal S1x1x1024x1024 .f32) (acc : Vec Ideal S1x3 .f32) :
    k0_pay2 (F := Ideal) x t acc (ix2 0 2)
      = acc (ix2 0 2) + ∑ y : S1x1x1024x1024.Idx, t y := by
  unfold k0_pay2
  simp only [shapeCast_self, addf_apply]
  refine congrArg (acc (ix2 0 2) + ·) ?_
  refine (concat3_apply_2 _ _ _ _).trans ?_
  exact sliceTotal_apply _ _ _ _

/-- The accumulator's initial value: zero in every column. -/
theorem k0_pay1_eq : k0_pay1 (F := Ideal) = fun _ => (0 : EReal) := by
  unfold k0_pay1
  funext i
  simp only [shapeCast_self, broadcast_apply]
  exact Ideal.ofBits_zero_f32

/-! ## Algebra between the two arrangements (no program in sight) -/

section Algebra

/-- The image index set is the batch coordinate times the index set of one slice. -/
def imgEquiv : Cert.Loss.Img.Idx ≃ Fin 4 × S1x1x1024x1024.Idx where
  toFun i := (i 0, ix4 0 0 (i 2) (i 3))
  invFun p := ix4 p.1 0 (p.2 2) (p.2 3)
  left_inv i := by
    funext a
    match a with
    | ⟨0, _⟩ => rfl
    | ⟨1, _⟩ => exact Subsingleton.elim (α := Fin 1) _ _
    | ⟨2, _⟩ => rfl
    | ⟨3, _⟩ => rfl
  right_inv p := by
    refine Prod.ext rfl ?_
    funext a
    match a with
    | ⟨0, _⟩ => exact Subsingleton.elim (α := Fin 1) _ _
    | ⟨1, _⟩ => exact Subsingleton.elim (α := Fin 1) _ _
    | ⟨2, _⟩ => rfl
    | ⟨3, _⟩ => rfl

/-- A sum over every entry of a batch of four slices is the sum, over the batch, of each slice's total. -/
theorem sum_img {M : Type*} [AddCommMonoid M] (f : Cert.Loss.Img.Idx → M) :
    ∑ i : Cert.Loss.Img.Idx, f i = ∑ b : Fin 4, ∑ y : S1x1x1024x1024.Idx, f (ix4 b 0 (y 2) (y 3)) := by
  rw [← Equiv.sum_comp imgEquiv.symm f, Fintype.sum_prod_type]
  rfl

/-- A squared difference of two reals does not see the order of its operands. -/
theorem sq_sub_comm (a b : ℝ) : ((a : EReal) - b) * ((a : EReal) - b) = ((b : EReal) - a) * ((b : EReal) - a) := by
  rw [← EReal.coe_sub, ← EReal.coe_sub, ← EReal.coe_mul, ← EReal.coe_mul]
  exact congrArg _ (by ring)

/-- For point sets with real coordinates, the squared distance computed from \`B\`'s point to \`A\`'s is the
    specification's squared distance from \`A\`'s point to \`B\`'s. -/
theorem sqDist_swap (A B : Cert.Loss.Pts.Idx → EReal) (hA : ∀ i, ∃ r : ℝ, A i = r) (hB : ∀ i, ∃ r : ℝ, B i = r)
    (j k : Fin 8192) :
    (B (ix3 0 k 0) - A (ix3 0 j 0)) * (B (ix3 0 k 0) - A (ix3 0 j 0))
        + (B (ix3 0 k 1) - A (ix3 0 j 1)) * (B (ix3 0 k 1) - A (ix3 0 j 1))
      = Cert.Loss.sqDist A B j k := by
  obtain ⟨a0, ha0⟩ := hA (ix3 0 j 0)
  obtain ⟨a1, ha1⟩ := hA (ix3 0 j 1)
  obtain ⟨b0, hb0⟩ := hB (ix3 0 k 0)
  obtain ⟨b1, hb1⟩ := hB (ix3 0 k 1)
  unfold Cert.Loss.sqDist
  rw [ha0, ha1, hb0, hb1, sq_sub_comm b0 a0, sq_sub_comm b1 a1]

/-- Four accumulations from zero are the four-term sum. -/
theorem accum_four (c : Fin 4 → EReal) : ((((0 + c 0) + c 1) + c 2) + c 3) = ∑ b : Fin 4, c b := by
  rw [Fin.sum_univ_four, zero_add]

end Algebra

end Cert.KernelArith

end
-- ==== Proof.Dice.Stats.lean ====
/-
  The Dice statistics as sums over the whole images.

  At the extended reals, the statistics array the first launch leaves holds, in its three entries, the sum over every
  entry of both images of `σ(p)·t`, of `σ(p)`, and of `t`. Each slice's step adds that slice's three sums to the running
  total, which starts at zero; a slice's block at `(0, 0, h, w)` is the image at `(b, 0, h, w)`; and the sum over the
  image is the sum over the four slices of the sums over a slice (addition on the extended reals is commutative and
  associative, so no finiteness is needed).
-/
import proofs.«133641_j60370060312890_2_alg».proof.Proof.Dice.Value
import proofs.«133641_j60370060312890_2_alg».proof.Proof.KernelArith
import proofs.«133641_j60370060312890_2_alg».proof.Proof.Spec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelArith

variable (V : (c : Dev nD) → (b : Ref sig .tc) → Buf (Elt Ideal) ((c : Thread nD τ).loc b))

/-- The image windows' index maps: block `t` starts at slice `t`, at the origin of the other axes. -/
theorem imgIndex0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem imgIndex1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- A logits block read at `(0, 0, h, w)` is the logits array at `(t, 0, h, w)`. -/
theorem img_block0 (c : Dev nD) (t : Fin cfg0.N) (y : S1x1x1024x1024.Idx) :
    (iblk0 V c 0 t : Vec Ideal S1x1x1024x1024 .f32) y
      = (V c main_arg0 : S4x1x1024x1024.Idx → EReal) (ix4 (⟨t.val, lt_four t.isLt⟩ : Fin 4) (0 : Fin 1) (y 2) (y 3)) := by
  unfold iblk0
  rw [View.read_apply]
  show (V c main_arg0 : S4x1x1024x1024.Idx → EReal) _ = (V c main_arg0 : S4x1x1024x1024.Idx → EReal) _
  congr 1
  funext a
  apply Fin.ext
  have hi := imgIndex0 t
  have y0 : (y 0 : Nat) < 1 := (y 0).isLt
  have y1 : (y 1 : Nat) < 1 := (y 1).isLt
  match a with
  | ⟨0, _⟩ => show win0_0.index t 0 * 1 + 1 * (y 0).val = t.val; rw [hi.1]; omega
  | ⟨1, _⟩ => show win0_0.index t 1 * 1 + 1 * (y 1).val = 0; rw [hi.2.1]; omega
  | ⟨2, _⟩ => show win0_0.index t 2 * 1024 + 1 * (y 2).val = (y 2).val; rw [hi.2.2.1]; omega
  | ⟨3, _⟩ => show win0_0.index t 3 * 1024 + 1 * (y 3).val = (y 3).val; rw [hi.2.2.2]; omega

/-- A target block likewise. -/
theorem img_block1 (c : Dev nD) (t : Fin cfg0.N) (y : S1x1x1024x1024.Idx) :
    (iblk0 V c 1 t : Vec Ideal S1x1x1024x1024 .f32) y
      = (V c main_arg1 : S4x1x1024x1024.Idx → EReal) (ix4 (⟨t.val, lt_four t.isLt⟩ : Fin 4) (0 : Fin 1) (y 2) (y 3)) := by
  unfold iblk0
  rw [View.read_apply]
  show (V c main_arg1 : S4x1x1024x1024.Idx → EReal) _ = (V c main_arg1 : S4x1x1024x1024.Idx → EReal) _
  congr 1
  funext a
  apply Fin.ext
  have hi := imgIndex1 t
  have y0 : (y 0 : Nat) < 1 := (y 0).isLt
  have y1 : (y 1 : Nat) < 1 := (y 1).isLt
  match a with
  | ⟨0, _⟩ => show win0_1.index t 0 * 1 + 1 * (y 0).val = t.val; rw [hi.1]; omega
  | ⟨1, _⟩ => show win0_1.index t 1 * 1 + 1 * (y 1).val = 0; rw [hi.2.1]; omega
  | ⟨2, _⟩ => show win0_1.index t 2 * 1024 + 1 * (y 2).val = (y 2).val; rw [hi.2.2.1]; omega
  | ⟨3, _⟩ => show win0_1.index t 3 * 1024 + 1 * (y 3).val = (y 3).val; rw [hi.2.2.2]; omega

/-- Entry 0 of the statistics: the sum of `σ(p)·t` over both images. -/
theorem stats_overlap (c : Dev nD) :
    (stats V c : S1x3.Idx → EReal) (ix2 0 0) = Cert.Loss.overlap (V c main_arg0) (V c main_arg1) := by
  show total V c 3 three_lt (ix2 0 0) = _
  simp only [total]
  rw [k0_pay2_apply_0, k0_pay2_apply_0, k0_pay2_apply_0, k0_pay2_apply_0, k0_pay1_eq]
  simp only [img_block0, img_block1]
  unfold Cert.Loss.overlap
  rw [sum_img, Fin.sum_univ_four]
  simp only [zero_add]
  rfl

/-- Entry 1: the sum of `σ(p)`. -/
theorem stats_mask (c : Dev nD) :
    (stats V c : S1x3.Idx → EReal) (ix2 0 1) = Cert.Loss.maskMass (V c main_arg0) := by
  show total V c 3 three_lt (ix2 0 1) = _
  simp only [total]
  rw [k0_pay2_apply_1, k0_pay2_apply_1, k0_pay2_apply_1, k0_pay2_apply_1, k0_pay1_eq]
  simp only [img_block0]
  unfold Cert.Loss.maskMass
  rw [sum_img, Fin.sum_univ_four]
  simp only [zero_add]
  rfl

/-- Entry 2: the sum of `t`. -/
theorem stats_target (c : Dev nD) :
    (stats V c : S1x3.Idx → EReal) (ix2 0 2) = Cert.Loss.targetMass (V c main_arg1) := by
  show total V c 3 three_lt (ix2 0 2) = _
  simp only [total]
  rw [k0_pay2_apply_2, k0_pay2_apply_2, k0_pay2_apply_2, k0_pay2_apply_2, k0_pay1_eq]
  simp only [img_block1]
  unfold Cert.Loss.targetMass
  rw [sum_img, Fin.sum_univ_four]
  simp only [zero_add]
  rfl

end Cert.KernelIdeal.Hand

end
-- ==== Proof.ChamferValue.lean ====
/-
  From a tile's block to the whole array, for the two nearest-point regions.

  At tile \`t\` the body leaves, in the 128-row output block, per row \`p\` the least squared distance from query point
  \`128·t + p\` to a key point: the two query blocks at the tile are rows \`128·t … 128·t + 127\` of the query
  coordinate arrays, and the two key blocks are the key coordinate rows whole. So what each tile writes back is its
  block of ONE function of the four arrays, and since the 64 tiles' blocks cover the 8192 rows the output array ends
  holding that function.
-/
import proofs.«133641_j60370060312890_2_alg».proof.Proof.ChamferRegions
import proofs.«133641_j60370060312890_2_alg».proof.Proof.KernelArith
import proofs.«133641_j60370060312890_2_alg».proof.Proof.Spec
import Idealize.ShloMosaic.Lib.Pipeline.Value

set_option maxRecDepth 16384

noncomputable section

namespace Cert.KernelIdeal.HandValue

open Cert.KernelIdeal Cert.KernelIdeal.Gen Cert.KernelIdeal.Hand Cert.KernelArith
open Idealize.ShloMosaic Idealize.ShloMosaic.TcCoe Idealize.ShloMosaic.ValueIdx Idealize.SL.Sem
open Idealize.ShloMosaic.Pipeline (Dat)

-- the buffer contents of the core when a region is entered, at the ideal values
variable (V : (c : Dev nD) → (b : Ref sig .tc) → Buf (Elt Ideal) ((c : Thread nD τ).loc b))

/-- The zero offsets of a whole-buffer access. -/
theorem zeroOffsets : (![0, 0] : Fin 2 → Nat) = fun _ => 0 := funext fun a => by fin_cases a <;> rfl

/-! ## The function the output array ends holding -/

/-- The least squared distance from query point \`j\` to a key point, over the four coordinate arrays. -/
def nearest (QX QY : S8192x1.Idx → EReal) (KX KY : S1x8192.Idx → EReal) (j : Fin 8192) : EReal :=
  Finset.univ.inf fun k : Fin 8192 =>
    (QX (ix2 j 0) - KX (ix2 0 k)) * (QX (ix2 j 0) - KX (ix2 0 k))
      + (QY (ix2 j 0) - KY (ix2 0 k)) * (QY (ix2 j 0) - KY (ix2 0 k))

/-- … as an array over the query points. -/
def nearestArr (QX QY : S8192x1.Idx → EReal) (KX KY : S1x8192.Idx → EReal) : S8192x1.Idx → EReal :=
  fun i => nearest QX QY KX KY (i 0)

/-- The payload over blocks that are rows \`128·t + p\` of the query arrays and the key rows whole. -/
theorem pay1_of_blocks (QX QY : S8192x1.Idx → EReal) (KX KY : S1x8192.Idx → EReal)
    (x0 x1 : Vec Ideal S128x1 .f32) (x2 x3 : Vec Ideal S1x8192 .f32) (t : Nat) (ht : t < 64)
    (h0 : ∀ p : Fin 128, x0 (ix2 p 0) = QX (ix2 ⟨128 * t + p.val, by omega⟩ 0))
    (h1 : ∀ p : Fin 128, x1 (ix2 p 0) = QY (ix2 ⟨128 * t + p.val, by omega⟩ 0))
    (h2 : ∀ k : Fin 8192, x2 (ix2 0 k) = KX (ix2 0 k)) (h3 : ∀ k : Fin 8192, x3 (ix2 0 k) = KY (ix2 0 k))
    (p : Fin 128) :
    k1_pay1 (F := Ideal) x0 x1 x2 x3 (ix2 p 0) = nearest QX QY KX KY ⟨128 * t + p.val, by omega⟩ := by
  rw [k1_pay1_apply]
  unfold nearest Cert.KernelArith.sq
  simp only [h0, h1, h2, h3]

/-- The same for the second region's payload. -/
theorem pay2_of_blocks (QX QY : S8192x1.Idx → EReal) (KX KY : S1x8192.Idx → EReal)
    (x0 x1 : Vec Ideal S128x1 .f32) (x2 x3 : Vec Ideal S1x8192 .f32) (t : Nat) (ht : t < 64)
    (h0 : ∀ p : Fin 128, x0 (ix2 p 0) = QX (ix2 ⟨128 * t + p.val, by omega⟩ 0))
    (h1 : ∀ p : Fin 128, x1 (ix2 p 0) = QY (ix2 ⟨128 * t + p.val, by omega⟩ 0))
    (h2 : ∀ k : Fin 8192, x2 (ix2 0 k) = KX (ix2 0 k)) (h3 : ∀ k : Fin 8192, x3 (ix2 0 k) = KY (ix2 0 k))
    (p : Fin 128) :
    k2_pay1 (F := Ideal) x0 x1 x2 x3 (ix2 p 0) = nearest QX QY KX KY ⟨128 * t + p.val, by omega⟩ :=
  pay1_of_blocks QX QY KX KY x0 x1 x2 x3 t ht h0 h1 h2 h3 p

/-! ## Region 1: queries are the predicted points, keys the target points -/

/-- A tile of region 1 is one of 64. -/
theorem tile1_lt (t : Fin cfg1.N) : t.val < 64 := by
  have h := t.isLt
  have h64 : cfg1.N = 64 := N_1
  omega

/-- The printed index maps over the grid: the query windows and the output window are at block \`t\` of the rows, the
    key windows at their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first query block at tile \`t\`, row \`p\`: row \`128·t + p\` of its array. -/
theorem iblk1_0_apply (c : Dev nD) (t : Fin cfg1.N) (p : Fin 128) :
    (iblk1 V c 0 t : Vec Ideal S128x1 .f32) (ix2 p 0)
      = (V c (Pipeline.arrRef spec1 0) : S8192x1.Idx → EReal) (ix2 ⟨128 * t.val + p.val, by have := tile1_lt t; omega⟩ 0) := by
  obtain ⟨e0, e1, -⟩ := idx_facts1 t
  unfold iblk1
  rw [View.read_apply]
  refine congrArg (V c (Pipeline.arrRef spec1 0) : S8192x1.Idx → EReal) (funext fun a => Fin.ext ?_)
  match a with
  | ⟨0, _⟩ => show win1_0.index t (0 : Fin 2) * 128 + 1 * p.val = 128 * t.val + p.val; omega
  | ⟨1, _⟩ => show win1_0.index t (1 : Fin 2) * 1 + 1 * 0 = 0; omega

/-- The second query block likewise. -/
theorem iblk1_1_apply (c : Dev nD) (t : Fin cfg1.N) (p : Fin 128) :
    (iblk1 V c 1 t : Vec Ideal S128x1 .f32) (ix2 p 0)
      = (V c (Pipeline.arrRef spec1 1) : S8192x1.Idx → EReal) (ix2 ⟨128 * t.val + p.val, by have := tile1_lt t; omega⟩ 0) := by
  obtain ⟨-, -, e0, e1, -⟩ := idx_facts1 t
  unfold iblk1
  rw [View.read_apply]
  refine congrArg (V c (Pipeline.arrRef spec1 1) : S8192x1.Idx → EReal) (funext fun a => Fin.ext ?_)
  match a with
  | ⟨0, _⟩ => show win1_1.index t (0 : Fin 2) * 128 + 1 * p.val = 128 * t.val + p.val; omega
  | ⟨1, _⟩ => show win1_1.index t (1 : Fin 2) * 1 + 1 * 0 = 0; omega

/-- The first key block at any tile is its array, whole. -/
theorem iblk1_2_apply (c : Dev nD) (t : Fin cfg1.N) (k : Fin 8192) :
    (iblk1 V c 2 t : Vec Ideal S1x8192 .f32) (ix2 0 k)
      = (V c (Pipeline.arrRef spec1 2) : S1x8192.Idx → EReal) (ix2 0 k) := by
  obtain ⟨-, -, -, -, e0, e1, -⟩ := idx_facts1 t
  unfold iblk1
  rw [View.read_apply]
  refine congrArg (V c (Pipeline.arrRef spec1 2) : S1x8192.Idx → EReal) (funext fun a => Fin.ext ?_)
  match a with
  | ⟨0, _⟩ => show win1_2.index t (0 : Fin 2) * 1 + 1 * 0 = 0; omega
  | ⟨1, _⟩ => show win1_2.index t (1 : Fin 2) * 8192 + 1 * k.val = k.val; omega

/-- The second key block likewise. -/
theorem iblk1_3_apply (c : Dev nD) (t : Fin cfg1.N) (k : Fin 8192) :
    (iblk1 V c 3 t : Vec Ideal S1x8192 .f32) (ix2 0 k)
      = (V c (Pipeline.arrRef spec1 3) : S1x8192.Idx → EReal) (ix2 0 k) := by
  obtain ⟨-, -, -, -, -, -, e0, e1, -⟩ := idx_facts1 t
  unfold iblk1
  rw [View.read_apply]
  refine congrArg (V c (Pipeline.arrRef spec1 3) : S1x8192.Idx → EReal) (funext fun a => Fin.ext ?_)
  match a with
  | ⟨0, _⟩ => show win1_3.index t (0 : Fin 2) * 1 + 1 * 0 = 0; omega
  | ⟨1, _⟩ => show win1_3.index t (1 : Fin 2) * 8192 + 1 * k.val = k.val; omega

section Region1
variable (c : Dev nD) (QX QY : S8192x1.Idx → EReal) (KX KY : S1x8192.Idx → EReal)
  (hQX : (V c (Pipeline.arrRef spec1 0) : S8192x1.Idx → EReal) = QX)
  (hQY : (V c (Pipeline.arrRef spec1 1) : S8192x1.Idx → EReal) = QY)
  (hKX : (V c (Pipeline.arrRef spec1 2) : S1x8192.Idx → EReal) = KX)
  (hKY : (V c (Pipeline.arrRef spec1 3) : S1x8192.Idx → EReal) = KY)

include hQX hQY hKX hKY in
/-- What tile \`t\` stores at a row of its block is the function at the row of the array under it. -/
theorem tile1_apply (t : Fin cfg1.N) (y : S128x1.Idx) :
    k1_pay1 (F := Ideal) (iblk1 V c 0 t) (iblk1 V c 1 t) (iblk1 V c 2 t) (iblk1 V c 3 t) y
      = nearestArr QX QY KX KY (((cfg1.win 4).blk t).view.emb y) := by
  obtain ⟨p, q, rfl⟩ : ∃ (p : Fin 128) (q : Fin 1), y = ix2 p q := ⟨y 0, y 1, eq_ix2 y⟩
  obtain rfl : q = 0 := Subsingleton.elim _ _
  obtain ⟨-, -, -, -, -, -, -, -, e8, e9⟩ := idx_facts1 t
  refine (pay1_of_blocks QX QY KX KY _ _ _ _ t.val (tile1_lt t)
    (fun p => by rw [iblk1_0_apply, hQX]) (fun p => by rw [iblk1_1_apply, hQY])
    (fun k => by rw [iblk1_2_apply, hKX]) (fun k => by rw [iblk1_3_apply, hKY]) p).trans ?_
  unfold nearestArr
  refine congrArg (nearest QX QY KX KY) (Fin.ext ?_)
  show 128 * t.val + p.val = win1_4.index t (0 : Fin 2) * 128 + 1 * p.val
  omega

include hQX hQY hKX hKY in
/-- What tile \`t\` writes back is block \`t\` of the function of the four arrays. -/
theorem flushed1_eq (t : Fin cfg1.N) :
    (dat1 V c).flushed 4 t = ((cfg1.win 4).blk t).view.read (Elt Ideal) (nearestArr QX QY KX KY) := by
  show (cfg1.win 4).cut (grid1.coords t) ((dat1 V c).after 4 t) = _
  rw [after1_4]
  unfold out1_4
  rw [View.canon_unit_zero zeroOffsets]
  simp only [View.ld_unit_zero (S := S128x1) zeroOffsets, View.ld_unit_zero (S := S1x8192) zeroOffsets]
  funext y
  exact tile1_apply V c QX QY KX KY hQX hQY hKX hKY t y

/-- A row of the output array is in tile \`t\`'s block iff each coordinate is in the block's range on its axis. -/
theorem mem_blk1 (t : Fin cfg1.N) (i : S8192x1.Idx) :
    i ∈ ((cfg1.win 4).blk t).view.set ↔ ∀ a : Fin 2, win1_4.index t a * S128x1.size a ≤ (i a).val ∧ (i a).val < win1_4.index t a * S128x1.size a + S128x1.size a := by
  show i ∈ ((View.whole main_v38).slice (win1_4.rect t)).set ↔ _
  rw [View.set_slice_whole, Rect.mem_set_unit]
  exact Iff.rfl

/-- Every row of the output array is in some tile's block: row \`r\` in tile \`r / 128\`. -/
theorem cover1 (i : S8192x1.Idx) :
    ∃ t : Fin cfg1.N, (cfg1.win 4).flush t = true ∧ i ∈ ((cfg1.win 4).blk t).view.set := by
  have hi0 : (i 0).val < 8192 := (i 0).isLt
  have hi1 : (i 1).val < 1 := (i 1).isLt
  have hN : cfg1.N = 64 := N_1
  have ht : (i 0).val / 128 < cfg1.N := by rw [hN]; omega
  obtain ⟨-, -, -, -, -, -, -, -, e8, e9⟩ := idx_facts1 ⟨(i 0).val / 128, ht⟩
  refine ⟨⟨(i 0).val / 128, ht⟩, flush1_4 _, ?_⟩
  rw [mem_blk1]
  intro a
  match a with
  | ⟨0, _⟩ =>
    show win1_4.index ⟨(i 0).val / 128, ht⟩ (0 : Fin 2) * 128 ≤ (i 0).val ∧ (i 0).val < win1_4.index ⟨(i 0).val / 128, ht⟩ (0 : Fin 2) * 128 + 128
    rw [e8]; show (i 0).val / 128 * 128 ≤ (i 0).val ∧ (i 0).val < (i 0).val / 128 * 128 + 128; omega
  | ⟨1, _⟩ =>
    show win1_4.index ⟨(i 0).val / 128, ht⟩ (1 : Fin 2) * 1 ≤ (i 1).val ∧ (i 1).val < win1_4.index ⟨(i 0).val / 128, ht⟩ (1 : Fin 2) * 1 + 1
    rw [e9]; omega

include hQX hQY hKX hKY in
/-- The output array after region 1: at each query point, the least squared distance to a key point. -/
theorem final1 : (dat1 V c).arrAt 4 cfg1.N = nearestArr QX QY KX KY :=
  (dat1 V c).arrAt_eq_of_cover 4 (nearestArr QX QY KX KY)
    (fun t _ => flushed1_eq V c QX QY KX KY hQX hQY hKX hKY t) cover1

end Region1

/-! ## Region 2: queries are the target points, keys the predicted points -/

/-- A tile of region 2 is one of 64. -/
theorem tile2_lt (t : Fin cfg2.N) : t.val < 64 := by
  have h := t.isLt
  have h64 : cfg2.N = 64 := N_2
  omega

/-- The printed index maps over the grid: the query windows and the output window are at block \`t\` of the rows, the
    key windows at their one block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The first query block at tile \`t\`, row \`p\`: row \`128·t + p\` of its array. -/
theorem iblk2_0_apply (c : Dev nD) (t : Fin cfg2.N) (p : Fin 128) :
    (iblk2 V c 0 t : Vec Ideal S128x1 .f32) (ix2 p 0)
      = (V c (Pipeline.arrRef spec2 0) : S8192x1.Idx → EReal) (ix2 ⟨128 * t.val + p.val, by have := tile2_lt t; omega⟩ 0) := by
  obtain ⟨e0, e1, -⟩ := idx_facts2 t
  unfold iblk2
  rw [View.read_apply]
  refine congrArg (V c (Pipeline.arrRef spec2 0) : S8192x1.Idx → EReal) (funext fun a => Fin.ext ?_)
  match a with
  | ⟨0, _⟩ => show win2_0.index t (0 : Fin 2) * 128 + 1 * p.val = 128 * t.val + p.val; omega
  | ⟨1, _⟩ => show win2_0.index t (1 : Fin 2) * 1 + 1 * 0 = 0; omega

/-- The second query block likewise. -/
theorem iblk2_1_apply (c : Dev nD) (t : Fin cfg2.N) (p : Fin 128) :
    (iblk2 V c 1 t : Vec Ideal S128x1 .f32) (ix2 p 0)
      = (V c (Pipeline.arrRef spec2 1) : S8192x1.Idx → EReal) (ix2 ⟨128 * t.val + p.val, by have := tile2_lt t; omega⟩ 0) := by
  obtain ⟨-, -, e0, e1, -⟩ := idx_facts2 t
  unfold iblk2
  rw [View.read_apply]
  refine congrArg (V c (Pipeline.arrRef spec2 1) : S8192x1.Idx → EReal) (funext fun a => Fin.ext ?_)
  match a with
  | ⟨0, _⟩ => show win2_1.index t (0 : Fin 2) * 128 + 1 * p.val = 128 * t.val + p.val; omega
  | ⟨1, _⟩ => show win2_1.index t (1 : Fin 2) * 1 + 1 * 0 = 0; omega

/-- The first key block at any tile is its array, whole. -/
theorem iblk2_2_apply (c : Dev nD) (t : Fin cfg2.N) (k : Fin 8192) :
    (iblk2 V c 2 t : Vec Ideal S1x8192 .f32) (ix2 0 k)
      = (V c (Pipeline.arrRef spec2 2) : S1x8192.Idx → EReal) (ix2 0 k) := by
  obtain ⟨-, -, -, -, e0, e1, -⟩ := idx_facts2 t
  unfold iblk2
  rw [View.read_apply]
  refine congrArg (V c (Pipeline.arrRef spec2 2) : S1x8192.Idx → EReal) (funext fun a => Fin.ext ?_)
  match a with
  | ⟨0, _⟩ => show win2_2.index t (0 : Fin 2) * 1 + 1 * 0 = 0; omega
  | ⟨1, _⟩ => show win2_2.index t (1 : Fin 2) * 8192 + 1 * k.val = k.val; omega

/-- The second key block likewise. -/
theorem iblk2_3_apply (c : Dev nD) (t : Fin cfg2.N) (k : Fin 8192) :
    (iblk2 V c 3 t : Vec Ideal S1x8192 .f32) (ix2 0 k)
      = (V c (Pipeline.arrRef spec2 3) : S1x8192.Idx → EReal) (ix2 0 k) := by
  obtain ⟨-, -, -, -, -, -, e0, e1, -⟩ := idx_facts2 t
  unfold iblk2
  rw [View.read_apply]
  refine congrArg (V c (Pipeline.arrRef spec2 3) : S1x8192.Idx → EReal) (funext fun a => Fin.ext ?_)
  match a with
  | ⟨0, _⟩ => show win2_3.index t (0 : Fin 2) * 1 + 1 * 0 = 0; omega
  | ⟨1, _⟩ => show win2_3.index t (1 : Fin 2) * 8192 + 1 * k.val = k.val; omega

section Region2
variable (c : Dev nD) (QX QY : S8192x1.Idx → EReal) (KX KY : S1x8192.Idx → EReal)
  (hQX : (V c (Pipeline.arrRef spec2 0) : S8192x1.Idx → EReal) = QX)
  (hQY : (V c (Pipeline.arrRef spec2 1) : S8192x1.Idx → EReal) = QY)
  (hKX : (V c (Pipeline.arrRef spec2 2) : S1x8192.Idx → EReal) = KX)
  (hKY : (V c (Pipeline.arrRef spec2 3) : S1x8192.Idx → EReal) = KY)

include hQX hQY hKX hKY in
/-- What tile \`t\` stores at a row of its block is the function at the row of the array under it. -/
theorem tile2_apply (t : Fin cfg2.N) (y : S128x1.Idx) :
    k2_pay1 (F := Ideal) (iblk2 V c 0 t) (iblk2 V c 1 t) (iblk2 V c 2 t) (iblk2 V c 3 t) y
      = nearestArr QX QY KX KY (((cfg2.win 4).blk t).view.emb y) := by
  obtain ⟨p, q, rfl⟩ : ∃ (p : Fin 128) (q : Fin 1), y = ix2 p q := ⟨y 0, y 1, eq_ix2 y⟩
  obtain rfl : q = 0 := Subsingleton.elim _ _
  obtain ⟨-, -, -, -, -, -, -, -, e8, e9⟩ := idx_facts2 t
  refine (pay2_of_blocks QX QY KX KY _ _ _ _ t.val (tile2_lt t)
    (fun p => by rw [iblk2_0_apply, hQX]) (fun p => by rw [iblk2_1_apply, hQY])
    (fun k => by rw [iblk2_2_apply, hKX]) (fun k => by rw [iblk2_3_apply, hKY]) p).trans ?_
  unfold nearestArr
  refine congrArg (nearest QX QY KX KY) (Fin.ext ?_)
  show 128 * t.val + p.val = win2_4.index t (0 : Fin 2) * 128 + 1 * p.val
  omega

include hQX hQY hKX hKY in
/-- What tile \`t\` writes back is block \`t\` of the function of the four arrays. -/
theorem flushed2_eq (t : Fin cfg2.N) :
    (dat2 V c).flushed 4 t = ((cfg2.win 4).blk t).view.read (Elt Ideal) (nearestArr QX QY KX KY) := by
  show (cfg2.win 4).cut (grid2.coords t) ((dat2 V c).after 4 t) = _
  rw [after2_4]
  unfold out2_4
  rw [View.canon_unit_zero zeroOffsets]
  simp only [View.ld_unit_zero (S := S128x1) zeroOffsets, View.ld_unit_zero (S := S1x8192) zeroOffsets]
  funext y
  exact tile2_apply V c QX QY KX KY hQX hQY hKX hKY t y

/-- A row of the output array is in tile \`t\`'s block iff each coordinate is in the block's range on its axis. -/
theorem mem_blk2 (t : Fin cfg2.N) (i : S8192x1.Idx) :
    i ∈ ((cfg2.win 4).blk t).view.set ↔ ∀ a : Fin 2, win2_4.index t a * S128x1.size a ≤ (i a).val ∧ (i a).val < win2_4.index t a * S128x1.size a + S128x1.size a := by
  show i ∈ ((View.whole main_v39).slice (win2_4.rect t)).set ↔ _
  rw [View.set_slice_whole, Rect.mem_set_unit]
  exact Iff.rfl

/-- Every row of the output array is in some tile's block: row \`r\` in tile \`r / 128\`. -/
theorem cover2 (i : S8192x1.Idx) :
    ∃ t : Fin cfg2.N, (cfg2.win 4).flush t = true ∧ i ∈ ((cfg2.win 4).blk t).view.set := by
  have hi0 : (i 0).val < 8192 := (i 0).isLt
  have hi1 : (i 1).val < 1 := (i 1).isLt
  have hN : cfg2.N = 64 := N_2
  have ht : (i 0).val / 128 < cfg2.N := by rw [hN]; omega
  obtain ⟨-, -, -, -, -, -, -, -, e8, e9⟩ := idx_facts2 ⟨(i 0).val / 128, ht⟩
  refine ⟨⟨(i 0).val / 128, ht⟩, flush2_4 _, ?_⟩
  rw [mem_blk2]
  intro a
  match a with
  | ⟨0, _⟩ =>
    show win2_4.index ⟨(i 0).val / 128, ht⟩ (0 : Fin 2) * 128 ≤ (i 0).val ∧ (i 0).val < win2_4.index ⟨(i 0).val / 128, ht⟩ (0 : Fin 2) * 128 + 128
    rw [e8]; show (i 0).val / 128 * 128 ≤ (i 0).val ∧ (i 0).val < (i 0).val / 128 * 128 + 128; omega
  | ⟨1, _⟩ =>
    show win2_4.index ⟨(i 0).val / 128, ht⟩ (1 : Fin 2) * 1 ≤ (i 1).val ∧ (i 1).val < win2_4.index ⟨(i 0).val / 128, ht⟩ (1 : Fin 2) * 1 + 1
    rw [e9]; omega

include hQX hQY hKX hKY in
/-- The output array after region 2: at each query point, the least squared distance to a key point. -/
theorem final2 : (dat2 V c).arrAt 4 cfg2.N = nearestArr QX QY KX KY :=
  (dat2 V c).arrAt_eq_of_cover 4 (nearestArr QX QY KX KY)
    (fun t _ => flushed2_eq V c QX QY KX KY hQX hQY hKX hKY t) cover2

end Region2

end Cert.KernelIdeal.HandValue

end
-- ==== Proof.HostGlue.lean ====
/-
  The host operations of the kernel program, read at an index, from any contents of the buffers.

  Between the first and the second launch the 1×3 array of sums is flattened, its three entries are sliced out and cast
  to scalars, and the Dice formula is applied to them; each of the two point arrays is sliced by coordinate, flattened
  to 8192 entries and cast to a column (8192×1) or a row (1×8192). A cast keeps the row-major position and a slice
  shifts by its offsets, so the column's entry `(j, 0)` and the row's entry `(0, j)` are coordinate `c` of point `j`.
  After the third launch the two 8192×1 arrays are summed over both axes from the word of zero — the sum of their 8192
  entries —, each sum is divided by the word of 8192, and the halves of that and of the Dice scalar are added.
-/
import proofs.«133641_j60370060312890_2_alg».proof.Proof.Gen.KernelIdeal.Launch
import proofs.«133641_j60370060312890_2_alg».proof.Proof.Spec
import Idealize.ShloMosaic.Lib.ValueIdx
import Idealize.ShloMosaic.Lib.ValueLayout
import Idealize.ShloMosaic.Lib.StableHlo.Run
import Idealize.ShloMosaic.Lib.Pipeline.Value
import Idealize.ShloMosaic.PureOps.Ideal.Laws

noncomputable section

open scoped BigOperators

namespace Cert.KernelIdeal.HostGlue

open Cert.KernelIdeal Cert.KernelIdeal.Gen Idealize.ShloMosaic Idealize.ShloMosaic.TcCoe Idealize.SL.Sem Idealize.ShloMosaic.StableHlo Idealize.ShloMosaic.ValueIdx

/-! ## The host's layout chains read at an index, over any array -/

section Pure
variable {α : Type}

/-- The rank-zero shape's one index has row-major position zero. -/
theorem rowMajor_scalar (i : S_.Idx) : (S_.rowMajor i).val = 0 := Shape.rowMajorPi_zero _ _

/-- Entry `k` of the 1×3 array: flatten to three entries, take the one-entry slice at `k`, drop its axis. -/
theorem stat_read (x : S1x3.Idx → α) (n : Nat) (hs : S3.Slices ![n] S1) (k : Fin 3) (hk : k.val = n) (i : S_.Idx) :
    shapeCast S_ (extractStridedSlice S1 ![n] (shapeCast S3 x shapeCasts_S1x3_S3) hs) shapeCasts_S1_S_ i
      = x (ix2 (0 : Fin 1) k) := by
  refine (shapeCast_apply _ shapeCasts_S1_S_ i (ix1 (0 : Fin 1)) ?_).trans ?_
  · rw [Shape.rowMajor_val_one, rowMajor_scalar]; rfl
  refine (extractStridedSlice_apply ![n] _ hs (ix1 (0 : Fin 1)) (ix1 k) fun a => match a with
    | ⟨0, _⟩ => by show k.val = n + 0; omega).trans ?_
  exact shapeCast_1a_a_apply x shapeCasts_S1x3_S3 k

/-- Coordinate `c` of point `j`, through the slice of that coordinate, the flattening, and the cast to a column. -/
theorem col_read (x : S1x8192x2.Idx → α) (n : Nat) (hs : S1x8192x2.Slices ![0, 0, n] S1x8192x1) (c : Fin 2) (hc : c.val = n)
    (i : S8192x1.Idx) :
    shapeCast S8192x1 (shapeCast S8192 (extractStridedSlice S1x8192x1 ![0, 0, n] x hs) shapeCasts_S1x8192x1_S8192)
        shapeCasts_S8192_S8192x1 i
      = x (ix3 (0 : Fin 1) (⟨(i 0).val, (i 0).isLt⟩ : Fin 8192) c) := by
  have hi1 : (i 1).val < 1 := (i 1).isLt
  refine (shapeCast_apply _ shapeCasts_S8192_S8192x1 i (ix1 (⟨(i 0).val, (i 0).isLt⟩ : Fin 8192)) ?_).trans ?_
  · rw [Shape.rowMajor_val_one, Shape.rowMajor_val_two]
    show (i 0).val = (i 0).val * 1 + (i 1).val
    omega
  refine (shapeCast_apply _ shapeCasts_S1x8192x1_S8192 _
    (ix3 (0 : Fin 1) (⟨(i 0).val, (i 0).isLt⟩ : Fin 8192) (0 : Fin 1)) ?_).trans ?_
  · rw [Shape.rowMajor_val_three, Shape.rowMajor_val_one]
    show (0 * 8192 + (i 0).val) * 1 + 0 = (i 0).val
    omega
  exact extractStridedSlice_apply ![0, 0, n] x hs _ (ix3 (0 : Fin 1) (⟨(i 0).val, (i 0).isLt⟩ : Fin 8192) c) fun a =>
    match a with
    | ⟨0, _⟩ => by show (0 : Nat) = 0 + 0; omega
    | ⟨1, _⟩ => by show (i 0).val = 0 + (i 0).val; omega
    | ⟨2, _⟩ => by show c.val = n + 0; omega

/-- Coordinate `c` of point `k`, through the slice of that coordinate, the flattening, and the cast to a row. -/
theorem row_read (x : S1x8192x2.Idx → α) (n : Nat) (hs : S1x8192x2.Slices ![0, 0, n] S1x8192x1) (c : Fin 2) (hc : c.val = n)
    (i : S1x8192.Idx) :
    shapeCast S1x8192 (shapeCast S8192 (extractStridedSlice S1x8192x1 ![0, 0, n] x hs) shapeCasts_S1x8192x1_S8192)
        shapeCasts_S8192_S1x8192 i
      = x (ix3 (0 : Fin 1) (⟨(i 1).val, (i 1).isLt⟩ : Fin 8192) c) := by
  have hi0 : (i 0).val < 1 := (i 0).isLt
  refine (shapeCast_apply _ shapeCasts_S8192_S1x8192 i (ix1 (⟨(i 1).val, (i 1).isLt⟩ : Fin 8192)) ?_).trans ?_
  · rw [Shape.rowMajor_val_one, Shape.rowMajor_val_two]
    show (i 1).val = (i 0).val * 8192 + (i 1).val
    omega
  refine (shapeCast_apply _ shapeCasts_S1x8192x1_S8192 _
    (ix3 (0 : Fin 1) (⟨(i 1).val, (i 1).isLt⟩ : Fin 8192) (0 : Fin 1)) ?_).trans ?_
  · rw [Shape.rowMajor_val_three, Shape.rowMajor_val_one]
    show (0 * 8192 + (i 1).val) * 1 + 0 = (i 1).val
    omega
  exact extractStridedSlice_apply ![0, 0, n] x hs _ (ix3 (0 : Fin 1) (⟨(i 1).val, (i 1).isLt⟩ : Fin 8192) c) fun a =>
    match a with
    | ⟨0, _⟩ => by show (0 : Nat) = 0 + 0; omega
    | ⟨1, _⟩ => by show (i 1).val = 0 + (i 1).val; omega
    | ⟨2, _⟩ => by show c.val = n + 0; omega

end Pure

/-- The host's quotient read at an index, at the extended reals. -/
theorem hostDivf_apply {s : Shape} {φ : FTy} (a b : FVec Ideal s φ) (i : s.Idx) : Host.divf a b i = Ideal.div (a i) (b i) := rfl

/-- The host's sum of an 8192×1 array over both axes, from the word of zero, is the sum of its 8192 entries. -/
theorem colsum_read (y : FVec Ideal S8192x1 .f32) (i : S_.Idx) :
    Host.reduceAdd y (constant (F := Ideal) S_ .f32 0x00000000#32) reducesTo_S8192x1_S_d0_1 h_S_ i
      = ∑ j : Fin 8192, y (ix2 j (0 : Fin 1)) := by
  simp only [Host.reduceAdd, Ideal.hostReduceAdd_def]
  rw [Ideal.hostReduceAdd_total reducesTo_S8192x1_S_d0_1 (fun b => b.elim0) y _ i, constant_apply, Ideal.ofBits_zero_f32,
    zero_add, sum_idx2]
  exact Finset.sum_congr rfl fun a _ => Fin.sum_univ_one _

/-! ## The operations between the first and the second launch -/

section Glue
variable (W : Valuation τ sig (Elt Ideal))

/-- The Dice formula on the three entries of the 1×3 array `s`. -/
theorem g1 (s : S1x3.Idx → EReal) (hs : (W main_v0 : S1x3.Idx → EReal) = s) :
    (StableHlo.after (hostOps1 (F := Ideal)) W main_v13 : S_.Idx → EReal)
      = fun _ => Ideal.ofBits .f32 0x3F800000#32
          - Ideal.div (Ideal.ofBits .f32 0x40000000#32 * s (ix2 (0 : Fin 1) (0 : Fin 3)) + Ideal.ofBits .f32 0x358637BD#32)
              ((s (ix2 (0 : Fin 1) (1 : Fin 3)) + s (ix2 (0 : Fin 1) (2 : Fin 3))) + Ideal.ofBits .f32 0x358637BD#32) := by
  have e : (StableHlo.after (hostOps1 (F := Ideal)) W main_v13 : S_.Idx → EReal)
      = subf (constant (F := Ideal) S_ .f32 0x3F800000#32)
          (Host.divf
            (addf (mulf (constant (F := Ideal) S_ .f32 0x40000000#32)
                (shapeCast S_ (extractStridedSlice S1 ![0] (shapeCast S3 (W main_v0 : S1x3.Idx → EReal) shapeCasts_S1x3_S3) slices_S3_S1_0) shapeCasts_S1_S_))
              (constant (F := Ideal) S_ .f32 0x358637BD#32))
            (addf (addf
                (shapeCast S_ (extractStridedSlice S1 ![1] (shapeCast S3 (W main_v0 : S1x3.Idx → EReal) shapeCasts_S1x3_S3) slices_S3_S1_1) shapeCasts_S1_S_)
                (shapeCast S_ (extractStridedSlice S1 ![2] (shapeCast S3 (W main_v0 : S1x3.Idx → EReal) shapeCasts_S1x3_S3) slices_S3_S1_2) shapeCasts_S1_S_))
              (constant (F := Ideal) S_ .f32 0x358637BD#32))) := by
    show StableHlo.after hostOps1 W (Proc.devRef .tc main_v13) = _
    after_results
    rfl
  rw [e, hs]
  funext i
  simp only [subf_apply, hostDivf_apply, addf_apply, mulf_apply, constant_apply]
  rw [stat_read s 0 slices_S3_S1_0 (0 : Fin 3) rfl i, stat_read s 1 slices_S3_S1_1 (1 : Fin 3) rfl i,
    stat_read s 2 slices_S3_S1_2 (2 : Fin 3) rfl i]

/-- With the three entries the overlap, the mask's mass and the target's mass, the scalar is the Dice term. -/
theorem g1_dice (P T : Cert.Loss.Img.Idx → EReal)
    (h0 : (W main_v0 : S1x3.Idx → EReal) (ix2 (0 : Fin 1) (0 : Fin 3)) = Cert.Loss.overlap P T)
    (h1 : (W main_v0 : S1x3.Idx → EReal) (ix2 (0 : Fin 1) (1 : Fin 3)) = Cert.Loss.maskMass P)
    (h2 : (W main_v0 : S1x3.Idx → EReal) (ix2 (0 : Fin 1) (2 : Fin 3)) = Cert.Loss.targetMass T) :
    (StableHlo.after (hostOps1 (F := Ideal)) W main_v13 : S_.Idx → EReal) = fun _ => Cert.Loss.dice P T := by
  rw [g1 W _ rfl, h0, h1, h2]
  rfl

end Glue

/-! ## The eight columns and rows of coordinates handed to the two distance launches -/

section Glue2
variable (W : Valuation τ sig (Elt Ideal))

/-- The column of first coordinates of the first point set. -/
theorem v16_eq :
    (StableHlo.after (hostOps1 (F := Ideal)) W main_v16 : S8192x1.Idx → EReal)
      = fun i => (W main_arg2 : S1x8192x2.Idx → EReal) (ix3 (0 : Fin 1) (⟨(i 0).val, (i 0).isLt⟩ : Fin 8192) (0 : Fin 2)) := by
  show StableHlo.after hostOps1 W (Proc.devRef .tc main_v16) = _
  after_results
  funext i
  exact col_read (W main_arg2 : S1x8192x2.Idx → EReal) 0 slices_S1x8192x2_S1x8192x1_0_0_0 (0 : Fin 2) rfl i

theorem v16_at (j : Fin 8192) :
    (StableHlo.after (hostOps1 (F := Ideal)) W main_v16 : S8192x1.Idx → EReal) (ix2 j (0 : Fin 1))
      = (W main_arg2 : S1x8192x2.Idx → EReal) (ix3 (0 : Fin 1) j (0 : Fin 2)) :=
  congrFun (v16_eq W) _

/-- The column of second coordinates of the first point set. -/
theorem v19_eq :
    (StableHlo.after (hostOps1 (F := Ideal)) W main_v19 : S8192x1.Idx → EReal)
      = fun i => (W main_arg2 : S1x8192x2.Idx → EReal) (ix3 (0 : Fin 1) (⟨(i 0).val, (i 0).isLt⟩ : Fin 8192) (1 : Fin 2)) := by
  show StableHlo.after hostOps1 W (Proc.devRef .tc main_v19) = _
  after_results
  funext i
  exact col_read (W main_arg2 : S1x8192x2.Idx → EReal) 1 slices_S1x8192x2_S1x8192x1_0_0_1 (1 : Fin 2) rfl i

theorem v19_at (j : Fin 8192) :
    (StableHlo.after (hostOps1 (F := Ideal)) W main_v19 : S8192x1.Idx → EReal) (ix2 j (0 : Fin 1))
      = (W main_arg2 : S1x8192x2.Idx → EReal) (ix3 (0 : Fin 1) j (1 : Fin 2)) :=
  congrFun (v19_eq W) _

/-- The row of first coordinates of the second point set. -/
theorem v22_eq :
    (StableHlo.after (hostOps1 (F := Ideal)) W main_v22 : S1x8192.Idx → EReal)
      = fun i => (W main_arg3 : S1x8192x2.Idx → EReal) (ix3 (0 : Fin 1) (⟨(i 1).val, (i 1).isLt⟩ : Fin 8192) (0 : Fin 2)) := by
  show StableHlo.after hostOps1 W (Proc.devRef .tc main_v22) = _
  after_results
  funext i
  exact row_read (W main_arg3 : S1x8192x2.Idx → EReal) 0 slices_S1x8192x2_S1x8192x1_0_0_0 (0 : Fin 2) rfl i

theorem v22_at (j : Fin 8192) :
    (StableHlo.after (hostOps1 (F := Ideal)) W main_v22 : S1x8192.Idx → EReal) (ix2 (0 : Fin 1) j)
      = (W main_arg3 : S1x8192x2.Idx → EReal) (ix3 (0 : Fin 1) j (0 : Fin 2)) :=
  congrFun (v22_eq W) _

/-- The row of second coordinates of the second point set. -/
theorem v25_eq :
    (StableHlo.after (hostOps1 (F := Ideal)) W main_v25 : S1x8192.Idx → EReal)
      = fun i => (W main_arg3 : S1x8192x2.Idx → EReal) (ix3 (0 : Fin 1) (⟨(i 1).val, (i 1).isLt⟩ : Fin 8192) (1 : Fin 2)) := by
  show StableHlo.after hostOps1 W (Proc.devRef .tc main_v25) = _
  after_results
  funext i
  exact row_read (W main_arg3 : S1x8192x2.Idx → EReal) 1 slices_S1x8192x2_S1x8192x1_0_0_1 (1 : Fin 2) rfl i

theorem v25_at (j : Fin 8192) :
    (StableHlo.after (hostOps1 (F := Ideal)) W main_v25 : S1x8192.Idx → EReal) (ix2 (0 : Fin 1) j)
      = (W main_arg3 : S1x8192x2.Idx → EReal) (ix3 (0 : Fin 1) j (1 : Fin 2)) :=
  congrFun (v25_eq W) _

/-- The column of first coordinates of the second point set. -/
theorem v28_eq :
    (StableHlo.after (hostOps1 (F := Ideal)) W main_v28 : S8192x1.Idx → EReal)
      = fun i => (W main_arg3 : S1x8192x2.Idx → EReal) (ix3 (0 : Fin 1) (⟨(i 0).val, (i 0).isLt⟩ : Fin 8192) (0 : Fin 2)) := by
  show StableHlo.after hostOps1 W (Proc.devRef .tc main_v28) = _
  after_results
  funext i
  exact col_read (W main_arg3 : S1x8192x2.Idx → EReal) 0 slices_S1x8192x2_S1x8192x1_0_0_0 (0 : Fin 2) rfl i

theorem v28_at (j : Fin 8192) :
    (StableHlo.after (hostOps1 (F := Ideal)) W main_v28 : S8192x1.Idx → EReal) (ix2 j (0 : Fin 1))
      = (W main_arg3 : S1x8192x2.Idx → EReal) (ix3 (0 : Fin 1) j (0 : Fin 2)) :=
  congrFun (v28_eq W) _

/-- The column of second coordinates of the second point set. -/
theorem v31_eq :
    (StableHlo.after (hostOps1 (F := Ideal)) W main_v31 : S8192x1.Idx → EReal)
      = fun i => (W main_arg3 : S1x8192x2.Idx → EReal) (ix3 (0 : Fin 1) (⟨(i 0).val, (i 0).isLt⟩ : Fin 8192) (1 : Fin 2)) := by
  show StableHlo.after hostOps1 W (Proc.devRef .tc main_v31) = _
  after_results
  funext i
  exact col_read (W main_arg3 : S1x8192x2.Idx → EReal) 1 slices_S1x8192x2_S1x8192x1_0_0_1 (1 : Fin 2) rfl i

theorem v31_at (j : Fin 8192) :
    (StableHlo.after (hostOps1 (F := Ideal)) W main_v31 : S8192x1.Idx → EReal) (ix2 j (0 : Fin 1))
      = (W main_arg3 : S1x8192x2.Idx → EReal) (ix3 (0 : Fin 1) j (1 : Fin 2)) :=
  congrFun (v31_eq W) _

/-- The row of first coordinates of the first point set. -/
theorem v34_eq :
    (StableHlo.after (hostOps1 (F := Ideal)) W main_v34 : S1x8192.Idx → EReal)
      = fun i => (W main_arg2 : S1x8192x2.Idx → EReal) (ix3 (0 : Fin 1) (⟨(i 1).val, (i 1).isLt⟩ : Fin 8192) (0 : Fin 2)) := by
  show StableHlo.after hostOps1 W (Proc.devRef .tc main_v34) = _
  after_results
  funext i
  exact row_read (W main_arg2 : S1x8192x2.Idx → EReal) 0 slices_S1x8192x2_S1x8192x1_0_0_0 (0 : Fin 2) rfl i

theorem v34_at (j : Fin 8192) :
    (StableHlo.after (hostOps1 (F := Ideal)) W main_v34 : S1x8192.Idx → EReal) (ix2 (0 : Fin 1) j)
      = (W main_arg2 : S1x8192x2.Idx → EReal) (ix3 (0 : Fin 1) j (0 : Fin 2)) :=
  congrFun (v34_eq W) _

/-- The row of second coordinates of the first point set. -/
theorem v37_eq :
    (StableHlo.after (hostOps1 (F := Ideal)) W main_v37 : S1x8192.Idx → EReal)
      = fun i => (W main_arg2 : S1x8192x2.Idx → EReal) (ix3 (0 : Fin 1) (⟨(i 1).val, (i 1).isLt⟩ : Fin 8192) (1 : Fin 2)) := by
  show StableHlo.after hostOps1 W (Proc.devRef .tc main_v37) = _
  after_results
  funext i
  exact row_read (W main_arg2 : S1x8192x2.Idx → EReal) 1 slices_S1x8192x2_S1x8192x1_0_0_1 (1 : Fin 2) rfl i

theorem v37_at (j : Fin 8192) :
    (StableHlo.after (hostOps1 (F := Ideal)) W main_v37 : S1x8192.Idx → EReal) (ix2 (0 : Fin 1) j)
      = (W main_arg2 : S1x8192x2.Idx → EReal) (ix3 (0 : Fin 1) j (1 : Fin 2)) :=
  congrFun (v37_eq W) _

end Glue2

/-! ## The operations after the third launch -/

section Glue3
variable (W : Valuation τ sig (Elt Ideal))

/-- Half of the scalar `d` plus half of the two means of the 8192 entries `u` and `v`. -/
theorem g3 (d : EReal) (u v : Fin 8192 → EReal) (hd : (W main_v13 : S_.Idx → EReal) ix0 = d)
    (hu : ∀ j : Fin 8192, (W main_v38 : S8192x1.Idx → EReal) (ix2 j (0 : Fin 1)) = u j)
    (hv : ∀ j : Fin 8192, (W main_v39 : S8192x1.Idx → EReal) (ix2 j (0 : Fin 1)) = v j) :
    (StableHlo.after (hostOps3 (F := Ideal)) W main_v47 : S_.Idx → EReal)
      = fun _ => Ideal.ofBits .f32 0x3F000000#32 * d
          + Ideal.ofBits .f32 0x3F000000#32
            * (Ideal.div (∑ j : Fin 8192, u j) (Ideal.ofBits .f32 0x46000000#32)
              + Ideal.div (∑ j : Fin 8192, v j) (Ideal.ofBits .f32 0x46000000#32)) := by
  have e : (StableHlo.after (hostOps3 (F := Ideal)) W main_v47 : S_.Idx → EReal)
      = addf (mulf (constant (F := Ideal) S_ .f32 0x3F000000#32) (W main_v13 : S_.Idx → EReal))
          (mulf (constant (F := Ideal) S_ .f32 0x3F000000#32)
            (addf
              (Host.divf (Host.reduceAdd (W main_v38 : S8192x1.Idx → EReal) (constant (F := Ideal) S_ .f32 0x00000000#32) reducesTo_S8192x1_S_d0_1 h_S_)
                (constant (F := Ideal) S_ .f32 0x46000000#32))
              (Host.divf (Host.reduceAdd (W main_v39 : S8192x1.Idx → EReal) (constant (F := Ideal) S_ .f32 0x00000000#32) reducesTo_S8192x1_S_d0_1 h_S_)
                (constant (F := Ideal) S_ .f32 0x46000000#32)))) := by
    show StableHlo.after hostOps3 W (Proc.devRef .tc main_v47) = _
    after_results
  rw [e]
  funext i
  simp only [addf_apply, mulf_apply, hostDivf_apply, constant_apply]
  rw [colsum_read, colsum_read, eq_ix0 i, hd]
  simp only [hu, hv]

/-- With the scalar the Dice term and the two arrays the nearest squared distances, the result is the loss. -/
theorem g3_loss (P T : Cert.Loss.Img.Idx → EReal) (A B : Cert.Loss.Pts.Idx → EReal)
    (hd : (W main_v13 : S_.Idx → EReal) ix0 = Cert.Loss.dice P T)
    (hu : ∀ j : Fin 8192, (W main_v38 : S8192x1.Idx → EReal) (ix2 j (0 : Fin 1)) = Cert.Loss.nearestInB A B j)
    (hv : ∀ k : Fin 8192, (W main_v39 : S8192x1.Idx → EReal) (ix2 k (0 : Fin 1)) = Cert.Loss.nearestInA A B k) :
    (StableHlo.after (hostOps3 (F := Ideal)) W main_v47 : S_.Idx → EReal) = fun _ => Cert.Loss.loss P T A B := by
  rw [g3 W _ _ _ hd hu hv]
  rfl

end Glue3

end Cert.KernelIdeal.HostGlue

end
-- ==== Proof.Finite.lean ====
/-
  From the precondition "every entry of every argument has a finite absolute value" to the form the algebra uses:
  every coordinate of the two point sets is a real number.

  The precondition is the conjunction of four tests, one per argument, each the conjunction over all entries of
  \`|x| < +∞\`. An extended real whose absolute value \`max x (−x)\` lies below \`+∞\` is neither infinity, hence a real.
-/
import proofs.«133641_j60370060312890_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- An extended real whose absolute value is below \`+∞\` is a real. -/
theorem real_of_abs_lt_top (x : EReal) (h : max x (-x) < ⊤) : ∃ r : ℝ, x = r := by
  induction x using EReal.rec with
  | bot => exact absurd h (by simp)
  | top => exact absurd h (by simp)
  | coe r => exact ⟨r, rfl⟩

/-- One entry's test, as the predicate computes it: the comparison's bit is set only at a real. -/
theorem real_of_cmp (x : EReal)
    (h : Ideal.cmp .olt (max x (-x)) (Ideal.ofBits .f32 0x7F800000#32) = 1#1) : ∃ r : ℝ, x = r := by
  apply real_of_abs_lt_top
  have e : Ideal.ofBits .f32 0x7F800000#32 = (⊤ : EReal) := by simp [Ideal.ofBits, Ideal.ieee]
  rw [e] at h
  by_contra hn
  simp [Ideal.cmp, hn] at h

variable [Facts]

/-- Under the precondition every coordinate of both point sets is a real. -/
theorem points_real (a0 a1 : FVec Ideal S4x1x1024x1024 .f32) (a2 a3 : FVec Ideal S1x8192x2 .f32)
    (h : fn (F := Ideal) a0 a1 a2 a3 = fun _ => 1#1) :
    (∀ i, ∃ r : ℝ, a2 i = r) ∧ (∀ i, ∃ r : ℝ, a3 i = r) := by
  have h0 := congrFun h ix0
  dsimp only [fn, fn_part1] at h0
  obtain ⟨h13, h17⟩ := IntOp.andi_eq_one.1 h0
  obtain ⟨h8, h12⟩ := IntOp.andi_eq_one.1 h13
  refine ⟨fun i => ?_, fun i => ?_⟩
  · exact real_of_cmp (a2 i) (Host.reduce_andi_all _ _ _ _ _ h12 i)
  · exact real_of_cmp (a3 i) (Host.reduce_andi_all _ _ _ _ _ h17 i)

end Cert.Finite

end
-- ==== Proof.KernelLoss.lean ====
/-
  The idealized kernel computes the loss.

  At the extended reals, and for finite point coordinates, the result buffer the kernel's program ends with holds
  `Cert.Loss.loss` of the four argument arrays. The first launch leaves the three Dice sums, from which the host
  operations form the Dice term; the second and third launches are entered from the point arrays' coordinate columns and
  rows and leave, entry by entry, the squared distance to the nearest point of the other set — the third with the two
  sets exchanged, so that its differences come out as `b − a` where the specification has `a − b`: equal squares for
  real numbers, which is where finiteness of the points is used; the last host operations take the two means and
  combine the halves.
-/
import proofs.«133641_j60370060312890_2_alg».proof.Defs
import proofs.«133641_j60370060312890_2_alg».proof.Proof.Gen.Pre_finite_inputs
import proofs.«133641_j60370060312890_2_alg».proof.Proof.MainRun
import proofs.«133641_j60370060312890_2_alg».proof.Proof.Dice.Stats
import proofs.«133641_j60370060312890_2_alg».proof.Proof.ChamferValue
import proofs.«133641_j60370060312890_2_alg».proof.Proof.HostGlue
import proofs.«133641_j60370060312890_2_alg».proof.Proof.Finite

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.HandValue Cert.KernelIdeal.HostGlue Cert.KernelArith

variable (m : (ℓ : Loc nD τ sig) → Buf (Elt Ideal) ℓ) (ρ : Dev nD → PrngReg)

/-- The kernel's result buffer at the last boundary is the loss of the launch's argument arrays. -/
theorem kernel_loss (hpre : Cert.Pre_KernelIdeal (hPre_finite_inputs := Cert.Pre_finite_inputs.Gen.facts) m) (c : Dev nD) :
    W5 (F := Ideal) m ρ c (Proc.devRef .tc main_v47)
      = fun _ => Cert.Loss.loss (m ((c.tc : Thread nD τ).loc main_arg0)) (m ((c.tc : Thread nD τ).loc main_arg1))
          (m ((c.tc : Thread nD τ).loc main_arg2)) (m ((c.tc : Thread nD τ).loc main_arg3)) := by
  -- the four arguments, and the points' finiteness
  let P : Cert.Loss.Img.Idx → EReal := m ((c.tc : Thread nD τ).loc main_arg0)
  let T : Cert.Loss.Img.Idx → EReal := m ((c.tc : Thread nD τ).loc main_arg1)
  let A : Cert.Loss.Pts.Idx → EReal := m ((c.tc : Thread nD τ).loc main_arg2)
  let B : Cert.Loss.Pts.Idx → EReal := m ((c.tc : Thread nD τ).loc main_arg3)
  have hfin := @Cert.Finite.points_real Cert.Pre_finite_inputs.Gen.facts P T A B (hpre c)
  obtain ⟨hA, hB⟩ := hfin
  -- the first launch leaves the statistics; the point arrays pass it by
  have hs : (W1 m ρ c main_v0 : S1x3.Idx → EReal) = stats (Vat0 m ρ) c :=
    (W1_arr m ρ c 2).trans (final_stats (Vat0 m ρ) c)
  have hA2 : (W1 m ρ c main_arg2 : S1x8192x2.Idx → EReal) = A := (W1_of_ne m ρ c main_arg2 (by decide)).trans rfl
  have hA3 : (W1 m ρ c main_arg3 : S1x8192x2.Idx → EReal) = B := (W1_of_ne m ρ c main_arg3 (by decide)).trans rfl
  -- the Dice term
  have hd : (W4 m ρ c main_v13 : S_.Idx → EReal) ix0 = Cert.Loss.dice P T := by
    rw [W4_of_ne m ρ c main_v13 (by decide), W3_of_ne m ρ c main_v13 (by decide)]
    refine congrFun (g1_dice (W1 m ρ c) P T ?_ ?_ ?_) ix0
    · rw [hs]; exact stats_overlap (Vat0 m ρ) c
    · rw [hs]; exact stats_mask (Vat0 m ρ) c
    · rw [hs]; exact stats_target (Vat0 m ρ) c
  -- the second launch: queries the points of `A`, keys the points of `B`
  have f1 : (W3 m ρ c main_v38 : S8192x1.Idx → EReal) = nearestArr
      (fun i => A (ix3 (0 : Fin 1) (⟨(i 0).val, (i 0).isLt⟩ : Fin 8192) (0 : Fin 2)))
      (fun i => A (ix3 (0 : Fin 1) (⟨(i 0).val, (i 0).isLt⟩ : Fin 8192) (1 : Fin 2)))
      (fun i => B (ix3 (0 : Fin 1) (⟨(i 1).val, (i 1).isLt⟩ : Fin 8192) (0 : Fin 2)))
      (fun i => B (ix3 (0 : Fin 1) (⟨(i 1).val, (i 1).isLt⟩ : Fin 8192) (1 : Fin 2))) :=
    (W3_arr m ρ c 4).trans (final1 (Vat2 m ρ) c _ _ _ _
      (by rw [← hA2]; exact v16_eq (W1 m ρ c)) (by rw [← hA2]; exact v19_eq (W1 m ρ c))
      (by rw [← hA3]; exact v22_eq (W1 m ρ c)) (by rw [← hA3]; exact v25_eq (W1 m ρ c)))
  have hu : ∀ j : Fin 8192, (W4 m ρ c main_v38 : S8192x1.Idx → EReal) (ix2 j (0 : Fin 1)) = Cert.Loss.nearestInB A B j := fun j => by
    rw [W4_of_ne m ρ c main_v38 (by decide), f1]
    rfl
  -- the third launch: queries the points of `B`, keys the points of `A`
  have f2 : (W4 m ρ c main_v39 : S8192x1.Idx → EReal) = nearestArr
      (fun i => B (ix3 (0 : Fin 1) (⟨(i 0).val, (i 0).isLt⟩ : Fin 8192) (0 : Fin 2)))
      (fun i => B (ix3 (0 : Fin 1) (⟨(i 0).val, (i 0).isLt⟩ : Fin 8192) (1 : Fin 2)))
      (fun i => A (ix3 (0 : Fin 1) (⟨(i 1).val, (i 1).isLt⟩ : Fin 8192) (0 : Fin 2)))
      (fun i => A (ix3 (0 : Fin 1) (⟨(i 1).val, (i 1).isLt⟩ : Fin 8192) (1 : Fin 2))) :=
    (W4_arr m ρ c 4).trans (final2 (Vat3 m ρ) c _ _ _ _
      (by show (W3 m ρ c main_v28 : S8192x1.Idx → EReal) = _
          rw [W3_of_ne m ρ c main_v28 (by decide), ← hA3]; exact v28_eq (W1 m ρ c))
      (by show (W3 m ρ c main_v31 : S8192x1.Idx → EReal) = _
          rw [W3_of_ne m ρ c main_v31 (by decide), ← hA3]; exact v31_eq (W1 m ρ c))
      (by show (W3 m ρ c main_v34 : S1x8192.Idx → EReal) = _
          rw [W3_of_ne m ρ c main_v34 (by decide), ← hA2]; exact v34_eq (W1 m ρ c))
      (by show (W3 m ρ c main_v37 : S1x8192.Idx → EReal) = _
          rw [W3_of_ne m ρ c main_v37 (by decide), ← hA2]; exact v37_eq (W1 m ρ c)))
  have swapped : ∀ k : Fin 8192, nearestArr
      (fun i => B (ix3 (0 : Fin 1) (⟨(i 0).val, (i 0).isLt⟩ : Fin 8192) (0 : Fin 2)))
      (fun i => B (ix3 (0 : Fin 1) (⟨(i 0).val, (i 0).isLt⟩ : Fin 8192) (1 : Fin 2)))
      (fun i => A (ix3 (0 : Fin 1) (⟨(i 1).val, (i 1).isLt⟩ : Fin 8192) (0 : Fin 2)))
      (fun i => A (ix3 (0 : Fin 1) (⟨(i 1).val, (i 1).isLt⟩ : Fin 8192) (1 : Fin 2))) (ix2 k (0 : Fin 1)) = Cert.Loss.nearestInA A B k := fun k => by
    unfold nearestArr nearest Cert.Loss.nearestInA
    exact Finset.inf_congr rfl fun j _ => sqDist_swap A B hA hB j k
  have hv : ∀ k : Fin 8192, (W4 m ρ c main_v39 : S8192x1.Idx → EReal) (ix2 k (0 : Fin 1)) = Cert.Loss.nearestInA A B k := fun k => by
    rw [f2]
    exact swapped k
  -- the last host operations
  exact g3_loss (W4 m ρ c) P T A B hd hu hv

end Cert.KernelIdeal.Hand

end
-- ==== Proof.Claims.lean ====
/-
  The certificate's five claims, each proved from the parts.

  Three programs are in play: the kernel as printed, on float words; the same text read over the extended reals; and
  the reference, read over the extended reals. For each, "it runs and keeps its arguments" is read off a run already
  proved: the kernel's two readings run as five segments whose last boundary has every argument buffer as launched;
  the reference is one stretch of host operations whose run states the same directly. Reading the kernel over the
  extended reals rewrote no operation, so there is nothing to preserve. The last claim says the two ideal programs
  compute the same number on every core: the kernel's result buffer at the end of its run is the loss of the four
  arguments, and the reference's result term is the loss stage by stage; memories that agree on the arguments give
  equal losses.
-/
import proofs.«133641_j60370060312890_2_alg».proof.Defs
import proofs.«133641_j60370060312890_2_alg».proof.Proof.MainRun
import proofs.«133641_j60370060312890_2_alg».proof.Proof.Word.MainRun
import proofs.«133641_j60370060312890_2_alg».proof.Proof.Gen.ReferenceIdeal.Run
import proofs.«133641_j60370060312890_2_alg».proof.Proof.RefLoss
import proofs.«133641_j60370060312890_2_alg».proof.Proof.Gen.Kernel
import proofs.«133641_j60370060312890_2_alg».proof.Proof.Gen.KernelIdeal
import proofs.«133641_j60370060312890_2_alg».proof.Proof.Gen.ReferenceIdeal
import proofs.«133641_j60370060312890_2_alg».proof.Proof.Gen.Pre_finite_inputs
import proofs.«133641_j60370060312890_2_alg».proof.Proof.KernelLoss

noncomputable section

namespace Cert.Proof.Claims

open Idealize.ShloMosaic Idealize.ShloMosaic.TcCoe Idealize.SL.Sem

/-! ## The three programs run, and leave their arguments as launched -/

/-- The kernel as printed, on float words: the run of its five segments ends with every unscoped buffer at the last
    boundary's contents, which has the four arguments as launched. -/
theorem frame_p : Cert.frame_Kernel (hKernel := Cert.Kernel.Gen.facts) (hPre_finite_inputs := Cert.Pre_finite_inputs.Gen.facts) := fun m ρ _ =>
  (θ_run Cert.Kernel.defs _ _).mono (fun _ h c =>
      ⟨(h c _ (Cert.Kernel.Hand.mem_uc Cert.Kernel.main_arg0 (by decide))).trans (Cert.Kernel.Hand.W5_main_arg0 m ρ c),
       (h c _ (Cert.Kernel.Hand.mem_uc Cert.Kernel.main_arg1 (by decide))).trans (Cert.Kernel.Hand.W5_main_arg1 m ρ c),
       (h c _ (Cert.Kernel.Hand.mem_uc Cert.Kernel.main_arg2 (by decide))).trans (Cert.Kernel.Hand.W5_main_arg2 m ρ c),
       (h c _ (Cert.Kernel.Hand.mem_uc Cert.Kernel.main_arg3 (by decide))).trans (Cert.Kernel.Hand.W5_main_arg3 m ρ c)⟩)
    (Cert.Kernel.Hand.run_all (F := Bits) m ρ)

/-- The same program read over the extended reals: the same run. -/
theorem frame_pi : Cert.frame_KernelIdeal (hKernelIdeal := Cert.KernelIdeal.Gen.facts) (hPre_finite_inputs := Cert.Pre_finite_inputs.Gen.facts) := fun m ρ _ =>
  (θ_run Cert.KernelIdeal.defs _ _).mono (fun _ h c =>
      ⟨(h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c)⟩)
    (Cert.KernelIdeal.Hand.run_all (F := Ideal) m ρ)

/-- The reference is one stretch of host operations; its run keeps the arguments. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-! ## The idealization rewrote nothing -/

/-- The ideal reading is the program's own text at the extended reals: there is no rewrite to justify. -/
theorem preserves : Cert.preserves_Kernel_KernelIdeal := trivial

/-! ## Both programs compute the loss -/

/-- Over the extended reals, from memories that agree on the four arguments, the kernel's result and the reference's
    are the same number on every core: the loss of the four arguments — one half of the Dice term of the logistic
    mask against the target, plus one half of the two-sided mean nearest squared distance between the point sets.
    The kernel's side is the run's last boundary read at the result buffer; the reference's side is its run's term,
    which is the loss stage by stage, rewritten along the agreement. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Loss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c =>
        ⟨(h c _ (Cert.KernelIdeal.Hand.mem_uc Cert.KernelIdeal.main_v47 (by decide))).trans (Cert.KernelIdeal.Hand.kernel_loss m ρ hpre c),
         (h c _ (Cert.KernelIdeal.Hand.mem_uc Cert.KernelIdeal.main_arg0 (by decide))).trans (Cert.KernelIdeal.Hand.W5_main_arg0 m ρ c),
         (h c _ (Cert.KernelIdeal.Hand.mem_uc Cert.KernelIdeal.main_arg1 (by decide))).trans (Cert.KernelIdeal.Hand.W5_main_arg1 m ρ c),
         (h c _ (Cert.KernelIdeal.Hand.mem_uc Cert.KernelIdeal.main_arg2 (by decide))).trans (Cert.KernelIdeal.Hand.W5_main_arg2 m ρ c),
         (h c _ (Cert.KernelIdeal.Hand.mem_uc Cert.KernelIdeal.main_arg3 (by decide))).trans (Cert.KernelIdeal.Hand.W5_main_arg3 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.RefLoss.ref_loss _ _ _ _

end Cert.Proof.Claims

end
-- ==== Proof.lean ====
/-
  The certificate's claim, assembled.

  The kernel computes a loss of four arrays — logits `P` and a soft target `T` over four 1024×1024 images, and
  two planar point sets `A`, `B` of 8192 points each — in three accelerator regions and two stretches of host
  arithmetic. The first region accumulates, image by image, the three sums `Σ σ(P)·T`, `Σ σ(P)`, `Σ T` (`σ` the
  logistic function), from which the host forms the Dice term `1 − (2·Σ σ(P)·T + ε) / (Σ σ(P) + Σ T + ε)`. The second
  region gives, for each point of `A`, the squared distance to its nearest point of `B`, tile of 128 points by
  tile; the third does the same with the roles of `A` and `B` exchanged; the host takes the two means and adds
  them. The result is one half of each term. The reference computes the same loss as one expression over whole
  arrays.

  Five statements are proved. Each of the three programs — the kernel on float words, the kernel read over the
  extended reals, the reference read over the extended reals — runs to the end without fault from any memory and
  leaves its four arguments as it found them. Reading the kernel over the extended reals rewrote no operation. And
  over the extended reals, from memories that agree on the arguments, the kernel's result and the reference's are
  the same number: the loss above, of the arguments. The five are proved in `Claims`; here they are put together
  under the programs' stated side conditions.
-/
import proofs.«133641_j60370060312890_2_alg».proof.Defs
import proofs.«133641_j60370060312890_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
